-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg20 : FVec F S64 .f32) (main_arg21 : FVec F S128 .f32) (main_arg22 : FVec F S128 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128 .f32) (main_arg18 : FVec F S128 .f32) (main_arg19 : FVec F S64 .f32) (main_arg20 : FVec F S64 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128x64 .f32) (main_arg14 : FVec F S64 .f32) (main_arg15 : FVec F S64x128 .f32) (main_arg16 : FVec F S128 .f32) (main_arg17 : FVec F S128 .f32) (main_arg18 : FVec F S128 .f32) (main_arg19 : FVec F S64 .f32) (main_arg20 : FVec F S64 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128 .f32) (main_arg18 : FVec F S128 .f32) (main_arg19 : FVec F S64 .f32) (main_arg20 : FVec F S64 .f32) (main_arg21 : FVec F S128 .f32) (main_arg22 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64x128 .f32) (main_arg8 : FVec F S128 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128 .f32) (main_arg18 : FVec F S128 .f32) (main_arg19 : FVec F S64 .f32) (main_arg20 : FVec F S64 .f32) (main_arg21 : FVec F S128 .f32) (main_arg22 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) (main_arg7 : FVec F S64x128 .f32) (main_arg8 : FVec F S128 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x128 .f32) (main_arg16 : FVec F S128 .f32) (main_arg17 : FVec F S128 .f32) (main_arg18 : FVec F S128 .f32) (main_arg19 : FVec F S64 .f32) (main_arg20 : FVec F S64 .f32) (main_arg21 : FVec F S128 .f32) (main_arg22 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 123
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S128, .f32⟩
  | .hbm, ⟨23, _⟩ => ⟨S100000, .i32⟩
  | .hbm, ⟨24, _⟩ => ⟨S1700000, .i32⟩
  | .hbm, ⟨25, _⟩ => ⟨S1700000, .i32⟩
  | .hbm, ⟨26, _⟩ => ⟨S_, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S100000x64, .f32⟩
  | .hbm, ⟨97, _⟩ => ⟨S100000x128, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x128, .f32⟩
  | .hbm, ⟨107, _⟩ => ⟨S1700000x1, .f32⟩
  | .hbm, ⟨108, _⟩ => ⟨S1700000x128, .f32⟩
  | .hbm, ⟨109, _⟩ => ⟨S1700000x128, .f32⟩
  | .hbm, ⟨110, _⟩ => ⟨S_, .f32⟩
  | .hbm, ⟨111, _⟩ => ⟨S100000x128, .f32⟩
  | .hbm, ⟨112, _⟩ => ⟨S1700000x1, .i32⟩
  | .hbm, ⟨113, _⟩ => ⟨S100000x128, .f32⟩
  | .hbm, ⟨114, _⟩ => ⟨S1x128, .f32⟩
  | .hbm, ⟨115, _⟩ => ⟨S1x128, .f32⟩
  | .hbm, ⟨116, _⟩ => ⟨S1x64, .f32⟩
  | .hbm, ⟨117, _⟩ => ⟨S1x128, .f32⟩
  | .hbm, ⟨118, _⟩ => ⟨S100000x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x64, .f32⟩
  | .local _ .vmem, ⟨36, _⟩ => ⟨S1x64, .f32⟩
  | .local _ .vmem, ⟨37, _⟩ => ⟨S64x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_c_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_10 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_11 : Ref sig .tc := ⟨.hbm, 98, rfl⟩
abbrev main_v62 : Ref sig .tc := ⟨.hbm, 99, rfl⟩
abbrev main_v63 : Ref sig .tc := ⟨.hbm, 100, rfl⟩
abbrev main_c_12 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc5_stg8_0 : Ref sig .tc := ⟨.vmem, 38, rfl⟩
abbrev cc5_stg9_0 : Ref sig .tc := ⟨.vmem, 39, rfl⟩
abbrev cc5_stg9_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem7_0 : DmaSem sig := 37
abbrev cc5_sem8_0 : DmaSem sig := 38
abbrev cc5_sem9_0 : DmaSem sig := 39
abbrev cc5_sem9_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem4_1 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x128.size a ≤ S64x128.size a
  hwx5_7 : ∀ i : grid5.Coords, EltTy.bits .f32 = 32 ∨ (Rect.block (s := S64x128) S64x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg15) S64x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v78) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v79) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S5000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v83) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 285
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64, .f32⟩
  | 15 => ⟨S64x128, .f32⟩
  | 16 => ⟨S128, .f32⟩
  | 17 => ⟨S128, .f32⟩
  | 18 => ⟨S128, .f32⟩
  | 19 => ⟨S64, .f32⟩
  | 20 => ⟨S64, .f32⟩
  | 21 => ⟨S128, .f32⟩
  | 22 => ⟨S128, .f32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S_, .i32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S100000, .f32⟩
  | 99 => ⟨S100000x1, .f32⟩
  | 100 => ⟨S100000x1, .f32⟩
  | 101 => ⟨S100000x1, .f32⟩
  | 102 => ⟨S_, .f32⟩
  | 103 => ⟨S_, .i1⟩
  | 104 => ⟨S_, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S_, .f32⟩
  | 111 => ⟨S100000x1, .f32⟩
  | 112 => ⟨S100000x1, .f32⟩
  | 113 => ⟨S100000x1, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S_, .i32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S100000x64, .f32⟩
  | 33 => ⟨S_, .f32⟩
  | 34 => ⟨S_, .f32⟩
  | 35 => ⟨S_, .f32⟩
  | 36 => ⟨S_, .f32⟩
  | 37 => ⟨S100000, .f32⟩
  | 38 => ⟨S100000x1, .f32⟩
  | 39 => ⟨S100000x1, .f32⟩
  | 40 => ⟨S100000x1, .f32⟩
  | 41 => ⟨S_, .f32⟩
  | 42 => ⟨S_, .i1⟩
  | 43 => ⟨S_, .f32⟩
  | 44 => ⟨S_, .f32⟩
  | 45 => ⟨S100000x1, .f32⟩
  | 46 => ⟨S100000x1, .f32⟩
  | 47 => ⟨S100000x64, .f32⟩
  | 48 => ⟨S100000x64, .f32⟩
  | 49 => ⟨S_, .f32⟩
  | 50 => ⟨S100000x1, .f32⟩
  | 51 => ⟨S100000x1, .f32⟩
  | 52 => ⟨S100000x1, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S_, .i32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S100000, .f32⟩
  | 105 => ⟨S100000x1, .f32⟩
  | 106 => ⟨S100000x1, .f32⟩
  | 107 => ⟨S100000x1, .f32⟩
  | 108 => ⟨S_, .f32⟩
  | 109 => ⟨S_, .i1⟩
  | 110 => ⟨S_, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S_, .f32⟩
  | 117 => ⟨S100000x1, .f32⟩
  | 118 => ⟨S100000x1, .f32⟩
  | 119 => ⟨S100000x1, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call0_cst : Ref sig .tc := ⟨.hbm, 75, rfl⟩
abbrev main_call0_v0 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_c_10 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_cst_3 : Ref sig .tc := ⟨.hbm, 102, rfl⟩
abbrev main_call1_v13 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_11 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_12 : Ref sig .tc := ⟨.hbm, 123, rfl⟩
abbrev main_v62 : Ref sig .tc := ⟨.hbm, 124, rfl⟩
abbrev main_v63 : Ref sig .tc := ⟨.hbm, 125, rfl⟩
abbrev main_c_13 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_14 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_call2_cst : Ref sig .tc := ⟨.hbm, 142, rfl⟩
abbrev main_call2_v0 : Ref sig .tc := ⟨.hbm, 143, rfl⟩
abbrev main_v78 : Ref sig .tc := ⟨.hbm, 144, rfl⟩
abbrev main_cst_15 : Ref sig .tc := ⟨.hbm, 145, rfl⟩
abbrev main_v79 : Ref sig .tc := ⟨.hbm, 146, rfl⟩
abbrev main_v80 : Ref sig .tc := ⟨.hbm, 147, rfl⟩
abbrev main_cst_16 : Ref sig .tc := ⟨.hbm, 148, rfl⟩
abbrev main_v81 : Ref sig .tc := ⟨.hbm, 149, rfl⟩
abbrev main_v82 : Ref sig .tc := ⟨.hbm, 150, rfl⟩
abbrev main_c_17 : Ref sig .tc := ⟨.hbm, 151, rfl⟩
abbrev main_call3_cst : Ref sig .tc := ⟨.hbm, 152, rfl⟩
abbrev main_call3_v0 : Ref sig .tc := ⟨.hbm, 153, rfl⟩
abbrev main_call3_v1 : Ref sig .tc := ⟨.hbm, 154, rfl⟩
abbrev main_call3_cst_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_v7 : Ref sig .tc := ⟨.hbm, 161, rfl⟩
abbrev main_call3_cst_1 : Ref sig .tc := ⟨.hbm, 162, rfl⟩
abbrev main_call3_v8 : Ref sig .tc := ⟨.hbm, 163, rfl⟩
abbrev main_call3_cst_2 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_v12 : Ref sig .tc := ⟨.hbm, 168, rfl⟩
abbrev main_call3_cst_3 : Ref sig .tc := ⟨.hbm, 169, rfl⟩
abbrev main_call3_v13 : Ref sig .tc := ⟨.hbm, 170, rfl⟩
abbrev main_call3_cst_4 : Ref sig .tc := ⟨.hbm, 171, rfl⟩
abbrev main_call3_call0_v0 : Ref sig .tc := ⟨.hbm, 172, rfl⟩
abbrev main_call3_call0_v1 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_cst_18 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_c_19 : Ref sig .tc := ⟨.hbm, 190, rfl⟩
abbrev main_v98 : Ref sig .tc := ⟨.hbm, 191, rfl⟩
abbrev main_v99 : Ref sig .tc := ⟨.hbm, 192, rfl⟩
abbrev main_c_20 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_cst_21 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_call4_cst : Ref sig .tc := ⟨.hbm, 209, rfl⟩
abbrev main_call4_v0 : Ref sig .tc := ⟨.hbm, 210, rfl⟩
abbrev main_v114 : Ref sig .tc := ⟨.hbm, 211, rfl⟩
abbrev main_cst_22 : Ref sig .tc := ⟨.hbm, 212, rfl⟩
abbrev main_v115 : Ref sig .tc := ⟨.hbm, 213, rfl⟩
abbrev main_v116 : Ref sig .tc := ⟨.hbm, 214, rfl⟩
abbrev main_cst_23 : Ref sig .tc := ⟨.hbm, 215, rfl⟩
abbrev main_v117 : Ref sig .tc := ⟨.hbm, 216, rfl⟩
abbrev main_v118 : Ref sig .tc := ⟨.hbm, 217, rfl⟩
abbrev main_c_24 : Ref sig .tc := ⟨.hbm, 218, rfl⟩
abbrev main_call5_cst : Ref sig .tc := ⟨.hbm, 219, rfl⟩
abbrev main_call5_v0 : Ref sig .tc := ⟨.hbm, 220, rfl⟩
abbrev main_call5_v1 : Ref sig .tc := ⟨.hbm, 221, rfl⟩
abbrev main_call5_cst_0 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_call5_v5 : Ref sig .tc := ⟨.hbm, 226, rfl⟩
abbrev main_call5_v6 : Ref sig .tc := ⟨.hbm, 227, rfl⟩
abbrev main_call5_v7 : Ref sig .tc := ⟨.hbm, 228, rfl⟩
abbrev main_call5_cst_1 : Ref sig .tc := ⟨.hbm, 229, rfl⟩
abbrev main_call5_v8 : Ref sig .tc := ⟨.hbm, 230, rfl⟩
abbrev main_call5_cst_2 : Ref sig .tc := ⟨.hbm, 231, rfl⟩
abbrev main_call5_v9 : Ref sig .tc := ⟨.hbm, 232, rfl⟩
abbrev main_call5_v10 : Ref sig .tc := ⟨.hbm, 233, rfl⟩
abbrev main_call5_v11 : Ref sig .tc := ⟨.hbm, 234, rfl⟩
abbrev main_call5_v12 : Ref sig .tc := ⟨.hbm, 235, rfl⟩
abbrev main_call5_cst_3 : Ref sig .tc := ⟨.hbm, 236, rfl⟩
abbrev main_call5_v13 : Ref sig .tc := ⟨.hbm, 237, rfl⟩
abbrev main_call5_cst_4 : Ref sig .tc := ⟨.hbm, 238, rfl⟩
abbrev main_call5_call0_v0 : Ref sig .tc := ⟨.hbm, 239, rfl⟩
abbrev main_call5_call0_v1 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_cst_25 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_call6_cst : Ref sig .tc := ⟨.hbm, 260, rfl⟩
abbrev main_call6_v0 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_call7_cst : Ref sig .tc := ⟨.hbm, 267, rfl⟩
abbrev main_call7_v0 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_v145 : Ref sig .tc := ⟨.hbm, 272, rfl⟩
abbrev main_v146 : Ref sig .tc := ⟨.hbm, 273, rfl⟩
abbrev main_call8_cst : Ref sig .tc := ⟨.hbm, 274, rfl⟩
abbrev main_call8_v0 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_cst_26 : Ref sig .tc := ⟨.hbm, 282, rfl⟩
abbrev main_v153 : Ref sig .tc := ⟨.hbm, 283, rfl⟩
abbrev main_v154 : Ref sig .tc := ⟨.hbm, 284, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.Spec.lean ====
/-
  The computation both programs perform, written once as plain functions of arrays of extended reals, index by index.

  A graph-convolution layer transforms the node features by a matrix (`lin`), lets every node sum the scaled rows of its
  in-neighbours (the gather / scatter-add chain, which both programs spell with the same host operations and which is
  therefore not restated here), then adds a bias, clips at zero and normalises each row to mean 0 and variance 1 before a
  per-column scale and shift (`postln`). The dense branch is four affine maps with a clip at zero after the first three
  (`mlp`). The result is the mean of the two branches (`combine`).

  Every function is ROW-WISE: row `r` of the result depends on row `r` of the tall operand only. That is what lets a tiled
  kernel compute it block of rows by block of rows.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 array of extended reals with `N` rows and `D` columns. -/
abbrev Arr2 (N D : Nat) : Type := (⟨2, ![N, D]⟩ : Shape).Idx → EReal

/-- The float zero's value. -/
abbrev zeroV : EReal := Ideal.ofBits .f32 0x00000000#32
/-- The layer norm's epsilon, the binary float nearest 1e-5, on both sides. -/
abbrev epsV : EReal := Ideal.ofBits .f32 0x3727C5AC#32
/-- One half. -/
abbrev halfV : EReal := Ideal.ofBits .f32 0x3F000000#32

/-- Entry `(r, q)` of the matrix product `x · W`: the sum over the shared axis. -/
def linAt {N K M : Nat} (x : Arr2 N K) (W : Arr2 K M) (r : Fin N) (q : Fin M) : EReal :=
  ∑ k : Fin K, x (ix2 r k) * W (ix2 k q)

/-- The matrix product `x · W`. -/
def lin {N K M : Nat} (x : Arr2 N K) (W : Arr2 K M) : Arr2 N M := fun i => linAt x W (i 0) (i 1)

/-- Row `r` of `max (s + b) 0`, the bias `b` a single row added to every row. -/
def reluRow {N D : Nat} (s : Arr2 N D) (b : Arr2 1 D) (r : Fin N) (k : Fin D) : EReal :=
  max (s (ix2 r k) + b (ix2 0 k)) zeroV

/-- The mean of a row: its sum divided by the row length's float `cD`. -/
def meanRow {D : Nat} (cD : EReal) (h : Fin D → EReal) : EReal := Ideal.div (∑ k : Fin D, h k) cD

/-- The mean of the squared deviations of a row from its mean. -/
def varRow {D : Nat} (cD : EReal) (h : Fin D → EReal) : EReal :=
  Ideal.div (∑ k : Fin D, (h k - meanRow cD h) * (h k - meanRow cD h)) cD

/-- One entry of the normalised row: centred, divided by the root of the variance plus epsilon, scaled and shifted. -/
def lnRow {D : Nat} (cD : EReal) (h g bt : Fin D → EReal) (q : Fin D) : EReal :=
  (h q - meanRow cD h) * Ideal.rsqrt (varRow cD h + epsV) * g q + bt q

/-- Bias, clip at zero, layer norm with scale `g` and shift `bt` (single rows). -/
def postln {N D : Nat} (cD : EReal) (s : Arr2 N D) (b g bt : Arr2 1 D) : Arr2 N D := fun i =>
  lnRow cD (reluRow s b (i 0)) (fun k => g (ix2 0 k)) (fun k => bt (ix2 0 k)) (i 1)

/-- The mean of the two branches. -/
def combine {N D : Nat} (x f : Arr2 N D) : Arr2 N D := fun i => (x i + f i) * halfV

/-- An affine layer followed by the clip at zero: `max (x · W + b) 0`. -/
def dense {N K M : Nat} (x : Arr2 N K) (W : Arr2 K M) (b : Arr2 1 M) : Arr2 N M := fun i =>
  max (linAt x W (i 0) (i 1) + b (ix2 0 (i 1))) zeroV

/-- An affine layer with no clip: `x · W + b`. -/
def affine {N K M : Nat} (x : Arr2 N K) (W : Arr2 K M) (b : Arr2 1 M) : Arr2 N M := fun i =>
  linAt x W (i 0) (i 1) + b (ix2 0 (i 1))

/-- The dense branch: three clipped affine layers and a last affine one. -/
def mlp {N A B C E : Nat} (x : Arr2 N A) (W1 : Arr2 A B) (b1 : Arr2 1 B) (W2 : Arr2 B C) (b2 : Arr2 1 C)
    (W3 : Arr2 C E) (b3 : Arr2 1 E) (W4 : Arr2 E A) (b4 : Arr2 1 A) : Arr2 N A :=
  affine (dense (dense (dense x W1 b1) W2 b2) W3 b3) W4 b4

end Cert.Spec

end
-- ==== Proof.Iface.lean ====
/-
  What each of the kernel's seven tiled regions leaves in its result array, stated as a proposition per region: for ANY
  contents `V` of the buffers when the region is entered, the result array after the region is the row-wise function of
  `Spec` applied to the region's operand arrays as `V` holds them. The regions compute their result block of 5000 rows by
  block of 5000 rows; twenty blocks tile the 100000 rows.
-/
import proofs.«112095_j75685913690122_1_alg».proof.Proof.Gen.KernelIdeal.Frame
import proofs.«112095_j75685913690122_1_alg».proof.Proof.Spec

noncomputable section

namespace Cert.KernelIdeal.Iface

open Idealize.ShloMosaic Idealize.ShloMosaic.TcCoe Idealize.SL.Sem
open Cert.KernelIdeal Cert.KernelIdeal.Gen Cert.Spec

/-- The buffers' contents on every core, as a region finds them. -/
abbrev VT : Type := (c : Dev nD) → (b : Ref sig .tc) → Buf (Elt Ideal) ((c : Thread nD τ).loc b)

/-- The row length 128 as the float the programs divide by. -/
abbrev c128 : EReal := Ideal.ofBits .f32 0x43000000#32
/-- The row length 64 as the float the programs divide by. -/
abbrev c64 : EReal := Ideal.ofBits .f32 0x42800000#32

/-- Region 0: the first graph layer's feature transform, `x · Wc1`. -/
def Final0 : Prop := ∀ (V : VT) (c : Dev nD),
  ((dat0 V c).arrAt 2 cfg0.N : Arr2 100000 128) = lin (V c main_arg0 : Arr2 100000 128) (V c main_arg3 : Arr2 128 128)

/-- Region 1: bias, clip and layer norm of the first layer's aggregate. -/
def Final1 : Prop := ∀ (V : VT) (c : Dev nD),
  ((dat1 V c).arrAt 4 cfg1.N : Arr2 100000 128)
    = postln c128 (V c main_v38 : Arr2 100000 128) (V c main_v39 : Arr2 1 128) (V c main_v40 : Arr2 1 128) (V c main_v41 : Arr2 1 128)

/-- Region 2: the second layer's feature transform, 128 columns to 64. -/
def Final2 : Prop := ∀ (V : VT) (c : Dev nD),
  ((dat2 V c).arrAt 2 cfg2.N : Arr2 100000 64) = lin (V c main_v42 : Arr2 100000 128) (V c main_arg5 : Arr2 128 64)

/-- Region 3: bias, clip and layer norm of the second layer's aggregate, rows of 64. -/
def Final3 : Prop := ∀ (V : VT) (c : Dev nD),
  ((dat3 V c).arrAt 4 cfg3.N : Arr2 100000 64)
    = postln c64 (V c main_v56 : Arr2 100000 64) (V c main_v57 : Arr2 1 64) (V c main_v58 : Arr2 1 64) (V c main_v59 : Arr2 1 64)

/-- Region 4: the third layer's feature transform, 64 columns to 128. -/
def Final4 : Prop := ∀ (V : VT) (c : Dev nD),
  ((dat4 V c).arrAt 2 cfg4.N : Arr2 100000 128) = lin (V c main_v60 : Arr2 100000 64) (V c main_arg7 : Arr2 64 128)

/-- Region 5: the dense branch on the raw features. -/
def Final5 : Prop := ∀ (V : VT) (c : Dev nD),
  ((dat5 V c).arrAt 9 cfg5.N : Arr2 100000 128)
    = mlp (V c main_arg0 : Arr2 100000 128) (V c main_arg9 : Arr2 128 128) (V c main_v75 : Arr2 1 128)
        (V c main_arg11 : Arr2 128 128) (V c main_v76 : Arr2 1 128) (V c main_arg13 : Arr2 128 64) (V c main_v77 : Arr2 1 64)
        (V c main_arg15 : Arr2 64 128) (V c main_v78 : Arr2 1 128)

/-- Region 6: the third layer's bias, clip and layer norm, averaged with the dense branch. -/
def Final6 : Prop := ∀ (V : VT) (c : Dev nD),
  ((dat6 V c).arrAt 5 cfg6.N : Arr2 100000 128)
    = combine (postln c128 (V c main_v74 : Arr2 100000 128) (V c main_v80 : Arr2 1 128) (V c main_v81 : Arr2 1 128) (V c main_v82 : Arr2 1 128))
        (V c main_v79 : Arr2 100000 128)

end Cert.KernelIdeal.Iface

end
-- ==== Proof.KChain.lean ====
/-
  The host's part of a graph-convolution layer, named once.

  Between the tiled regions the host turns the transformed node features `hw` into the aggregate each node
  receives: every edge `e` (the given edges followed by one self loop per node) reads row `src e` of `hw`, scales it
  by the edge's weight `nrm e`, and the scaled rows are summed into row `dst e`. The weight of an edge is the product
  of the inverse square roots of its two ends' degrees, a degree being the number of edges that arrive at the node,
  and at least one. Indices are read the way the array language reads them: a negative index counts from the end.

  Each definition below is the composition of the host operations exactly as the program lists them, so that the
  contents of a buffer a host stretch wrote is the definition applied to the stretch's inputs by unfolding alone.
  Nothing here is ever evaluated: the arrays have 100000 and 1700000 rows, and the definitions are carried as
  opaque functions of their inputs.
-/
import proofs.«112095_j75685913690122_1_alg».proof.Proof.Gen.KernelIdeal
import proofs.«112095_j75685913690122_1_alg».proof.Proof.Spec

noncomputable section

namespace Cert.KernelIdeal.KChain

open Idealize.ShloMosaic Idealize.SL.Sem
open Cert.KernelIdeal Cert.KernelIdeal.Gen Cert.Spec

/-- An array of 32-bit integers of shape `S`. -/
abbrev IArr (S : Shape) : Type := (⟨S, .i32⟩ : BufTy).Contents (Elt Ideal)
/-- An array of extended reals of shape `S`. -/
abbrev FArr (S : Shape) : Type := (⟨S, .f32⟩ : BufTy).Contents (Elt Ideal)

/-- An edge-end list followed by the node numbers `0 … 99999`: one self loop per node appended to the edges. -/
def withLoops (a : IArr S1600000) : IArr S1700000 :=
  concatenate S1700000 0 [⟨S1600000, a⟩, ⟨S100000, iotaInDim S100000 32 0⟩] concatenates_S1600000_S100000_S1700000_d0

/-- The edges' sources, self loops appended. -/
def srcSl (a1 : IArr S1600000) : IArr S1700000 := withLoops a1
/-- The edges' destinations, self loops appended. -/
def dstSl (a2 : IArr S1600000) : IArr S1700000 := withLoops a2

/-- A negative index counts from the end: `i + 100000` where `i < 0`, else `i`. -/
def wrap (s : IArr S1700000) : IArr S1700000 :=
  select (cmpi .slt s (broadcastInDim S1700000 ![] bcast_S_S1700000 (constantI S_ 32 0#32)))
    (addi s (broadcastInDim S1700000 ![] bcast_S_S1700000 (constantI S_ 32 100000#32))) s

/-- An index list as a one-column table, the form the gather and the scatter read. -/
def col (s : IArr S1700000) : IArr S1700000x1 := broadcastInDim S1700000x1 ![0] bcast_S1700000_S1700000x1_0 s

/-- The inverse square root of every node's degree: ones summed into the destinations, at least one. -/
def invSqrtDeg (d : IArr S1700000) : FArr S100000 :=
  Host.rsqrt (F := Ideal) (φ := .f32) (maximumf (F := Ideal) (φ := .f32)
    (Host.scatterAdd (F := Ideal) (φ := .f32) scatter_S100000_S1700000x1_S1700000_n_0_0_1
      (broadcastInDim S100000 ![] bcast_S_S100000 (constant (F := Ideal) S_ .f32 0x00000000#32))
      (col d)
      (broadcastInDim S1700000 ![] bcast_S_S1700000 (constant (F := Ideal) S_ .f32 0x3F800000#32)))
    (broadcastInDim S100000 ![] bcast_S_S100000 (constant (F := Ideal) S_ .f32 0x3F800000#32)))

/-- The edges' weights from the two end lists: the product of the two ends' inverse square-root degrees. -/
def normOf (s d : IArr S1700000) : FArr S1700000 :=
  mulf (F := Ideal) (φ := .f32)
    (Host.gather gather_S100000_S1700000x1_S1700000_n_0_n_n_0_1_1 (invSqrtDeg d) (col (wrap s)))
    (Host.gather gather_S100000_S1700000x1_S1700000_n_0_n_n_0_1_1 (invSqrtDeg d) (col (wrap d)))

/-- The edges' weights from the given edge lists. -/
def norm (a1 a2 : IArr S1600000) : FArr S1700000 := normOf (srcSl a1) (dstSl a2)

/-- The aggregate of 128-column features: row `src e` of `hw` times `nrm e`, summed into row `dst e`, from zero. -/
def agg128 (hw : Arr2 100000 128) (s d : IArr S1700000) (nrm : FArr S1700000) : Arr2 100000 128 :=
  Host.scatterAdd (F := Ideal) (φ := .f32) scatter_S100000x128_S1700000x1_S1700000x128_1_0_0_1
    (broadcastInDim S100000x128 ![] bcast_S_S100000x128 (constant (F := Ideal) S_ .f32 0x00000000#32))
    (col d)
    (mulf (F := Ideal) (φ := .f32)
      (Host.gather gather_S100000x128_S1700000x1_S1700000x128_1_0_n_n_0_1_1128 hw (col (wrap s)))
      (broadcastInDim S1700000x128 ![0, 1] bcast_S1700000x1_S1700000x128_0_1
        (broadcastInDim S1700000x1 ![0] bcast_S1700000_S1700000x1_0 nrm)))

/-- The aggregate of 64-column features: the same sum over rows of 64. -/
def agg64 (hw : Arr2 100000 64) (s d : IArr S1700000) (nrm : FArr S1700000) : Arr2 100000 64 :=
  Host.scatterAdd (F := Ideal) (φ := .f32) scatter_S100000x64_S1700000x1_S1700000x64_1_0_0_1
    (broadcastInDim S100000x64 ![] bcast_S_S100000x64 (constant (F := Ideal) S_ .f32 0x00000000#32))
    (col d)
    (mulf (F := Ideal) (φ := .f32)
      (Host.gather gather_S100000x64_S1700000x1_S1700000x64_1_0_n_n_0_1_164 hw (col (wrap s)))
      (broadcastInDim S1700000x64 ![0, 1] bcast_S1700000x1_S1700000x64_0_1
        (broadcastInDim S1700000x1 ![0] bcast_S1700000_S1700000x1_0 nrm)))

/-- A vector of 128 entries as a single row. -/
def row128 (b : FArr S128) : Arr2 1 128 := fun i => shapeCast S1x128 b shapeCasts_S128_S1x128 i
/-- A vector of 64 entries as a single row. -/
def row64 (b : FArr S64) : Arr2 1 64 := fun i => shapeCast S1x64 b shapeCasts_S64_S1x64 i

end Cert.KernelIdeal.KChain

end
-- ==== Proof.KKeep.lean ====
/-
  Which buffers each of the five stretches of host operations writes, and that every other buffer keeps its contents
  across the stretch.

  A host operation writes exactly one buffer, its result. Listing a stretch's results once makes "this buffer is not
  written by the stretch" a finite check on the buffer's name, and the contents after the stretch at such a buffer are
  the contents before it.
-/
import proofs.«112095_j75685913690122_1_alg».proof.Proof.Gen.KernelIdeal.Launch
import Idealize.ShloMosaic.Lib.StableHlo.Run

noncomputable section

namespace Cert.KernelIdeal.KKeep

open Idealize.ShloMosaic Idealize.ShloMosaic.TcCoe Idealize.SL.Sem
open Cert.KernelIdeal Cert.KernelIdeal.Gen

variable {F : FTy → Type} [FloatOps F]

/-- The buffers the first host stretch writes: one per operation, in order. -/
def wr0 : List (Ref sig .tc) :=
  [main_v0, main_v1, main_v2, main_cst, main_v3, main_cst_0, main_v4, main_v5, main_v6, main_cst_1, main_v7, main_v8, main_v9, main_c, main_v10, main_v11, main_c_2, main_v12, main_v13, main_v14, main_v15, main_v16, main_c_3, main_v17, main_v18, main_c_4, main_v19, main_v20, main_v21, main_v22, main_v23, main_v24]

/-- Every operation of the first host stretch writes a buffer of that list only. -/
theorem writes0 : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the first host stretch does not write holds after it what it held before, whatever the contents. -/
theorem keep0 (W : Valuation τ sig (Elt F)) {r : Ref sig .tc} (hr : r ∉ wr0) :
    StableHlo.after hostOps0 W (Proc.devRef .tc r) = W (Proc.devRef .tc r) :=
  StableHlo.after_of_writes_sub hostOps0 W writes0 hr

/-- The buffers the second host stretch writes: one per operation, in order. -/
def wr1 : List (Ref sig .tc) :=
  [main_c_5, main_v26, main_v27, main_c_6, main_v28, main_v29, main_v30, main_v31, main_v32, main_v33, main_v34, main_v35, main_cst_7, main_v36, main_v37, main_v38, main_v39, main_v40, main_v41]

/-- Every operation of the second host stretch writes a buffer of that list only. -/
theorem writes1 : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the second host stretch does not write holds after it what it held before, whatever the contents. -/
theorem keep1 (W : Valuation τ sig (Elt F)) {r : Ref sig .tc} (hr : r ∉ wr1) :
    StableHlo.after hostOps1 W (Proc.devRef .tc r) = W (Proc.devRef .tc r) :=
  StableHlo.after_of_writes_sub hostOps1 W writes1 hr

/-- The buffers the third host stretch writes: one per operation, in order. -/
def wr3 : List (Ref sig .tc) :=
  [main_c_8, main_v44, main_v45, main_c_9, main_v46, main_v47, main_v48, main_v49, main_v50, main_v51, main_v52, main_v53, main_cst_10, main_v54, main_v55, main_v56, main_v57, main_v58, main_v59]

/-- Every operation of the third host stretch writes a buffer of that list only. -/
theorem writes3 : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the third host stretch does not write holds after it what it held before, whatever the contents. -/
theorem keep3 (W : Valuation τ sig (Elt F)) {r : Ref sig .tc} (hr : r ∉ wr3) :
    StableHlo.after hostOps3 W (Proc.devRef .tc r) = W (Proc.devRef .tc r) :=
  StableHlo.after_of_writes_sub hostOps3 W writes3 hr

/-- The buffers the fourth host stretch writes: one per operation, in order. -/
def wr5 : List (Ref sig .tc) :=
  [main_c_11, main_v62, main_v63, main_c_12, main_v64, main_v65, main_v66, main_v67, main_v68, main_v69, main_v70, main_v71, main_cst_13, main_v72, main_v73, main_v74, main_v75, main_v76, main_v77, main_v78]

/-- Every operation of the fourth host stretch writes a buffer of that list only. -/
theorem writes5 : (hostOps5 : List (HloOp τ sig (Elt F))).Forall fun op =>
    op.writes ⊆ (wr5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the fourth host stretch does not write holds after it what it held before, whatever the contents. -/
theorem keep5 (W : Valuation τ sig (Elt F)) {r : Ref sig .tc} (hr : r ∉ wr5) :
    StableHlo.after hostOps5 W (Proc.devRef .tc r) = W (Proc.devRef .tc r) :=
  StableHlo.after_of_writes_sub hostOps5 W writes5 hr

/-- The buffers the last host stretch writes: one per operation, in order. -/
def wr6 : List (Ref sig .tc) :=
  [main_v80, main_v81, main_v82]

/-- Every operation of the last host stretch writes a buffer of that list only. -/
theorem writes6 : (hostOps6 : List (HloOp τ sig (Elt F))).Forall fun op =>
    op.writes ⊆ (wr6.map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer the last host stretch does not write holds after it what it held before, whatever the contents. -/
theorem keep6 (W : Valuation τ sig (Elt F)) {r : Ref sig .tc} (hr : r ∉ wr6) :
    StableHlo.after hostOps6 W (Proc.devRef .tc r) = W (Proc.devRef .tc r) :=
  StableHlo.after_of_writes_sub hostOps6 W writes6 hr

end Cert.KernelIdeal.KKeep

end
-- ==== Proof.KOps.lean ====
/-
  What the host stretches leave in the buffers the tiled regions read, as the named functions of `KChain` applied to
  what the stretch found in its input buffers.

  Each statement is about one stretch run from ARBITRARY contents `W`: the result buffer after the stretch holds the
  named function of the contents `W` has at the stretch's inputs. The inputs are given names through hypotheses
  (`W` at an input buffer is `x`), so that a use site supplies what it knows of them and no term is rewritten.
  The proofs unfold the stretch operation by operation and compare with the definition; no array is evaluated.
-/
import proofs.«112095_j75685913690122_1_alg».proof.Proof.Gen.KernelIdeal.Launch
import proofs.«112095_j75685913690122_1_alg».proof.Proof.KChain
import Idealize.ShloMosaic.Lib.StableHlo.Run

noncomputable section

namespace Cert.KernelIdeal.KOps

open Idealize.ShloMosaic Idealize.ShloMosaic.TcCoe Idealize.ShloMosaic.StableHlo Idealize.SL.Sem
open Cert.KernelIdeal Cert.KernelIdeal.Gen Cert.KernelIdeal.KChain Cert.Spec

variable (W : Valuation τ sig (Elt Ideal))

/-! ## The first stretch: the edge lists with self loops, and the edges' weights -/

/-- The sources with self loops appended. -/
theorem ops0_v1 {a1 : IArr S1600000} (h1 : W (Proc.devRef .tc main_arg1) = a1) :
    StableHlo.after (hostOps0 (F := Ideal)) W (Proc.devRef .tc main_v1) = srcSl a1 := by
  subst h1
  show StableHlo.after (hostOps0 (F := Ideal)) W (Proc.devRef .tc main_v1) = _
  after_results_simp
  rfl

/-- The destinations with self loops appended. -/
theorem ops0_v2 {a2 : IArr S1600000} (h2 : W (Proc.devRef .tc main_arg2) = a2) :
    StableHlo.after (hostOps0 (F := Ideal)) W (Proc.devRef .tc main_v2) = dstSl a2 := by
  subst h2
  show StableHlo.after (hostOps0 (F := Ideal)) W (Proc.devRef .tc main_v2) = _
  after_results_simp
  rfl

/-- The edges' weights. -/
theorem ops0_v24 {a1 : IArr S1600000} {a2 : IArr S1600000} (h1 : W (Proc.devRef .tc main_arg1) = a1) (h2 : W (Proc.devRef .tc main_arg2) = a2) :
    StableHlo.after (hostOps0 (F := Ideal)) W (Proc.devRef .tc main_v24) = norm a1 a2 := by
  subst h1 h2
  show StableHlo.after (hostOps0 (F := Ideal)) W (Proc.devRef .tc main_v24) = _
  after_results_simp
  rfl

/-! ## The second stretch: the first layer's aggregate and its bias, scale and shift as rows -/

/-- The aggregate of the first layer's transformed features. -/
theorem ops1_v38 {hw : Arr2 100000 128} {s : IArr S1700000} {d : IArr S1700000} {nrm : FArr S1700000} (hx : W (Proc.devRef .tc main_v25) = hw) (hs : W (Proc.devRef .tc main_v1) = s) (hd : W (Proc.devRef .tc main_v2) = d) (hn : W (Proc.devRef .tc main_v24) = nrm) :
    StableHlo.after (hostOps1 (F := Ideal)) W (Proc.devRef .tc main_v38) = agg128 hw s d nrm := by
  subst hx hs hd hn
  show StableHlo.after (hostOps1 (F := Ideal)) W (Proc.devRef .tc main_v38) = _
  after_results_simp
  rfl

/-- The stretch's buffer `main_v39` holds the vector `main_arg4` as a single row. -/
theorem ops1_v39 {b : FArr S128} (hb : W (Proc.devRef .tc main_arg4) = b) :
    StableHlo.after (hostOps1 (F := Ideal)) W (Proc.devRef .tc main_v39) = row128 b := by
  subst hb
  show StableHlo.after (hostOps1 (F := Ideal)) W (Proc.devRef .tc main_v39) = _
  after_results_simp
  rfl

/-- The stretch's buffer `main_v40` holds the vector `main_arg17` as a single row. -/
theorem ops1_v40 {b : FArr S128} (hb : W (Proc.devRef .tc main_arg17) = b) :
    StableHlo.after (hostOps1 (F := Ideal)) W (Proc.devRef .tc main_v40) = row128 b := by
  subst hb
  show StableHlo.after (hostOps1 (F := Ideal)) W (Proc.devRef .tc main_v40) = _
  after_results_simp
  rfl

/-- The stretch's buffer `main_v41` holds the vector `main_arg18` as a single row. -/
theorem ops1_v41 {b : FArr S128} (hb : W (Proc.devRef .tc main_arg18) = b) :
    StableHlo.after (hostOps1 (F := Ideal)) W (Proc.devRef .tc main_v41) = row128 b := by
  subst hb
  show StableHlo.after (hostOps1 (F := Ideal)) W (Proc.devRef .tc main_v41) = _
  after_results_simp
  rfl

/-! ## The third stretch: the second layer's aggregate (rows of 64) and its three rows -/

/-- The aggregate of the second layer's transformed features. -/
theorem ops3_v56 {hw : Arr2 100000 64} {s : IArr S1700000} {d : IArr S1700000} {nrm : FArr S1700000} (hx : W (Proc.devRef .tc main_v43) = hw) (hs : W (Proc.devRef .tc main_v1) = s) (hd : W (Proc.devRef .tc main_v2) = d) (hn : W (Proc.devRef .tc main_v24) = nrm) :
    StableHlo.after (hostOps3 (F := Ideal)) W (Proc.devRef .tc main_v56) = agg64 hw s d nrm := by
  subst hx hs hd hn
  show StableHlo.after (hostOps3 (F := Ideal)) W (Proc.devRef .tc main_v56) = _
  after_results_simp
  rfl

/-- The stretch's buffer `main_v57` holds the vector `main_arg6` as a single row. -/
theorem ops3_v57 {b : FArr S64} (hb : W (Proc.devRef .tc main_arg6) = b) :
    StableHlo.after (hostOps3 (F := Ideal)) W (Proc.devRef .tc main_v57) = row64 b := by
  subst hb
  show StableHlo.after (hostOps3 (F := Ideal)) W (Proc.devRef .tc main_v57) = _
  after_results_simp
  rfl

/-- The stretch's buffer `main_v58` holds the vector `main_arg19` as a single row. -/
theorem ops3_v58 {b : FArr S64} (hb : W (Proc.devRef .tc main_arg19) = b) :
    StableHlo.after (hostOps3 (F := Ideal)) W (Proc.devRef .tc main_v58) = row64 b := by
  subst hb
  show StableHlo.after (hostOps3 (F := Ideal)) W (Proc.devRef .tc main_v58) = _
  after_results_simp
  rfl

/-- The stretch's buffer `main_v59` holds the vector `main_arg20` as a single row. -/
theorem ops3_v59 {b : FArr S64} (hb : W (Proc.devRef .tc main_arg20) = b) :
    StableHlo.after (hostOps3 (F := Ideal)) W (Proc.devRef .tc main_v59) = row64 b := by
  subst hb
  show StableHlo.after (hostOps3 (F := Ideal)) W (Proc.devRef .tc main_v59) = _
  after_results_simp
  rfl

/-! ## The fourth stretch: the third layer's aggregate and the dense branch's four biases as rows -/

/-- The aggregate of the third layer's transformed features. -/
theorem ops5_v74 {hw : Arr2 100000 128} {s : IArr S1700000} {d : IArr S1700000} {nrm : FArr S1700000} (hx : W (Proc.devRef .tc main_v61) = hw) (hs : W (Proc.devRef .tc main_v1) = s) (hd : W (Proc.devRef .tc main_v2) = d) (hn : W (Proc.devRef .tc main_v24) = nrm) :
    StableHlo.after (hostOps5 (F := Ideal)) W (Proc.devRef .tc main_v74) = agg128 hw s d nrm := by
  subst hx hs hd hn
  show StableHlo.after (hostOps5 (F := Ideal)) W (Proc.devRef .tc main_v74) = _
  after_results_simp
  rfl

/-- The stretch's buffer `main_v75` holds the vector `main_arg10` as a single row. -/
theorem ops5_v75 {b : FArr S128} (hb : W (Proc.devRef .tc main_arg10) = b) :
    StableHlo.after (hostOps5 (F := Ideal)) W (Proc.devRef .tc main_v75) = row128 b := by
  subst hb
  show StableHlo.after (hostOps5 (F := Ideal)) W (Proc.devRef .tc main_v75) = _
  after_results_simp
  rfl

/-- The stretch's buffer `main_v76` holds the vector `main_arg12` as a single row. -/
theorem ops5_v76 {b : FArr S128} (hb : W (Proc.devRef .tc main_arg12) = b) :
    StableHlo.after (hostOps5 (F := Ideal)) W (Proc.devRef .tc main_v76) = row128 b := by
  subst hb
  show StableHlo.after (hostOps5 (F := Ideal)) W (Proc.devRef .tc main_v76) = _
  after_results_simp
  rfl

/-- The stretch's buffer `main_v77` holds the vector `main_arg14` as a single row. -/
theorem ops5_v77 {b : FArr S64} (hb : W (Proc.devRef .tc main_arg14) = b) :
    StableHlo.after (hostOps5 (F := Ideal)) W (Proc.devRef .tc main_v77) = row64 b := by
  subst hb
  show StableHlo.after (hostOps5 (F := Ideal)) W (Proc.devRef .tc main_v77) = _
  after_results_simp
  rfl

/-- The stretch's buffer `main_v78` holds the vector `main_arg16` as a single row. -/
theorem ops5_v78 {b : FArr S128} (hb : W (Proc.devRef .tc main_arg16) = b) :
    StableHlo.after (hostOps5 (F := Ideal)) W (Proc.devRef .tc main_v78) = row128 b := by
  subst hb
  show StableHlo.after (hostOps5 (F := Ideal)) W (Proc.devRef .tc main_v78) = _
  after_results_simp
  rfl

/-! ## The last stretch: the third layer's bias, scale and shift as rows -/

/-- The stretch's buffer `main_v80` holds the vector `main_arg8` as a single row. -/
theorem ops6_v80 {b : FArr S128} (hb : W (Proc.devRef .tc main_arg8) = b) :
    StableHlo.after (hostOps6 (F := Ideal)) W (Proc.devRef .tc main_v80) = row128 b := by
  subst hb
  show StableHlo.after (hostOps6 (F := Ideal)) W (Proc.devRef .tc main_v80) = _
  after_results_simp
  rfl

/-- The stretch's buffer `main_v81` holds the vector `main_arg21` as a single row. -/
theorem ops6_v81 {b : FArr S128} (hb : W (Proc.devRef .tc main_arg21) = b) :
    StableHlo.after (hostOps6 (F := Ideal)) W (Proc.devRef .tc main_v81) = row128 b := by
  subst hb
  show StableHlo.after (hostOps6 (F := Ideal)) W (Proc.devRef .tc main_v81) = _
  after_results_simp
  rfl

/-- The stretch's buffer `main_v82` holds the vector `main_arg22` as a single row. -/
theorem ops6_v82 {b : FArr S128} (hb : W (Proc.devRef .tc main_arg22) = b) :
    StableHlo.after (hostOps6 (F := Ideal)) W (Proc.devRef .tc main_v82) = row128 b := by
  subst hb
  show StableHlo.after (hostOps6 (F := Ideal)) W (Proc.devRef .tc main_v82) = _
  after_results_simp
  rfl

end Cert.KernelIdeal.KOps

end
-- ==== Proof.KBound1.lean ====
/-
  The contents of the buffers the first three tiled regions read, and what those regions leave, walking the program
  from the launch: the first host stretch, region 0 (the first layer's feature transform), the second host stretch,
  region 1 (the first layer's bias, clip and layer norm) and region 2 (the second layer's feature transform).

  The values are named once, as functions of the launch memory `m` on core `c`: the edge lists with self loops `sV`,
  `dV`, the edges' weights `nV`, then layer by layer the transformed features `x0`, the aggregate `g1`, the
  normalised features `y1`, the next transform `x1`. Each region's result is taken from the region's stated
  property (a hypothesis here), applied at the contents the walk has established for the region's operand buffers.
  A buffer nothing writes between two boundaries is carried across them one segment at a time.
-/
import proofs.«112095_j75685913690122_1_alg».proof.Proof.Gen.KernelIdeal.Frame
import proofs.«112095_j75685913690122_1_alg».proof.Proof.Iface
import proofs.«112095_j75685913690122_1_alg».proof.Proof.KChain
import proofs.«112095_j75685913690122_1_alg».proof.Proof.KKeep
import proofs.«112095_j75685913690122_1_alg».proof.Proof.KOps

set_option maxRecDepth 16384

noncomputable section

namespace Cert.KernelIdeal.KBound

open Idealize.ShloMosaic Idealize.ShloMosaic.TcCoe Idealize.SL.Sem
open Cert.KernelIdeal Cert.KernelIdeal.Gen Cert.KernelIdeal.Iface Cert.KernelIdeal.KChain Cert.KernelIdeal.KKeep
open Cert.KernelIdeal.KOps Cert.Spec

variable (m : (ℓ : Loc nD τ sig) → Buf (Elt Ideal) ℓ) (ρ : Dev nD → PrngReg) (c : Dev nD)

/-! ## Congruences of the specification's functions (their arguments are rewritten, never the functions opened) -/

theorem lin_congr {N K M : Nat} {x x' : Arr2 N K} {w w' : Arr2 K M} (hx : x = x') (hw : w = w') : lin x w = lin x' w' := by
  subst hx hw; rfl
theorem postln_congr {N D : Nat} (cD : EReal) {s s' : Arr2 N D} {b b' g g' t t' : Arr2 1 D}
    (hs : s = s') (hb : b = b') (hg : g = g') (ht : t = t') : postln cD s b g t = postln cD s' b' g' t' := by
  subst hs hb hg ht; rfl

/-! ## The named values -/

/-- The edges' sources with self loops, from the launch memory. -/
def sV : IArr S1700000 := srcSl (m ((c : Thread nD τ).loc main_arg1))
/-- The edges' destinations with self loops. -/
def dV : IArr S1700000 := dstSl (m ((c : Thread nD τ).loc main_arg2))
/-- The edges' weights. -/
def nV : FArr S1700000 := norm (m ((c : Thread nD τ).loc main_arg1)) (m ((c : Thread nD τ).loc main_arg2))
/-- The first layer's transformed features `x · Wc1`. -/
def x0 : Arr2 100000 128 := lin (m ((c : Thread nD τ).loc main_arg0)) (m ((c : Thread nD τ).loc main_arg3))
/-- The first layer's aggregate. -/
def g1 : Arr2 100000 128 := agg128 (x0 m c) (sV m c) (dV m c) (nV m c)
/-- The first layer's output: bias, clip, layer norm. -/
def y1 : Arr2 100000 128 := postln c128 (g1 m c) (row128 (m ((c : Thread nD τ).loc main_arg4))) (row128 (m ((c : Thread nD τ).loc main_arg17))) (row128 (m ((c : Thread nD τ).loc main_arg18)))
/-- The second layer's transformed features. -/
def x1 : Arr2 100000 64 := lin (y1 m c) (m ((c : Thread nD τ).loc main_arg5))

/-! ## Boundary 1: after the first host stretch (region 0's entry) -/

/-- Argument 0 is untouched up to boundary 1. -/
theorem W1_arg0 : W1 m ρ c (Proc.devRef .tc main_arg0) = m ((c : Thread nD τ).loc main_arg0) :=
  keep0 (W0 m ρ c) (r := main_arg0) (by decide)

/-- Argument 3 is untouched up to boundary 1. -/
theorem W1_arg3 : W1 m ρ c (Proc.devRef .tc main_arg3) = m ((c : Thread nD τ).loc main_arg3) :=
  keep0 (W0 m ρ c) (r := main_arg3) (by decide)

/-- The sources with self loops, as the first stretch leaves them. -/
theorem W1_v1 : W1 m ρ c (Proc.devRef .tc main_v1) = sV m c := ops0_v1 (W0 m ρ c) rfl
/-- The destinations with self loops. -/
theorem W1_v2 : W1 m ρ c (Proc.devRef .tc main_v2) = dV m c := ops0_v2 (W0 m ρ c) rfl
/-- The edges' weights. -/
theorem W1_v24 : W1 m ρ c (Proc.devRef .tc main_v24) = nV m c := ops0_v24 (W0 m ρ c) rfl rfl

/-! ## Boundary 2: after region 0 -/

/-- Region 0 leaves the first layer's transformed features in its result buffer. -/
theorem W2_v25 (H0 : Final0) : W2 m ρ c (Proc.devRef .tc main_v25) = x0 m c :=
  (W2_arr m ρ c 2).trans ((H0 (V1 m ρ) c).trans (lin_congr (W1_arg0 m ρ c) (W1_arg3 m ρ c)))
/-- The sources are not touched by region 0. -/
theorem W2_v1 : W2 m ρ c (Proc.devRef .tc main_v1) = sV m c :=
  (W2_of_ne m ρ c main_v1 (by decide)).trans
      (W1_v1 m ρ c)

/-- The destinations are not touched by region 0. -/
theorem W2_v2 : W2 m ρ c (Proc.devRef .tc main_v2) = dV m c :=
  (W2_of_ne m ρ c main_v2 (by decide)).trans
      (W1_v2 m ρ c)

/-- The weights are not touched by region 0. -/
theorem W2_v24 : W2 m ρ c (Proc.devRef .tc main_v24) = nV m c :=
  (W2_of_ne m ρ c main_v24 (by decide)).trans
      (W1_v24 m ρ c)

/-- Argument 4 is untouched up to boundary 2. -/
theorem W2_arg4 : W2 m ρ c (Proc.devRef .tc main_arg4) = m ((c : Thread nD τ).loc main_arg4) :=
  (W2_of_ne m ρ c main_arg4 (by decide)).trans
      (keep0 (W0 m ρ c) (r := main_arg4) (by decide))

/-- Argument 17 is untouched up to boundary 2. -/
theorem W2_arg17 : W2 m ρ c (Proc.devRef .tc main_arg17) = m ((c : Thread nD τ).loc main_arg17) :=
  (W2_of_ne m ρ c main_arg17 (by decide)).trans
      (keep0 (W0 m ρ c) (r := main_arg17) (by decide))

/-- Argument 18 is untouched up to boundary 2. -/
theorem W2_arg18 : W2 m ρ c (Proc.devRef .tc main_arg18) = m ((c : Thread nD τ).loc main_arg18) :=
  (W2_of_ne m ρ c main_arg18 (by decide)).trans
      (keep0 (W0 m ρ c) (r := main_arg18) (by decide))

/-! ## Boundary 3: after the second host stretch (region 1's entry) -/

/-- Region 1's first operand: the first layer's aggregate. -/
theorem W3_v38 (H0 : Final0) : W3 m ρ c (Proc.devRef .tc main_v38) = g1 m c :=
  ops1_v38 (W2 m ρ c) (W2_v25 m ρ c H0) (W2_v1 m ρ c) (W2_v2 m ρ c) (W2_v24 m ρ c)
/-- Region 1's bias row. -/
theorem W3_v39 : W3 m ρ c (Proc.devRef .tc main_v39) = row128 (m ((c : Thread nD τ).loc main_arg4)) := ops1_v39 (W2 m ρ c) (W2_arg4 m ρ c)
/-- Region 1's scale row. -/
theorem W3_v40 : W3 m ρ c (Proc.devRef .tc main_v40) = row128 (m ((c : Thread nD τ).loc main_arg17)) := ops1_v40 (W2 m ρ c) (W2_arg17 m ρ c)
/-- Region 1's shift row. -/
theorem W3_v41 : W3 m ρ c (Proc.devRef .tc main_v41) = row128 (m ((c : Thread nD τ).loc main_arg18)) := ops1_v41 (W2 m ρ c) (W2_arg18 m ρ c)

/-! ## Boundary 4: after region 1 (region 2's entry) -/

/-- Region 1 leaves the first layer's output in its result buffer. -/
theorem W4_v42 (H0 : Final0) (H1 : Final1) : W4 m ρ c (Proc.devRef .tc main_v42) = y1 m c :=
  (W4_arr m ρ c 4).trans ((H1 (V3 m ρ) c).trans
    (postln_congr c128 (W3_v38 m ρ c H0) (W3_v39 m ρ c) (W3_v40 m ρ c) (W3_v41 m ρ c)))
/-- Argument 5 is untouched up to boundary 4. -/
theorem W4_arg5 : W4 m ρ c (Proc.devRef .tc main_arg5) = m ((c : Thread nD τ).loc main_arg5) :=
  (W4_of_ne m ρ c main_arg5 (by decide)).trans
      ((keep1 (W2 m ρ c) (r := main_arg5) (by decide)).trans
      ((W2_of_ne m ρ c main_arg5 (by decide)).trans
      (keep0 (W0 m ρ c) (r := main_arg5) (by decide))))

/-! ## Boundary 5: after region 2 -/

/-- Region 2 leaves the second layer's transformed features in its result buffer. -/
theorem W5_v43 (H0 : Final0) (H1 : Final1) (H2 : Final2) : W5 m ρ c (Proc.devRef .tc main_v43) = x1 m c :=
  (W5_arr m ρ c 2).trans ((H2 (V4 m ρ) c).trans (lin_congr (W4_v42 m ρ c H0 H1) (W4_arg5 m ρ c)))
/-- The sources reach the third host stretch unchanged. -/
theorem W5_v1 : W5 m ρ c (Proc.devRef .tc main_v1) = sV m c :=
  (W5_of_ne m ρ c main_v1 (by decide)).trans
      ((W4_of_ne m ρ c main_v1 (by decide)).trans
      ((keep1 (W2 m ρ c) (r := main_v1) (by decide)).trans
      ((W2_of_ne m ρ c main_v1 (by decide)).trans
      (W1_v1 m ρ c))))

/-- The destinations reach the third host stretch unchanged. -/
theorem W5_v2 : W5 m ρ c (Proc.devRef .tc main_v2) = dV m c :=
  (W5_of_ne m ρ c main_v2 (by decide)).trans
      ((W4_of_ne m ρ c main_v2 (by decide)).trans
      ((keep1 (W2 m ρ c) (r := main_v2) (by decide)).trans
      ((W2_of_ne m ρ c main_v2 (by decide)).trans
      (W1_v2 m ρ c))))

/-- The weights reach the third host stretch unchanged. -/
theorem W5_v24 : W5 m ρ c (Proc.devRef .tc main_v24) = nV m c :=
  (W5_of_ne m ρ c main_v24 (by decide)).trans
      ((W4_of_ne m ρ c main_v24 (by decide)).trans
      ((keep1 (W2 m ρ c) (r := main_v24) (by decide)).trans
      ((W2_of_ne m ρ c main_v24 (by decide)).trans
      (W1_v24 m ρ c))))

/-- Argument 6 is untouched up to boundary 5. -/
theorem W5_arg6 : W5 m ρ c (Proc.devRef .tc main_arg6) = m ((c : Thread nD τ).loc main_arg6) :=
  (W5_of_ne m ρ c main_arg6 (by decide)).trans
      ((W4_of_ne m ρ c main_arg6 (by decide)).trans
      ((keep1 (W2 m ρ c) (r := main_arg6) (by decide)).trans
      ((W2_of_ne m ρ c main_arg6 (by decide)).trans
      (keep0 (W0 m ρ c) (r := main_arg6) (by decide)))))

/-- Argument 19 is untouched up to boundary 5. -/
theorem W5_arg19 : W5 m ρ c (Proc.devRef .tc main_arg19) = m ((c : Thread nD τ).loc main_arg19) :=
  (W5_of_ne m ρ c main_arg19 (by decide)).trans
      ((W4_of_ne m ρ c main_arg19 (by decide)).trans
      ((keep1 (W2 m ρ c) (r := main_arg19) (by decide)).trans
      ((W2_of_ne m ρ c main_arg19 (by decide)).trans
      (keep0 (W0 m ρ c) (r := main_arg19) (by decide)))))

/-- Argument 20 is untouched up to boundary 5. -/
theorem W5_arg20 : W5 m ρ c (Proc.devRef .tc main_arg20) = m ((c : Thread nD τ).loc main_arg20) :=
  (W5_of_ne m ρ c main_arg20 (by decide)).trans
      ((W4_of_ne m ρ c main_arg20 (by decide)).trans
      ((keep1 (W2 m ρ c) (r := main_arg20) (by decide)).trans
      ((W2_of_ne m ρ c main_arg20 (by decide)).trans
      (keep0 (W0 m ρ c) (r := main_arg20) (by decide)))))

end Cert.KernelIdeal.KBound

end
-- ==== Proof.KBound2.lean ====
/-
  The walk continued through the third host stretch, region 3 (the second layer's bias, clip and layer norm over rows
  of 64) and region 4 (the third layer's feature transform): the second layer's aggregate `g2`, its normalised output
  `y2`, and the third layer's transformed features `x2`.
-/
import proofs.«112095_j75685913690122_1_alg».proof.Proof.KBound1

set_option maxRecDepth 16384

noncomputable section

namespace Cert.KernelIdeal.KBound

open Idealize.ShloMosaic Idealize.ShloMosaic.TcCoe Idealize.SL.Sem
open Cert.KernelIdeal Cert.KernelIdeal.Gen Cert.KernelIdeal.Iface Cert.KernelIdeal.KChain Cert.KernelIdeal.KKeep
open Cert.KernelIdeal.KOps Cert.Spec

variable (m : (ℓ : Loc nD τ sig) → Buf (Elt Ideal) ℓ) (ρ : Dev nD → PrngReg) (c : Dev nD)

/-! ## The named values -/

/-- The second layer's aggregate (rows of 64). -/
def g2 : Arr2 100000 64 := agg64 (x1 m c) (sV m c) (dV m c) (nV m c)
/-- The second layer's output. -/
def y2 : Arr2 100000 64 := postln c64 (g2 m c) (row64 (m ((c : Thread nD τ).loc main_arg6))) (row64 (m ((c : Thread nD τ).loc main_arg19))) (row64 (m ((c : Thread nD τ).loc main_arg20)))
/-- The third layer's transformed features. -/
def x2 : Arr2 100000 128 := lin (y2 m c) (m ((c : Thread nD τ).loc main_arg7))

/-! ## Boundary 6: after the third host stretch (region 3's entry) -/

/-- Region 3's first operand: the second layer's aggregate. -/
theorem W6_v56 (H0 : Final0) (H1 : Final1) (H2 : Final2) : W6 m ρ c (Proc.devRef .tc main_v56) = g2 m c :=
  ops3_v56 (W5 m ρ c) (W5_v43 m ρ c H0 H1 H2) (W5_v1 m ρ c) (W5_v2 m ρ c) (W5_v24 m ρ c)
/-- Region 3's bias row. -/
theorem W6_v57 : W6 m ρ c (Proc.devRef .tc main_v57) = row64 (m ((c : Thread nD τ).loc main_arg6)) := ops3_v57 (W5 m ρ c) (W5_arg6 m ρ c)
/-- Region 3's scale row. -/
theorem W6_v58 : W6 m ρ c (Proc.devRef .tc main_v58) = row64 (m ((c : Thread nD τ).loc main_arg19)) := ops3_v58 (W5 m ρ c) (W5_arg19 m ρ c)
/-- Region 3's shift row. -/
theorem W6_v59 : W6 m ρ c (Proc.devRef .tc main_v59) = row64 (m ((c : Thread nD τ).loc main_arg20)) := ops3_v59 (W5 m ρ c) (W5_arg20 m ρ c)

/-! ## Boundary 7: after region 3 (region 4's entry) -/

/-- Region 3 leaves the second layer's output in its result buffer. -/
theorem W7_v60 (H0 : Final0) (H1 : Final1) (H2 : Final2) (H3 : Final3) : W7 m ρ c (Proc.devRef .tc main_v60) = y2 m c :=
  (W7_arr m ρ c 4).trans ((H3 (V6 m ρ) c).trans
    (postln_congr c64 (W6_v56 m ρ c H0 H1 H2) (W6_v57 m ρ c) (W6_v58 m ρ c) (W6_v59 m ρ c)))
/-- Argument 7 is untouched up to boundary 7. -/
theorem W7_arg7 : W7 m ρ c (Proc.devRef .tc main_arg7) = m ((c : Thread nD τ).loc main_arg7) :=
  (W7_of_ne m ρ c main_arg7 (by decide)).trans
      ((keep3 (W5 m ρ c) (r := main_arg7) (by decide)).trans
      ((W5_of_ne m ρ c main_arg7 (by decide)).trans
      ((W4_of_ne m ρ c main_arg7 (by decide)).trans
      ((keep1 (W2 m ρ c) (r := main_arg7) (by decide)).trans
      ((W2_of_ne m ρ c main_arg7 (by decide)).trans
      (keep0 (W0 m ρ c) (r := main_arg7) (by decide)))))))

/-! ## Boundary 8: after region 4 -/

/-- Region 4 leaves the third layer's transformed features in its result buffer. -/
theorem W8_v61 (H0 : Final0) (H1 : Final1) (H2 : Final2) (H3 : Final3) (H4 : Final4) : W8 m ρ c (Proc.devRef .tc main_v61) = x2 m c :=
  (W8_arr m ρ c 2).trans ((H4 (V7 m ρ) c).trans (lin_congr (W7_v60 m ρ c H0 H1 H2 H3) (W7_arg7 m ρ c)))
/-- The sources reach the fourth host stretch unchanged. -/
theorem W8_v1 : W8 m ρ c (Proc.devRef .tc main_v1) = sV m c :=
  (W8_of_ne m ρ c main_v1 (by decide)).trans
      ((W7_of_ne m ρ c main_v1 (by decide)).trans
      ((keep3 (W5 m ρ c) (r := main_v1) (by decide)).trans
      (W5_v1 m ρ c)))

/-- The destinations reach the fourth host stretch unchanged. -/
theorem W8_v2 : W8 m ρ c (Proc.devRef .tc main_v2) = dV m c :=
  (W8_of_ne m ρ c main_v2 (by decide)).trans
      ((W7_of_ne m ρ c main_v2 (by decide)).trans
      ((keep3 (W5 m ρ c) (r := main_v2) (by decide)).trans
      (W5_v2 m ρ c)))

/-- The weights reach the fourth host stretch unchanged. -/
theorem W8_v24 : W8 m ρ c (Proc.devRef .tc main_v24) = nV m c :=
  (W8_of_ne m ρ c main_v24 (by decide)).trans
      ((W7_of_ne m ρ c main_v24 (by decide)).trans
      ((keep3 (W5 m ρ c) (r := main_v24) (by decide)).trans
      (W5_v24 m ρ c)))

/-- Argument 10 is untouched up to boundary 8. -/
theorem W8_arg10 : W8 m ρ c (Proc.devRef .tc main_arg10) = m ((c : Thread nD τ).loc main_arg10) :=
  (W8_of_ne m ρ c main_arg10 (by decide)).trans
      ((W7_of_ne m ρ c main_arg10 (by decide)).trans
      ((keep3 (W5 m ρ c) (r := main_arg10) (by decide)).trans
      ((W5_of_ne m ρ c main_arg10 (by decide)).trans
      ((W4_of_ne m ρ c main_arg10 (by decide)).trans
      ((keep1 (W2 m ρ c) (r := main_arg10) (by decide)).trans
      ((W2_of_ne m ρ c main_arg10 (by decide)).trans
      (keep0 (W0 m ρ c) (r := main_arg10) (by decide))))))))

/-- Argument 12 is untouched up to boundary 8. -/
theorem W8_arg12 : W8 m ρ c (Proc.devRef .tc main_arg12) = m ((c : Thread nD τ).loc main_arg12) :=
  (W8_of_ne m ρ c main_arg12 (by decide)).trans
      ((W7_of_ne m ρ c main_arg12 (by decide)).trans
      ((keep3 (W5 m ρ c) (r := main_arg12) (by decide)).trans
      ((W5_of_ne m ρ c main_arg12 (by decide)).trans
      ((W4_of_ne m ρ c main_arg12 (by decide)).trans
      ((keep1 (W2 m ρ c) (r := main_arg12) (by decide)).trans
      ((W2_of_ne m ρ c main_arg12 (by decide)).trans
      (keep0 (W0 m ρ c) (r := main_arg12) (by decide))))))))

/-- Argument 14 is untouched up to boundary 8. -/
theorem W8_arg14 : W8 m ρ c (Proc.devRef .tc main_arg14) = m ((c : Thread nD τ).loc main_arg14) :=
  (W8_of_ne m ρ c main_arg14 (by decide)).trans
      ((W7_of_ne m ρ c main_arg14 (by decide)).trans
      ((keep3 (W5 m ρ c) (r := main_arg14) (by decide)).trans
      ((W5_of_ne m ρ c main_arg14 (by decide)).trans
      ((W4_of_ne m ρ c main_arg14 (by decide)).trans
      ((keep1 (W2 m ρ c) (r := main_arg14) (by decide)).trans
      ((W2_of_ne m ρ c main_arg14 (by decide)).trans
      (keep0 (W0 m ρ c) (r := main_arg14) (by decide))))))))

/-- Argument 16 is untouched up to boundary 8. -/
theorem W8_arg16 : W8 m ρ c (Proc.devRef .tc main_arg16) = m ((c : Thread nD τ).loc main_arg16) :=
  (W8_of_ne m ρ c main_arg16 (by decide)).trans
      ((W7_of_ne m ρ c main_arg16 (by decide)).trans
      ((keep3 (W5 m ρ c) (r := main_arg16) (by decide)).trans
      ((W5_of_ne m ρ c main_arg16 (by decide)).trans
      ((W4_of_ne m ρ c main_arg16 (by decide)).trans
      ((keep1 (W2 m ρ c) (r := main_arg16) (by decide)).trans
      ((W2_of_ne m ρ c main_arg16 (by decide)).trans
      (keep0 (W0 m ρ c) (r := main_arg16) (by decide))))))))

end Cert.KernelIdeal.KBound

end
-- ==== Proof.KBound3.lean ====
/-
  The walk's end: the fourth host stretch, region 5 (the dense branch on the raw features), the last host stretch and
  region 6 (the third layer's bias, clip and layer norm, averaged with the dense branch). The third layer's aggregate
  `g3`, the dense branch `fV` and the result `rV`.
-/
import proofs.«112095_j75685913690122_1_alg».proof.Proof.KBound2

set_option maxRecDepth 16384

noncomputable section

namespace Cert.KernelIdeal.KBound

open Idealize.ShloMosaic Idealize.ShloMosaic.TcCoe Idealize.SL.Sem
open Cert.KernelIdeal Cert.KernelIdeal.Gen Cert.KernelIdeal.Iface Cert.KernelIdeal.KChain Cert.KernelIdeal.KKeep
open Cert.KernelIdeal.KOps Cert.Spec

variable (m : (ℓ : Loc nD τ sig) → Buf (Elt Ideal) ℓ) (ρ : Dev nD → PrngReg) (c : Dev nD)

/-! ## Congruences of the specification's functions -/

theorem mlp_congr {N A B C E : Nat} {x x' : Arr2 N A} {W1 W1' : Arr2 A B} {b1 b1' : Arr2 1 B} {W2 W2' : Arr2 B C}
    {b2 b2' : Arr2 1 C} {W3 W3' : Arr2 C E} {b3 b3' : Arr2 1 E} {W4 W4' : Arr2 E A} {b4 b4' : Arr2 1 A}
    (hx : x = x') (h1 : W1 = W1') (e1 : b1 = b1') (h2 : W2 = W2') (e2 : b2 = b2') (h3 : W3 = W3') (e3 : b3 = b3')
    (h4 : W4 = W4') (e4 : b4 = b4') :
    mlp x W1 b1 W2 b2 W3 b3 W4 b4 = mlp x' W1' b1' W2' b2' W3' b3' W4' b4' := by
  subst hx h1 e1 h2 e2 h3 e3 h4 e4; rfl
theorem combine_congr {N D : Nat} {x x' f f' : Arr2 N D} (hx : x = x') (hf : f = f') : combine x f = combine x' f' := by
  subst hx hf; rfl

/-! ## The named values -/

/-- The third layer's aggregate. -/
def g3 : Arr2 100000 128 := agg128 (x2 m c) (sV m c) (dV m c) (nV m c)
/-- The dense branch. -/
def fV : Arr2 100000 128 :=
  mlp (m ((c : Thread nD τ).loc main_arg0)) (m ((c : Thread nD τ).loc main_arg9)) (row128 (m ((c : Thread nD τ).loc main_arg10))) (m ((c : Thread nD τ).loc main_arg11)) (row128 (m ((c : Thread nD τ).loc main_arg12)))
    (m ((c : Thread nD τ).loc main_arg13)) (row64 (m ((c : Thread nD τ).loc main_arg14))) (m ((c : Thread nD τ).loc main_arg15)) (row128 (m ((c : Thread nD τ).loc main_arg16)))
/-- The result: the third layer's output averaged with the dense branch. -/
def rV : Arr2 100000 128 :=
  combine (postln c128 (g3 m c) (row128 (m ((c : Thread nD τ).loc main_arg8))) (row128 (m ((c : Thread nD τ).loc main_arg21))) (row128 (m ((c : Thread nD τ).loc main_arg22)))) (fV m c)

/-! ## Boundary 9: after the fourth host stretch (region 5's entry) -/

/-- The third layer's aggregate, which region 6 will read. -/
theorem W9_v74 (H0 : Final0) (H1 : Final1) (H2 : Final2) (H3 : Final3) (H4 : Final4) : W9 m ρ c (Proc.devRef .tc main_v74) = g3 m c :=
  ops5_v74 (W8 m ρ c) (W8_v61 m ρ c H0 H1 H2 H3 H4) (W8_v1 m ρ c) (W8_v2 m ρ c) (W8_v24 m ρ c)
/-- The dense branch's first bias row. -/
theorem W9_v75 : W9 m ρ c (Proc.devRef .tc main_v75) = row128 (m ((c : Thread nD τ).loc main_arg10)) := ops5_v75 (W8 m ρ c) (W8_arg10 m ρ c)
/-- The dense branch's second bias row. -/
theorem W9_v76 : W9 m ρ c (Proc.devRef .tc main_v76) = row128 (m ((c : Thread nD τ).loc main_arg12)) := ops5_v76 (W8 m ρ c) (W8_arg12 m ρ c)
/-- The dense branch's third bias row (64 entries). -/
theorem W9_v77 : W9 m ρ c (Proc.devRef .tc main_v77) = row64 (m ((c : Thread nD τ).loc main_arg14)) := ops5_v77 (W8 m ρ c) (W8_arg14 m ρ c)
/-- The dense branch's last bias row. -/
theorem W9_v78 : W9 m ρ c (Proc.devRef .tc main_v78) = row128 (m ((c : Thread nD τ).loc main_arg16)) := ops5_v78 (W8 m ρ c) (W8_arg16 m ρ c)
/-- Argument 0 is untouched up to boundary 9. -/
theorem W9_arg0 : W9 m ρ c (Proc.devRef .tc main_arg0) = m ((c : Thread nD τ).loc main_arg0) :=
  (keep5 (W8 m ρ c) (r := main_arg0) (by decide)).trans
      ((W8_of_ne m ρ c main_arg0 (by decide)).trans
      ((W7_of_ne m ρ c main_arg0 (by decide)).trans
      ((keep3 (W5 m ρ c) (r := main_arg0) (by decide)).trans
      ((W5_of_ne m ρ c main_arg0 (by decide)).trans
      ((W4_of_ne m ρ c main_arg0 (by decide)).trans
      ((keep1 (W2 m ρ c) (r := main_arg0) (by decide)).trans
      (((W2_arr m ρ c 0).trans (((dat0 (V1 m ρ) c).arrAt_in 0 rfl _).trans (A_eq0 (V1 m ρ) c 0))).trans
      (keep0 (W0 m ρ c) (r := main_arg0) (by decide)))))))))

/-- Argument 9 is untouched up to boundary 9. -/
theorem W9_arg9 : W9 m ρ c (Proc.devRef .tc main_arg9) = m ((c : Thread nD τ).loc main_arg9) :=
  (keep5 (W8 m ρ c) (r := main_arg9) (by decide)).trans
      ((W8_of_ne m ρ c main_arg9 (by decide)).trans
      ((W7_of_ne m ρ c main_arg9 (by decide)).trans
      ((keep3 (W5 m ρ c) (r := main_arg9) (by decide)).trans
      ((W5_of_ne m ρ c main_arg9 (by decide)).trans
      ((W4_of_ne m ρ c main_arg9 (by decide)).trans
      ((keep1 (W2 m ρ c) (r := main_arg9) (by decide)).trans
      ((W2_of_ne m ρ c main_arg9 (by decide)).trans
      (keep0 (W0 m ρ c) (r := main_arg9) (by decide)))))))))

/-- Argument 11 is untouched up to boundary 9. -/
theorem W9_arg11 : W9 m ρ c (Proc.devRef .tc main_arg11) = m ((c : Thread nD τ).loc main_arg11) :=
  (keep5 (W8 m ρ c) (r := main_arg11) (by decide)).trans
      ((W8_of_ne m ρ c main_arg11 (by decide)).trans
      ((W7_of_ne m ρ c main_arg11 (by decide)).trans
      ((keep3 (W5 m ρ c) (r := main_arg11) (by decide)).trans
      ((W5_of_ne m ρ c main_arg11 (by decide)).trans
      ((W4_of_ne m ρ c main_arg11 (by decide)).trans
      ((keep1 (W2 m ρ c) (r := main_arg11) (by decide)).trans
      ((W2_of_ne m ρ c main_arg11 (by decide)).trans
      (keep0 (W0 m ρ c) (r := main_arg11) (by decide)))))))))

/-- Argument 13 is untouched up to boundary 9. -/
theorem W9_arg13 : W9 m ρ c (Proc.devRef .tc main_arg13) = m ((c : Thread nD τ).loc main_arg13) :=
  (keep5 (W8 m ρ c) (r := main_arg13) (by decide)).trans
      ((W8_of_ne m ρ c main_arg13 (by decide)).trans
      ((W7_of_ne m ρ c main_arg13 (by decide)).trans
      ((keep3 (W5 m ρ c) (r := main_arg13) (by decide)).trans
      ((W5_of_ne m ρ c main_arg13 (by decide)).trans
      ((W4_of_ne m ρ c main_arg13 (by decide)).trans
      ((keep1 (W2 m ρ c) (r := main_arg13) (by decide)).trans
      ((W2_of_ne m ρ c main_arg13 (by decide)).trans
      (keep0 (W0 m ρ c) (r := main_arg13) (by decide)))))))))

/-- Argument 15 is untouched up to boundary 9. -/
theorem W9_arg15 : W9 m ρ c (Proc.devRef .tc main_arg15) = m ((c : Thread nD τ).loc main_arg15) :=
  (keep5 (W8 m ρ c) (r := main_arg15) (by decide)).trans
      ((W8_of_ne m ρ c main_arg15 (by decide)).trans
      ((W7_of_ne m ρ c main_arg15 (by decide)).trans
      ((keep3 (W5 m ρ c) (r := main_arg15) (by decide)).trans
      ((W5_of_ne m ρ c main_arg15 (by decide)).trans
      ((W4_of_ne m ρ c main_arg15 (by decide)).trans
      ((keep1 (W2 m ρ c) (r := main_arg15) (by decide)).trans
      ((W2_of_ne m ρ c main_arg15 (by decide)).trans
      (keep0 (W0 m ρ c) (r := main_arg15) (by decide)))))))))

/-! ## Boundary 10: after region 5 -/

/-- Region 5 leaves the dense branch in its result buffer. -/
theorem W10_v79 (H5 : Final5) : W10 m ρ c (Proc.devRef .tc main_v79) = fV m c :=
  (W10_arr m ρ c 9).trans ((H5 (V9 m ρ) c).trans
    (mlp_congr (W9_arg0 m ρ c) (W9_arg9 m ρ c) (W9_v75 m ρ c) (W9_arg11 m ρ c) (W9_v76 m ρ c) (W9_arg13 m ρ c)
      (W9_v77 m ρ c) (W9_arg15 m ρ c) (W9_v78 m ρ c)))
/-- Argument 8 is untouched up to boundary 10. -/
theorem W10_arg8 : W10 m ρ c (Proc.devRef .tc main_arg8) = m ((c : Thread nD τ).loc main_arg8) :=
  (W10_of_ne m ρ c main_arg8 (by decide)).trans
      ((keep5 (W8 m ρ c) (r := main_arg8) (by decide)).trans
      ((W8_of_ne m ρ c main_arg8 (by decide)).trans
      ((W7_of_ne m ρ c main_arg8 (by decide)).trans
      ((keep3 (W5 m ρ c) (r := main_arg8) (by decide)).trans
      ((W5_of_ne m ρ c main_arg8 (by decide)).trans
      ((W4_of_ne m ρ c main_arg8 (by decide)).trans
      ((keep1 (W2 m ρ c) (r := main_arg8) (by decide)).trans
      ((W2_of_ne m ρ c main_arg8 (by decide)).trans
      (keep0 (W0 m ρ c) (r := main_arg8) (by decide))))))))))

/-- Argument 21 is untouched up to boundary 10. -/
theorem W10_arg21 : W10 m ρ c (Proc.devRef .tc main_arg21) = m ((c : Thread nD τ).loc main_arg21) :=
  (W10_of_ne m ρ c main_arg21 (by decide)).trans
      ((keep5 (W8 m ρ c) (r := main_arg21) (by decide)).trans
      ((W8_of_ne m ρ c main_arg21 (by decide)).trans
      ((W7_of_ne m ρ c main_arg21 (by decide)).trans
      ((keep3 (W5 m ρ c) (r := main_arg21) (by decide)).trans
      ((W5_of_ne m ρ c main_arg21 (by decide)).trans
      ((W4_of_ne m ρ c main_arg21 (by decide)).trans
      ((keep1 (W2 m ρ c) (r := main_arg21) (by decide)).trans
      ((W2_of_ne m ρ c main_arg21 (by decide)).trans
      (keep0 (W0 m ρ c) (r := main_arg21) (by decide))))))))))

/-- Argument 22 is untouched up to boundary 10. -/
theorem W10_arg22 : W10 m ρ c (Proc.devRef .tc main_arg22) = m ((c : Thread nD τ).loc main_arg22) :=
  (W10_of_ne m ρ c main_arg22 (by decide)).trans
      ((keep5 (W8 m ρ c) (r := main_arg22) (by decide)).trans
      ((W8_of_ne m ρ c main_arg22 (by decide)).trans
      ((W7_of_ne m ρ c main_arg22 (by decide)).trans
      ((keep3 (W5 m ρ c) (r := main_arg22) (by decide)).trans
      ((W5_of_ne m ρ c main_arg22 (by decide)).trans
      ((W4_of_ne m ρ c main_arg22 (by decide)).trans
      ((keep1 (W2 m ρ c) (r := main_arg22) (by decide)).trans
      ((W2_of_ne m ρ c main_arg22 (by decide)).trans
      (keep0 (W0 m ρ c) (r := main_arg22) (by decide))))))))))

/-! ## Boundary 11: after the last host stretch (region 6's entry) -/

/-- The third layer's aggregate reaches region 6 unchanged. -/
theorem W11_v74 (H0 : Final0) (H1 : Final1) (H2 : Final2) (H3 : Final3) (H4 : Final4) : W11 m ρ c (Proc.devRef .tc main_v74) = g3 m c :=
  (keep6 (W10 m ρ c) (r := main_v74) (by decide)).trans
      ((W10_of_ne m ρ c main_v74 (by decide)).trans
      (W9_v74 m ρ c H0 H1 H2 H3 H4))

/-- The dense branch reaches region 6 unchanged. -/
theorem W11_v79 (H5 : Final5) : W11 m ρ c (Proc.devRef .tc main_v79) = fV m c :=
  (keep6 (W10 m ρ c) (r := main_v79) (by decide)).trans (W10_v79 m ρ c H5)
/-- Region 6's bias row. -/
theorem W11_v80 : W11 m ρ c (Proc.devRef .tc main_v80) = row128 (m ((c : Thread nD τ).loc main_arg8)) := ops6_v80 (W10 m ρ c) (W10_arg8 m ρ c)
/-- Region 6's scale row. -/
theorem W11_v81 : W11 m ρ c (Proc.devRef .tc main_v81) = row128 (m ((c : Thread nD τ).loc main_arg21)) := ops6_v81 (W10 m ρ c) (W10_arg21 m ρ c)
/-- Region 6's shift row. -/
theorem W11_v82 : W11 m ρ c (Proc.devRef .tc main_v82) = row128 (m ((c : Thread nD τ).loc main_arg22)) := ops6_v82 (W10 m ρ c) (W10_arg22 m ρ c)

/-! ## Boundary 12: after region 6, the end -/

/-- Region 6 leaves the result in its result buffer. -/
theorem W12_v83 (H0 : Final0) (H1 : Final1) (H2 : Final2) (H3 : Final3) (H4 : Final4) (H5 : Final5) (H6 : Final6) : W12 m ρ c (Proc.devRef .tc main_v83) = rV m c :=
  (W12_arr m ρ c 5).trans ((H6 (V11 m ρ) c).trans
    (combine_congr
      (postln_congr c128 (W11_v74 m ρ c H0 H1 H2 H3 H4) (W11_v80 m ρ c) (W11_v81 m ρ c) (W11_v82 m ρ c))
      (W11_v79 m ρ c H5)))

end Cert.KernelIdeal.KBound

end
-- ==== Proof.KRes.lean ====
/-
  The kernel's result as ONE function of the twenty-three argument arrays.

  Three graph-convolution layers — transform the features by a matrix, aggregate over the edges with the edges'
  weights, add a bias, clip at zero, normalise each row — with 128, 64 and 128 columns, the last one averaged with a
  dense branch of four affine maps on the raw features. The edge lists (with self loops) and the weights are the same
  in the three layers.
-/
import proofs.«112095_j75685913690122_1_alg».proof.Proof.KChain

noncomputable section

namespace Cert.KernelIdeal.KChain

open Idealize.ShloMosaic
open Cert.KernelIdeal Cert.Spec

/-- The row length 128 as the float the rows' sums are divided by. -/
abbrev cD128 : EReal := Ideal.ofBits .f32 0x43000000#32
/-- The row length 64 as the float the rows' sums are divided by. -/
abbrev cD64 : EReal := Ideal.ofBits .f32 0x42800000#32

/-- The result: arguments in the program's order — features, edge sources, edge destinations, then the three layers'
    matrices and biases (3 … 8), the dense branch's four matrices and biases (9 … 16), and the three layer norms' scales
    and shifts (17 … 22). -/
def res (a0 : Arr2 100000 128) (a1 a2 : IArr S1600000) (a3 : Arr2 128 128) (a4 : FArr S128)
    (a5 : Arr2 128 64) (a6 : FArr S64) (a7 : Arr2 64 128) (a8 : FArr S128) (a9 : Arr2 128 128) (a10 : FArr S128)
    (a11 : Arr2 128 128) (a12 : FArr S128) (a13 : Arr2 128 64) (a14 : FArr S64) (a15 : Arr2 64 128)
    (a16 a17 a18 : FArr S128) (a19 a20 : FArr S64) (a21 a22 : FArr S128) : Arr2 100000 128 :=
  combine
    (postln cD128
      (agg128
        (lin
          (postln cD64
            (agg64
              (lin
                (postln cD128 (agg128 (lin a0 a3) (srcSl a1) (dstSl a2) (norm a1 a2)) (row128 a4) (row128 a17) (row128 a18))
                a5)
              (srcSl a1) (dstSl a2) (norm a1 a2))
            (row64 a6) (row64 a19) (row64 a20))
          a7)
        (srcSl a1) (dstSl a2) (norm a1 a2))
      (row128 a8) (row128 a21) (row128 a22))
    (mlp a0 a9 (row128 a10) a11 (row128 a12) a13 (row64 a14) a15 (row128 a16))

end Cert.KernelIdeal.KChain

end
-- ==== Proof.KRun.lean ====
/-
  The idealized kernel's run, with the contents of every buffer after the last tiled region named.

  The kernel's host program is twelve segments: five stretches of array operations on the host and seven tiled
  regions. The contents of the buffers at each boundary between segments are a fold from the launch memory
  (`Gen.W0` … `Gen.W12`). The run theorem below says that every weakly fair execution from a memory with zero
  semaphore counters terminates without a fault in a state whose unscoped buffers hold `Gen.W12`, the end of that fold;
  any post-condition that follows from this reading holds of the run. Its instance `run_result` reads the result
  buffer and the twenty-three argument buffers: the result holds the fold's value, the arguments what they held at launch.
-/
import proofs.«112095_j75685913690122_1_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the theorem's implicit data are fixed by matching its conclusion with the statement through plain definitions
set_option backward.isDefEq.respectTransparency.types false in
/-- The run of @main on the TensorCores from a memory `m` with zero counters: it terminates, nothing faults, and any
    `Q` that holds of every memory whose unscoped buffers are the last boundary's contents `Gen.W12` holds at the end.

    The twelve segments are run in order by the library's theorem for a program of host stretches and tiled regions.
    What it is given: that @main is the run of the segments; that no pipeline is entered twice; that at launch no core
    owes another anything (`O₀ = 0`, no levels); the launch's ghost element, which is exactly the pipelines' staging
    cells' initial one, with nothing per core beside it; the first thread state — every unscoped buffer at the launch
    contents `Gen.W0`, the generator register, nothing owed — made from what the launch deals to each core; each
    segment's exit state being the next one's entry state as written (thirteen reflexive entailments); and the last
    thread state `Gen.Tₙ`, every unscoped buffer at `Gen.W12`, read against the final memory buffer by buffer. -/
theorem run_post (m : (ℓ : Loc nD τ sig) → Buf (Elt Ideal) ℓ) (ρ : Dev nD → PrngReg)
    {Q : PUnit × MemSt nD τ sig (Elt Ideal) → Prop}
    (hQ : ∀ s : MemSt nD τ sig (Elt Ideal),
      (∀ c : Dev nD, ∀ b ∈ Pipeline.ucRefs τ sig, s.mem (((c : Thread nD τ)).1, b) = Gen.W12 m ρ c b) → Q (⟨⟩, s)) :
    θ_run defs (onTc (τ := τ) (main (F := Ideal))) ⟨m, fun _ => 0, ρ⟩ Q :=
  Pipeline.θ_run_regions_kit (pcfgs (F := Ideal)) adm (pdats m ρ) () cellOf_inj emb₁ defs₀ 𝒱₀ L lv m ρ main (segs m ρ)
    -- @main is the segments' run
    (fun c Q => by rw [main_run m ρ c])
    -- the seven pipelines are entered once each
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The run with the result read: on every core the result buffer ends at the last boundary's contents of it, and each
    of the twenty-three argument buffers ends as launched (no host operation and no region writes an argument). -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v83) = Gen.W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_post m ρ fun s h c =>
    ⟨h c _ (mem_uc main_v83 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c),
     (h c _ (mem_uc main_arg18 (by decide))).trans (W12_main_arg18 m ρ c),
     (h c _ (mem_uc main_arg19 (by decide))).trans (W12_main_arg19 m ρ c),
     (h c _ (mem_uc main_arg20 (by decide))).trans (W12_main_arg20 m ρ c),
     (h c _ (mem_uc main_arg21 (by decide))).trans (W12_main_arg21 m ρ c),
     (h c _ (mem_uc main_arg22 (by decide))).trans (W12_main_arg22 m ρ c)⟩

end Cert.KernelIdeal.KRun

end
-- ==== Proof.KValue.lean ====
/-
  The idealized kernel's result as one function of its arguments, and its run.

  Walking the program from the launch (the `KBound` modules) gives the contents of the result buffer after the last
  region as the nested value `rV`; unfolding the names, that is `KChain.res` of the twenty-three argument arrays as
  the launch memory holds them. The run theorem reads the final memory against the last boundary's contents, so the
  result buffer ends at that value and the arguments end as launched.
-/
import proofs.«112095_j75685913690122_1_alg».proof.Proof.KBound3
import proofs.«112095_j75685913690122_1_alg».proof.Proof.KRes
import proofs.«112095_j75685913690122_1_alg».proof.Proof.KRun

set_option maxRecDepth 16384

noncomputable section

namespace Cert.KernelIdeal.KValue

open Idealize.ShloMosaic Idealize.ShloMosaic.TcCoe Idealize.SL.Sem
open Cert.KernelIdeal Cert.KernelIdeal.Gen Cert.KernelIdeal.Iface Cert.KernelIdeal.KChain Cert.KernelIdeal.KBound Cert.Spec

/-- The named value of the walk is the one nested term: the names unfold to it. -/
theorem rV_eq (m : (ℓ : Loc nD τ sig) → Buf (Elt Ideal) ℓ) (c : Dev nD) :
    rV m c = KChain.res
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))
      (m ((c : Thread nD τ).loc main_arg20))
      (m ((c : Thread nD τ).loc main_arg21))
      (m ((c : Thread nD τ).loc main_arg22)) := rfl

/-- After the last region the result buffer holds `KChain.res` of the argument arrays as launched, given what each
    region computes from its operands. -/
theorem value (H0 : Final0) (H1 : Final1) (H2 : Final2) (H3 : Final3) (H4 : Final4) (H5 : Final5) (H6 : Final6)
    (m : (ℓ : Loc nD τ sig) → Buf (Elt Ideal) ℓ) (ρ : Dev nD → PrngReg) (c : Dev nD) :
    (Gen.W12 m ρ c (Proc.devRef .tc main_v83) : Arr2 100000 128) = KChain.res
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))
      (m ((c : Thread nD τ).loc main_arg20))
      (m ((c : Thread nD τ).loc main_arg21))
      (m ((c : Thread nD τ).loc main_arg22)) :=
  (W12_v83 m ρ c H0 H1 H2 H3 H4 H5 H6).trans (rV_eq m c)

/-- The run: every weakly fair execution from a memory with zero counters terminates without a fault, the result
    buffer holding `KChain.res` of the arguments and every argument buffer unchanged. -/
theorem run (H0 : Final0) (H1 : Final1) (H2 : Final2) (H3 : Final3) (H4 : Final4) (H5 : Final5) (H6 : Final6)
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v83) = KChain.res
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (value H0 H1 H2 H3 H4 H5 H6 m ρ c), (h c).2⟩) (KRun.run_result m ρ)

end Cert.KernelIdeal.KValue

end
-- ==== Proof.HostRunOps.lean ====
/- The reference program's host operations as lists, in order, the called functions' operations in their
   calls' places (over the calls' buffer records): one list per stage of the computation, cut also where
   the program's text is cut into parts; each part's list and the whole list are their concatenations. -/
import proofs.«112095_j75685913690122_1_alg».proof.ReferenceIdeal
import proofs.«112095_j75685913690122_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 32 of 262: the edge lists with self loops and the edge weights. -/
abbrev w0 : List (HloOp τ sig (Elt F)) :=
  [ nullary main_v0 (iotaInDim S100000 32 0),
    binary main_arg1 main_v0 main_v1 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg2 main_v0 main_v2 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v3 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v4 (broadcastInDim S100000 ![] bcast_S_S100000 : (⟨S_, .f32⟩ : BufTy).Contents (Elt F) → (⟨S100000, .f32⟩ : BufTy).Contents (Elt F)),
    unary main_v2 main_v5 (broadcastInDim S1700000x1 ![0] bcast_S1700000_S1700000x1_0 : (⟨S1700000, .i32⟩ : BufTy).Contents (Elt F) → (⟨S1700000x1, .i32⟩ : BufTy).Contents (Elt F)),
    ternary main_v4 main_v5 main_v3 main_v6 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v7 (broadcastInDim S100000 ![] bcast_S_S100000 : (⟨S_, .f32⟩ : BufTy).Contents (Elt F) → (⟨S100000, .f32⟩ : BufTy).Contents (Elt F)),
    binary main_v6 main_v7 main_v8 (maximumf : (⟨S100000, .f32⟩ : BufTy).Contents (Elt F) → (⟨S100000, .f32⟩ : BufTy).Contents (Elt F) → (⟨S100000, .f32⟩ : BufTy).Contents (Elt F)),
    unary main_v8 main_v9 (Host.rsqrt : (⟨S100000, .f32⟩ : BufTy).Contents (Elt F) → (⟨S100000, .f32⟩ : BufTy).Contents (Elt F)),
    nullary main_c (constantI S_ 32 0#32),
    unary main_c main_v10 (broadcastInDim S1700000 ![] bcast_S_S1700000 : (⟨S_, .i32⟩ : BufTy).Contents (Elt F) → (⟨S1700000, .i32⟩ : BufTy).Contents (Elt F)),
    binary main_v1 main_v10 main_v11 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v12 (broadcastInDim S1700000 ![] bcast_S_S1700000 : (⟨S_, .i32⟩ : BufTy).Contents (Elt F) → (⟨S1700000, .i32⟩ : BufTy).Contents (Elt F)),
    binary main_v1 main_v12 main_v13 (addi : (⟨S1700000, .i32⟩ : BufTy).Contents (Elt F) → (⟨S1700000, .i32⟩ : BufTy).Contents (Elt F) → (⟨S1700000, .i32⟩ : BufTy).Contents (Elt F)),
    ternary main_v11 main_v13 main_v1 main_v14 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v14 main_v15 (broadcastInDim S1700000x1 ![0] bcast_S1700000_S1700000x1_0 : (⟨S1700000, .i32⟩ : BufTy).Contents (Elt F) → (⟨S1700000x1, .i32⟩ : BufTy).Contents (Elt F)),
    binary main_v9 main_v15 main_v16 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v17 (broadcastInDim S1700000 ![] bcast_S_S1700000 : (⟨S_, .i32⟩ : BufTy).Contents (Elt F) → (⟨S1700000, .i32⟩ : BufTy).Contents (Elt F)),
    binary main_v2 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v2 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v2 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v9 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v16 main_v23 main_v24 (mulf : (⟨S1700000, .f32⟩ : BufTy).Contents (Elt F) → (⟨S1700000, .f32⟩ : BufTy).Contents (Elt F) → (⟨S1700000, .f32⟩ : BufTy).Contents (Elt F)) ]

/-- Operations 33 … 49 of 262: the first product and its aggregation. -/
abbrev w1 : List (HloOp τ sig (Elt F)) :=
  [ binary main_arg0 main_arg3 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v26 (broadcastInDim S1700000 ![] bcast_S_S1700000 : (⟨S_, .i32⟩ : BufTy).Contents (Elt F) → (⟨S1700000, .i32⟩ : BufTy).Contents (Elt F)),
    binary main_v1 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v28 (broadcastInDim S1700000 ![] bcast_S_S1700000 : (⟨S_, .i32⟩ : BufTy).Contents (Elt F) → (⟨S1700000, .i32⟩ : BufTy).Contents (Elt F)),
    binary main_v1 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v1 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v25 main_v31 main_v32 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v24 main_v33 (broadcastInDim S1700000x1 ![0] bcast_S1700000_S1700000x1_0 : (⟨S1700000, .f32⟩ : BufTy).Contents (Elt F) → (⟨S1700000x1, .f32⟩ : BufTy).Contents (Elt F)),
    unary main_v33 main_v34 (broadcastInDim S1700000x128 ![0, 1] bcast_S1700000x1_S1700000x128_0_1 : (⟨S1700000x1, .f32⟩ : BufTy).Contents (Elt F) → (⟨S1700000x128, .f32⟩ : BufTy).Contents (Elt F)),
    binary main_v32 main_v34 main_v35 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v36 (broadcastInDim S100000x128 ![] bcast_S_S100000x128 : (⟨S_, .f32⟩ : BufTy).Contents (Elt F) → (⟨S100000x128, .f32⟩ : BufTy).Contents (Elt F)),
    unary main_v2 main_v37 (broadcastInDim S1700000x1 ![0] bcast_S1700000_S1700000x1_0 : (⟨S1700000, .i32⟩ : BufTy).Contents (Elt F) → (⟨S1700000x1, .i32⟩ : BufTy).Contents (Elt F)),
    ternary main_v36 main_v37 main_v35 main_v38 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 50 … 62 of 262: the first normalisation, up to the mean. -/
abbrev w2a : List (HloOp τ sig (Elt F)) :=
  [ unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v41) main_call0.v0 main_call0.v1 maximumf,
    nullary main_cst_8 (constant S_ .f32 0x00000000#32),
    binary main_v42 main_cst_8 main_v43 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v45 (broadcastInDim S100000x1 ![] bcast_S_S100000x1 : (⟨S_, .f32⟩ : BufTy).Contents (Elt F) → (⟨S100000x1, .f32⟩ : BufTy).Contents (Elt F)),
    binary main_v44 main_v45 main_v46 (Host.divf : (⟨S100000x1, .f32⟩ : BufTy).Contents (Elt F) → (⟨S100000x1, .f32⟩ : BufTy).Contents (Elt F) → (⟨S100000x1, .f32⟩ : BufTy).Contents (Elt F)),
    nullary main_c_10 (constantI S_ 32 0#32) ]

/-- Operations 63 … 99 of 262: the first normalisation, from the variance on. -/
abbrev w2b : List (HloOp τ sig (Elt F)) :=
  [ TRef.nullary main_call1.cst (constant S_ .f32 0x00000000#32),
    TRef.binary (.of main_v42) main_call1.cst main_call1.v0 (fun x v => Host.reduceAdd x v reducesTo_S100000x128_S100000_d1 h_S_),
    TRef.unary main_call1.v0 main_call1.v1 (broadcastInDim S100000x1 ![0] bcast_S100000_S100000x1_0),
    TRef.nullary main_call1.cst_0 (constant S_ .f32 0x43000000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x128 ![0, 1] bcast_S100000x1_S100000x128_0_1),
    TRef.binary (.of main_v42) main_call1.v4 main_call1.v5 subf,
    TRef.binary main_call1.v5 main_call1.v5 main_call1.v6 mulf,
    TRef.unary (.of main_c_10) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2 (fun p a b => select (broadcastInDim S100000x1 ![] bcast_S_S100000x1 p) a b),
    unary main_v46 main_v48 (broadcastInDim S100000x128 ![0, 1] bcast_S100000x1_S100000x128_0_1 : (⟨S100000x1, .f32⟩ : BufTy).Contents (Elt F) → (⟨S100000x128, .f32⟩ : BufTy).Contents (Elt F)),
    binary main_v42 main_v48 main_v49 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v50 (broadcastInDim S100000x1 ![] bcast_S_S100000x1 : (⟨S_, .f32⟩ : BufTy).Contents (Elt F) → (⟨S100000x1, .f32⟩ : BufTy).Contents (Elt F)),
    binary main_v47 main_v50 main_v51 (addf : (⟨S100000x1, .f32⟩ : BufTy).Contents (Elt F) → (⟨S100000x1, .f32⟩ : BufTy).Contents (Elt F) → (⟨S100000x1, .f32⟩ : BufTy).Contents (Elt F)),
    unary main_v51 main_v52 (Host.rsqrt : (⟨S100000x1, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v49 main_v53 main_v54 (mulf : (⟨S100000x128, .f32⟩ : BufTy).Contents (Elt F) → (⟨S100000x128, .f32⟩ : BufTy).Contents (Elt F) → (⟨S100000x128, .f32⟩ : BufTy).Contents (Elt F)),
    unary main_arg17 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (mulf : (⟨S100000x128, .f32⟩ : BufTy).Contents (Elt F) → (⟨S100000x128, .f32⟩ : BufTy).Contents (Elt F) → (⟨S100000x128, .f32⟩ : BufTy).Contents (Elt F)),
    unary main_arg18 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)) ]

/-- Operations 100 … 116 of 262: the second product and its aggregation. -/
abbrev w3 : List (HloOp τ sig (Elt F)) :=
  [ binary main_v60 main_arg5 main_v61 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v62 (broadcastInDim S1700000 ![] bcast_S_S1700000 : (⟨S_, .i32⟩ : BufTy).Contents (Elt F) → (⟨S1700000, .i32⟩ : BufTy).Contents (Elt F)),
    binary main_v1 main_v62 main_v63 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v64 (broadcastInDim S1700000 ![] bcast_S_S1700000 : (⟨S_, .i32⟩ : BufTy).Contents (Elt F) → (⟨S1700000, .i32⟩ : BufTy).Contents (Elt F)),
    binary main_v1 main_v64 main_v65 (addi : (⟨S1700000, .i32⟩ : BufTy).Contents (Elt F) → (⟨S1700000, .i32⟩ : BufTy).Contents (Elt F) → (⟨S1700000, .i32⟩ : BufTy).Contents (Elt F)),
    ternary main_v63 main_v65 main_v1 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v66 main_v67 (broadcastInDim S1700000x1 ![0] bcast_S1700000_S1700000x1_0 : (⟨S1700000, .i32⟩ : BufTy).Contents (Elt F) → (⟨S1700000x1, .i32⟩ : BufTy).Contents (Elt F)),
    binary main_v61 main_v67 main_v68 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v24 main_v69 (broadcastInDim S1700000x1 ![0] bcast_S1700000_S1700000x1_0 : (⟨S1700000, .f32⟩ : BufTy).Contents (Elt F) → (⟨S1700000x1, .f32⟩ : BufTy).Contents (Elt F)),
    unary main_v69 main_v70 (broadcastInDim S1700000x64 ![0, 1] bcast_S1700000x1_S1700000x64_0_1 : (⟨S1700000x1, .f32⟩ : BufTy).Contents (Elt F) → (⟨S1700000x64, .f32⟩ : BufTy).Contents (Elt F)),
    binary main_v68 main_v70 main_v71 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v72 (broadcastInDim S100000x64 ![] bcast_S_S100000x64 : (⟨S_, .f32⟩ : BufTy).Contents (Elt F) → (⟨S100000x64, .f32⟩ : BufTy).Contents (Elt F)),
    unary main_v2 main_v73 (broadcastInDim S1700000x1 ![0] bcast_S1700000_S1700000x1_0 : (⟨S1700000, .i32⟩ : BufTy).Contents (Elt F) → (⟨S1700000x1, .i32⟩ : BufTy).Contents (Elt F)),
    ternary main_v72 main_v73 main_v71 main_v74 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 117 … 166 of 262: the second normalisation. -/
abbrev w4 : List (HloOp τ sig (Elt F)) :=
  [ unary main_arg6 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v77) main_call2.v0 main_call2.v1 maximumf,
    nullary main_cst_15 (constant S_ .f32 0x00000000#32),
    binary main_v78 main_cst_15 main_v79 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    nullary main_cst_16 (constant S_ .f32 0x42800000#32),
    unary main_cst_16 main_v81 (broadcastInDim S100000x1 ![] bcast_S_S100000x1 : (⟨S_, .f32⟩ : BufTy).Contents (Elt F) → (⟨S100000x1, .f32⟩ : BufTy).Contents (Elt F)),
    binary main_v80 main_v81 main_v82 (Host.divf : (⟨S100000x1, .f32⟩ : BufTy).Contents (Elt F) → (⟨S100000x1, .f32⟩ : BufTy).Contents (Elt F) → (⟨S100000x1, .f32⟩ : BufTy).Contents (Elt F)),
    nullary main_c_17 (constantI S_ 32 0#32),
    TRef.nullary main_call3.cst (constant S_ .f32 0x00000000#32),
    TRef.binary (.of main_v78) main_call3.cst main_call3.v0 (fun x v => Host.reduceAdd x v reducesTo_S100000x64_S100000_d1 h_S_),
    TRef.unary main_call3.v0 main_call3.v1 (broadcastInDim S100000x1 ![0] bcast_S100000_S100000x1_0),
    TRef.nullary main_call3.cst_0 (constant S_ .f32 0x42800000#32),
    TRef.unary main_call3.cst_0 main_call3.v2 (broadcastInDim S100000x1 ![] bcast_S_S100000x1),
    TRef.binary main_call3.v1 main_call3.v2 main_call3.v3 Host.divf,
    TRef.unary main_call3.v3 main_call3.v4 (broadcastInDim S100000x64 ![0, 1] bcast_S100000x1_S100000x64_0_1),
    TRef.binary (.of main_v78) main_call3.v4 main_call3.v5 subf,
    TRef.binary main_call3.v5 main_call3.v5 main_call3.v6 mulf,
    TRef.unary (.of main_c_17) main_call3.v7 (sitofp .f32),
    TRef.nullary main_call3.cst_1 (constant S_ .f32 0x42800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S100000_d1 h_S_),
    TRef.unary main_call3.v9 main_call3.v10 (broadcastInDim S100000x1 ![0] bcast_S100000_S100000x1_0),
    TRef.unary main_call3.v8 main_call3.v11 (broadcastInDim S100000x1 ![] bcast_S_S100000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S100000x1 ![] bcast_S_S100000x1),
    TRef.ternary main_call3.v13 main_call3.v12 main_call3.call0.v1 main_call3.call0.v2 (fun p a b => select (broadcastInDim S100000x1 ![] bcast_S_S100000x1 p) a b),
    unary main_v82 main_v84 (broadcastInDim S100000x64 ![0, 1] bcast_S100000x1_S100000x64_0_1 : (⟨S100000x1, .f32⟩ : BufTy).Contents (Elt F) → (⟨S100000x64, .f32⟩ : BufTy).Contents (Elt F)),
    binary main_v78 main_v84 main_v85 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v86 (broadcastInDim S100000x1 ![] bcast_S_S100000x1 : (⟨S_, .f32⟩ : BufTy).Contents (Elt F) → (⟨S100000x1, .f32⟩ : BufTy).Contents (Elt F)),
    binary main_v83 main_v86 main_v87 (addf : (⟨S100000x1, .f32⟩ : BufTy).Contents (Elt F) → (⟨S100000x1, .f32⟩ : BufTy).Contents (Elt F) → (⟨S100000x1, .f32⟩ : BufTy).Contents (Elt F)),
    unary main_v87 main_v88 (Host.rsqrt : (⟨S100000x1, .f32⟩ : BufTy).Contents (Elt F) → (⟨S100000x1, .f32⟩ : BufTy).Contents (Elt F)),
    unary main_v88 main_v89 (broadcastInDim S100000x64 ![0, 1] bcast_S100000x1_S100000x64_0_1 : (⟨S100000x1, .f32⟩ : BufTy).Contents (Elt F) → (⟨S100000x64, .f32⟩ : BufTy).Contents (Elt F)),
    binary main_v85 main_v89 main_v90 (mulf : (⟨S100000x64, .f32⟩ : BufTy).Contents (Elt F) → (⟨S100000x64, .f32⟩ : BufTy).Contents (Elt F) → (⟨S100000x64, .f32⟩ : BufTy).Contents (Elt F)),
    unary main_arg19 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v90 main_v92 main_v93 (mulf : (⟨S100000x64, .f32⟩ : BufTy).Contents (Elt F) → (⟨S100000x64, .f32⟩ : BufTy).Contents (Elt F) → (⟨S100000x64, .f32⟩ : BufTy).Contents (Elt F)),
    unary main_arg20 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (addf : (⟨S100000x64, .f32⟩ : BufTy).Contents (Elt F) → (⟨S100000x64, .f32⟩ : BufTy).Contents (Elt F) → (⟨S100000x64, .f32⟩ : BufTy).Contents (Elt F)) ]

/-- Operations 167 … 168 of 262: the third product. -/
abbrev w5a : List (HloOp τ sig (Elt F)) :=
  [ binary main_v96 main_arg7 main_v97 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_19 (constantI S_ 32 0#32) ]

/-- Operations 169 … 183 of 262: the third aggregation. -/
abbrev w5b : List (HloOp τ sig (Elt F)) :=
  [ unary main_c_19 main_v98 (broadcastInDim S1700000 ![] bcast_S_S1700000 : (⟨S_, .i32⟩ : BufTy).Contents (Elt F) → (⟨S1700000, .i32⟩ : BufTy).Contents (Elt F)),
    binary main_v1 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v100 (broadcastInDim S1700000 ![] bcast_S_S1700000 : (⟨S_, .i32⟩ : BufTy).Contents (Elt F) → (⟨S1700000, .i32⟩ : BufTy).Contents (Elt F)),
    binary main_v1 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v1 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v97 main_v103 main_v104 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v24 main_v105 (broadcastInDim S1700000x1 ![0] bcast_S1700000_S1700000x1_0 : (⟨S1700000, .f32⟩ : BufTy).Contents (Elt F) → (⟨S1700000x1, .f32⟩ : BufTy).Contents (Elt F)),
    unary main_v105 main_v106 (broadcastInDim S1700000x128 ![0, 1] bcast_S1700000x1_S1700000x128_0_1 : (⟨S1700000x1, .f32⟩ : BufTy).Contents (Elt F) → (⟨S1700000x128, .f32⟩ : BufTy).Contents (Elt F)),
    binary main_v104 main_v106 main_v107 (mulf : (⟨S1700000x128, .f32⟩ : BufTy).Contents (Elt F) → (⟨S1700000x128, .f32⟩ : BufTy).Contents (Elt F) → (⟨S1700000x128, .f32⟩ : BufTy).Contents (Elt F)),
    nullary main_cst_21 (constant S_ .f32 0x00000000#32),
    unary main_cst_21 main_v108 (broadcastInDim S100000x128 ![] bcast_S_S100000x128 : (⟨S_, .f32⟩ : BufTy).Contents (Elt F) → (⟨S100000x128, .f32⟩ : BufTy).Contents (Elt F)),
    unary main_v2 main_v109 (broadcastInDim S1700000x1 ![0] bcast_S1700000_S1700000x1_0 : (⟨S1700000, .i32⟩ : BufTy).Contents (Elt F) → (⟨S1700000x1, .i32⟩ : BufTy).Contents (Elt F)),
    ternary main_v108 main_v109 main_v107 main_v110 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Operations 184 … 233 of 262: the third normalisation. -/
abbrev w6 : List (HloOp τ sig (Elt F)) :=
  [ unary main_arg8 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v113) main_call4.v0 main_call4.v1 maximumf,
    nullary main_cst_22 (constant S_ .f32 0x00000000#32),
    binary main_v114 main_cst_22 main_v115 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v115 main_v116 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43000000#32),
    unary main_cst_23 main_v117 (broadcastInDim S100000x1 ![] bcast_S_S100000x1 : (⟨S_, .f32⟩ : BufTy).Contents (Elt F) → (⟨S100000x1, .f32⟩ : BufTy).Contents (Elt F)),
    binary main_v116 main_v117 main_v118 (Host.divf : (⟨S100000x1, .f32⟩ : BufTy).Contents (Elt F) → (⟨S100000x1, .f32⟩ : BufTy).Contents (Elt F) → (⟨S100000x1, .f32⟩ : BufTy).Contents (Elt F)),
    nullary main_c_24 (constantI S_ 32 0#32),
    TRef.nullary main_call5.cst (constant S_ .f32 0x00000000#32),
    TRef.binary (.of main_v114) main_call5.cst main_call5.v0 (fun x v => Host.reduceAdd x v reducesTo_S100000x128_S100000_d1 h_S_),
    TRef.unary main_call5.v0 main_call5.v1 (broadcastInDim S100000x1 ![0] bcast_S100000_S100000x1_0),
    TRef.nullary main_call5.cst_0 (constant S_ .f32 0x43000000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x128 ![0, 1] bcast_S100000x1_S100000x128_0_1),
    TRef.binary (.of main_v114) main_call5.v4 main_call5.v5 subf,
    TRef.binary main_call5.v5 main_call5.v5 main_call5.v6 mulf,
    TRef.unary (.of main_c_24) main_call5.v7 (sitofp .f32),
    TRef.nullary main_call5.cst_1 (constant S_ .f32 0x43000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S100000x1 ![] bcast_S_S100000x1),
    TRef.ternary main_call5.v13 main_call5.v12 main_call5.call0.v1 main_call5.call0.v2 (fun p a b => select (broadcastInDim S100000x1 ![] bcast_S_S100000x1 p) a b),
    unary main_v118 main_v120 (broadcastInDim S100000x128 ![0, 1] bcast_S100000x1_S100000x128_0_1 : (⟨S100000x1, .f32⟩ : BufTy).Contents (Elt F) → (⟨S100000x128, .f32⟩ : BufTy).Contents (Elt F)),
    binary main_v114 main_v120 main_v121 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v122 (broadcastInDim S100000x1 ![] bcast_S_S100000x1 : (⟨S_, .f32⟩ : BufTy).Contents (Elt F) → (⟨S100000x1, .f32⟩ : BufTy).Contents (Elt F)),
    binary main_v119 main_v122 main_v123 (addf : (⟨S100000x1, .f32⟩ : BufTy).Contents (Elt F) → (⟨S100000x1, .f32⟩ : BufTy).Contents (Elt F) → (⟨S100000x1, .f32⟩ : BufTy).Contents (Elt F)),
    unary main_v123 main_v124 (Host.rsqrt : (⟨S100000x1, .f32⟩ : BufTy).Contents (Elt F) → (⟨S100000x1, .f32⟩ : BufTy).Contents (Elt F)),
    unary main_v124 main_v125 (broadcastInDim S100000x128 ![0, 1] bcast_S100000x1_S100000x128_0_1 : (⟨S100000x1, .f32⟩ : BufTy).Contents (Elt F) → (⟨S100000x128, .f32⟩ : BufTy).Contents (Elt F)),
    binary main_v121 main_v125 main_v126 (mulf : (⟨S100000x128, .f32⟩ : BufTy).Contents (Elt F) → (⟨S100000x128, .f32⟩ : BufTy).Contents (Elt F) → (⟨S100000x128, .f32⟩ : BufTy).Contents (Elt F)),
    unary main_arg21 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (mulf : (⟨S100000x128, .f32⟩ : BufTy).Contents (Elt F) → (⟨S100000x128, .f32⟩ : BufTy).Contents (Elt F) → (⟨S100000x128, .f32⟩ : BufTy).Contents (Elt F)),
    unary main_arg22 main_v130 (broadcastInDim S1x128 ![1] bcast_S128_S1x128_1 : (⟨S128, .f32⟩ : BufTy).Contents (Elt F) → (⟨S1x128, .f32⟩ : BufTy).Contents (Elt F)),
    unary main_v130 main_v131 (broadcastInDim S100000x128 ![0, 1] bcast_S1x128_S100000x128_0_1 : (⟨S1x128, .f32⟩ : BufTy).Contents (Elt F) → (⟨S100000x128, .f32⟩ : BufTy).Contents (Elt F)),
    binary main_v129 main_v131 main_v132 (addf : (⟨S100000x128, .f32⟩ : BufTy).Contents (Elt F) → (⟨S100000x128, .f32⟩ : BufTy).Contents (Elt F) → (⟨S100000x128, .f32⟩ : BufTy).Contents (Elt F)) ]

/-- Operations 234 … 258 of 262: the perceptron branch. -/
abbrev w7 : List (HloOp τ sig (Elt F)) :=
  [ binary main_arg0 main_arg9 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v134 (broadcastInDim S1x128 ![1] bcast_S128_S1x128_1 : (⟨S128, .f32⟩ : BufTy).Contents (Elt F) → (⟨S1x128, .f32⟩ : BufTy).Contents (Elt F)),
    unary main_v134 main_v135 (broadcastInDim S100000x128 ![0, 1] bcast_S1x128_S100000x128_0_1 : (⟨S1x128, .f32⟩ : BufTy).Contents (Elt F) → (⟨S100000x128, .f32⟩ : BufTy).Contents (Elt F)),
    binary main_v133 main_v135 main_v136 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v136) main_call6.v0 main_call6.v1 maximumf,
    binary main_v137 main_arg11 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v138 main_v140 main_v141 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v141) main_call7.v0 main_call7.v1 maximumf,
    binary main_v142 main_arg13 main_v143 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg14 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v143 main_v145 main_v146 (addf : (⟨S100000x64, .f32⟩ : BufTy).Contents (Elt F) → (⟨S100000x64, .f32⟩ : BufTy).Contents (Elt F) → (⟨S100000x64, .f32⟩ : BufTy).Contents (Elt F)),
    TRef.nullary main_call8.cst (constant S_ .f32 0x00000000#32),
    TRef.unary main_call8.cst main_call8.v0 (broadcastInDim S100000x64 ![] bcast_S_S100000x64),
    TRef.binary (.of main_v146) main_call8.v0 main_call8.v1 maximumf,
    binary main_v147 main_arg15 main_v148 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg16 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)),
    binary main_v148 main_v150 main_v151 (addf : (⟨S100000x128, .f32⟩ : BufTy).Contents (Elt F) → (⟨S100000x128, .f32⟩ : BufTy).Contents (Elt F) → (⟨S100000x128, .f32⟩ : BufTy).Contents (Elt F)) ]

/-- Operations 259 … 262 of 262: half the sum of the two branches. -/
abbrev w8 : List (HloOp τ sig (Elt F)) :=
  [ binary main_v132 main_v151 main_v152 (addf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3F000000#32),
    unary main_cst_26 main_v153 (broadcastInDim S100000x128 ![] bcast_S_S100000x128 : (⟨S_, .f32⟩ : BufTy).Contents (Elt F) → (⟨S100000x128, .f32⟩ : BufTy).Contents (Elt F)),
    binary main_v152 main_v153 main_v154 (mulf : (⟨S100000x128, .f32⟩ : BufTy).Contents (Elt F) → (⟨S100000x128, .f32⟩ : BufTy).Contents (Elt F) → (⟨S100000x128, .f32⟩ : BufTy).Contents (Elt F)) ]

/-- The operations of part 0 of the program's text. -/
def p0 : List (HloOp τ sig (Elt F)) := w0 ++ (w1 ++ (w2a))

/-- The operations of part 1 of the program's text. -/
def p1 : List (HloOp τ sig (Elt F)) := w2b ++ (w3 ++ (w4 ++ (w5a)))

/-- The operations of part 2 of the program's text. -/
def p2 : List (HloOp τ sig (Elt F)) := w5b ++ (w6 ++ (w7))

/-- The operations of part 3 of the program's text. -/
def p3 : List (HloOp τ sig (Elt F)) := w8

/-- All the operations, in order. -/
def ops : List (HloOp τ sig (Elt F)) := p0 ++ (p1 ++ (p2 ++ p3))

end Cert.ReferenceIdeal.HostRun

end
-- ==== Proof.HostRun0.lean ====
/- Part 0 of the reference program's text is the straight line of its operations (the called functions'
   bodies unfold in place); every operation touches only buffers of the core and determines what it writes. -/
import proofs.«112095_j75685913690122_1_alg».proof.Proof.HostRunOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Part 0 of the program is its operations run in order. -/
theorem main_part0_eq (c : Dev nD) : main_part0 (F := F) c = seq p0 := rfl

set_option maxRecDepth 8192 in
theorem w0_sub : (w0 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w1_sub : (w1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
theorem w2a_sub : (w2a : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub ..⟩
set_option maxRecDepth 8192 in
theorem w2a_fresh : (w2a : List (HloOp τ sig (Elt F))).Forall fun op => op.fresh = ∅ :=
  ⟨rfl, rfl, rfl, rfl, rfl, rfl, rfl, rfl, rfl, rfl, rfl, rfl, rfl⟩

/-- Every operation of part 0 touches only buffers of the core. -/
theorem p0_sub (op : HloOp τ sig (Elt F)) (h : op ∈ (p0 : List (HloOp τ sig (Elt F)))) : op.bufs ⊆ tcRefs τ sig := by
  simp only [p0, List.mem_append] at h
  rcases h with h | h | h
  exacts [List.forall_iff_forall_mem.mp w0_sub op h, List.forall_iff_forall_mem.mp w1_sub op h, List.forall_iff_forall_mem.mp w2a_sub op h]

/-- Every operation of part 0 determines the contents it writes. -/
theorem p0_fresh (op : HloOp τ sig (Elt F)) (h : op ∈ (p0 : List (HloOp τ sig (Elt F)))) : op.fresh = ∅ := by
  simp only [p0, List.mem_append] at h
  rcases h with h | h | h
  exacts [List.forall_iff_forall_mem.mp w0_fresh op h, List.forall_iff_forall_mem.mp w1_fresh op h, List.forall_iff_forall_mem.mp w2a_fresh op h]

end Cert.ReferenceIdeal.HostRun

end
-- ==== Proof.HostRun1.lean ====
/- Part 1 of the reference program's text is the straight line of its operations (the called functions'
   bodies unfold in place); every operation touches only buffers of the core and determines what it writes. -/
import proofs.«112095_j75685913690122_1_alg».proof.Proof.HostRunOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Part 1 of the program is its operations run in order. -/
theorem main_part1_eq (c : Dev nD) : main_part1 (F := F) c = seq p1 := rfl

set_option maxRecDepth 8192 in
theorem w2b_sub : (w2b : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem w2b_fresh : (w2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w3_sub : (w3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl⟩

set_option maxRecDepth 8192 in
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w5a_sub : (w5a : List (HloOp τ sig (Elt F))).Forall fun op => op.bufs ⊆ tcRefs τ sig :=
  ⟨binary_bufs_sub .., nullary_bufs_sub ..⟩
set_option maxRecDepth 8192 in
theorem w5a_fresh : (w5a : List (HloOp τ sig (Elt F))).Forall fun op => op.fresh = ∅ :=
  ⟨rfl, rfl⟩

/-- Every operation of part 1 touches only buffers of the core. -/
theorem p1_sub (op : HloOp τ sig (Elt F)) (h : op ∈ (p1 : List (HloOp τ sig (Elt F)))) : op.bufs ⊆ tcRefs τ sig := by
  simp only [p1, List.mem_append] at h
  rcases h with h | h | h | h
  exacts [List.forall_iff_forall_mem.mp w2b_sub op h, List.forall_iff_forall_mem.mp w3_sub op h, List.forall_iff_forall_mem.mp w4_sub op h, List.forall_iff_forall_mem.mp w5a_sub op h]

/-- Every operation of part 1 determines the contents it writes. -/
theorem p1_fresh (op : HloOp τ sig (Elt F)) (h : op ∈ (p1 : List (HloOp τ sig (Elt F)))) : op.fresh = ∅ := by
  simp only [p1, List.mem_append] at h
  rcases h with h | h | h | h
  exacts [List.forall_iff_forall_mem.mp w2b_fresh op h, List.forall_iff_forall_mem.mp w3_fresh op h, List.forall_iff_forall_mem.mp w4_fresh op h, List.forall_iff_forall_mem.mp w5a_fresh op h]

end Cert.ReferenceIdeal.HostRun

end
-- ==== Proof.HostRun2.lean ====
/- Part 2 of the reference program's text is the straight line of its operations (the called functions'
   bodies unfold in place); every operation touches only buffers of the core and determines what it writes. -/
import proofs.«112095_j75685913690122_1_alg».proof.Proof.HostRunOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Part 2 of the program is its operations run in order. -/
theorem main_part2_eq (c : Dev nD) : main_part2 (F := F) c = seq p2 := rfl

set_option maxRecDepth 8192 in
theorem w5b_sub : (w5b : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem w5b_fresh : (w5b : List (HloOp τ sig (Elt F))).Forall fun op => op.fresh = ∅ :=
  ⟨rfl, rfl, rfl, rfl, rfl, rfl, rfl, rfl, rfl, rfl, rfl, rfl, rfl, rfl, rfl⟩

set_option maxRecDepth 8192 in
theorem w6_sub : (w6 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem w6_fresh : (w6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem w7_sub : (w7 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Every operation of part 2 touches only buffers of the core. -/
theorem p2_sub (op : HloOp τ sig (Elt F)) (h : op ∈ (p2 : List (HloOp τ sig (Elt F)))) : op.bufs ⊆ tcRefs τ sig := by
  simp only [p2, List.mem_append] at h
  rcases h with h | h | h
  exacts [List.forall_iff_forall_mem.mp w5b_sub op h, List.forall_iff_forall_mem.mp w6_sub op h, List.forall_iff_forall_mem.mp w7_sub op h]

/-- Every operation of part 2 determines the contents it writes. -/
theorem p2_fresh (op : HloOp τ sig (Elt F)) (h : op ∈ (p2 : List (HloOp τ sig (Elt F)))) : op.fresh = ∅ := by
  simp only [p2, List.mem_append] at h
  rcases h with h | h | h
  exacts [List.forall_iff_forall_mem.mp w5b_fresh op h, List.forall_iff_forall_mem.mp w6_fresh op h, List.forall_iff_forall_mem.mp w7_fresh op h]

end Cert.ReferenceIdeal.HostRun

end
-- ==== Proof.HostRun3.lean ====
/- Part 3 of the reference program's text is the straight line of its operations (the called functions'
   bodies unfold in place); every operation touches only buffers of the core and determines what it writes. -/
import proofs.«112095_j75685913690122_1_alg».proof.Proof.HostRunOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Part 3 of the program is its operations run in order. -/
theorem main_part3_eq (c : Dev nD) : main_part3 (F := F) c = seq p3 := rfl

set_option maxRecDepth 8192 in
theorem w8_sub : (w8 : List (HloOp τ sig (Elt F))).Forall fun op => op.bufs ⊆ tcRefs τ sig :=
  ⟨binary_bufs_sub .., nullary_bufs_sub .., unary_bufs_sub .., binary_bufs_sub ..⟩
set_option maxRecDepth 8192 in
theorem w8_fresh : (w8 : List (HloOp τ sig (Elt F))).Forall fun op => op.fresh = ∅ :=
  ⟨rfl, rfl, rfl, rfl⟩

/-- Every operation of part 3 touches only buffers of the core. -/
theorem p3_sub (op : HloOp τ sig (Elt F)) (h : op ∈ (p3 : List (HloOp τ sig (Elt F)))) : op.bufs ⊆ tcRefs τ sig := by
  simp only [p3, List.mem_append] at h
  exact List.forall_iff_forall_mem.mp w8_sub op h

/-- Every operation of part 3 determines the contents it writes. -/
theorem p3_fresh (op : HloOp τ sig (Elt F)) (h : op ∈ (p3 : List (HloOp τ sig (Elt F)))) : op.fresh = ∅ := by
  simp only [p3, List.mem_append] at h
  exact List.forall_iff_forall_mem.mp w8_fresh op h

end Cert.ReferenceIdeal.HostRun

end
-- ==== Proof.RefSpec.lean ====
/- The reference program's result as one function of its argument arrays, cut at the stages of the
   computation: each definition is the composition of the pure functions of the program's operations,
   in order, at the extended reals. Nothing here is proved; the run of the program reads its result
   back as `res`. -/
import proofs.«112095_j75685913690122_1_alg».proof.ReferenceIdeal
import Idealize.ShloMosaic.PureOps.Ideal

noncomputable section

namespace Cert.ReferenceIdeal.RefSpec

open Cert.ReferenceIdeal Idealize.ShloMosaic Idealize.SL.Sem

variable [Facts]
open Facts₀ Facts

/-- A float array of shape `S` at the extended reals. -/
abbrev Arr (S : Shape) : Type := FVec Ideal S .f32
/-- An array of 32-bit integers of shape `S`. -/
abbrev IArr (S : Shape) : Type := IVec S 32

/-- The edge sources followed by one self loop per node. -/
def srcSl (a1 : IArr S1600000) : IArr S1700000 :=
  concatenate S1700000 0 [⟨S1600000, a1⟩, ⟨S100000, (iotaInDim S100000 32 0)⟩] concatenates_S1600000_S100000_S1700000_d0

/-- The edge destinations followed by one self loop per node. -/
def dstSl (a2 : IArr S1600000) : IArr S1700000 :=
  concatenate S1700000 0 [⟨S1600000, a2⟩, ⟨S100000, (iotaInDim S100000 32 0)⟩] concatenates_S1600000_S100000_S1700000_d0

/-- The symmetric normalisation of each edge: the in-degree of every node (a sum of ones over the
    destinations), at least one, to the power -1/2, read at the edge's two ends (a negative index
    wrapped), the two multiplied. -/
def norm (a1 a2 : IArr S1600000) : Arr S1700000 :=
  mulf (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dstSl a2)) (broadcastInDim S1700000 ![] bcast_S_S1700000 (constant S_ .f32 0x3F800000#32))) (broadcastInDim S100000 ![] bcast_S_S100000 (constant S_ .f32 0x3F800000#32)))) (broadcastInDim S1700000x1 ![0] bcast_S1700000_S1700000x1_0 (select (cmpi .slt (srcSl a1) (broadcastInDim S1700000 ![] bcast_S_S1700000 (constantI S_ 32 0#32))) (addi (srcSl a1) (broadcastInDim S1700000 ![] bcast_S_S1700000 (constantI S_ 32 100000#32))) (srcSl a1)))) (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dstSl a2)) (broadcastInDim S1700000 ![] bcast_S_S1700000 (constant S_ .f32 0x3F800000#32))) (broadcastInDim S100000 ![] bcast_S_S100000 (constant S_ .f32 0x3F800000#32)))) (broadcastInDim S1700000x1 ![0] bcast_S1700000_S1700000x1_0 (select (cmpi .slt (dstSl a2) (broadcastInDim S1700000 ![] bcast_S_S1700000 (constantI S_ 32 0#32))) (addi (dstSl a2) (broadcastInDim S1700000 ![] bcast_S_S1700000 (constantI S_ 32 100000#32))) (dstSl a2))))

/-- The first layer's matrix product. -/
def lin128x128 (x : Arr S100000x128) (W : Arr S128x128) : Arr S100000x128 :=
  Host.dotGeneral dot_S100000x128_S128x128_S100000x128_1_0_0_1_n_n none x W

/-- The second layer's matrix product. -/
def lin128x64 (x : Arr S100000x128) (W : Arr S128x64) : Arr S100000x64 :=
  Host.dotGeneral dot_S100000x128_S128x64_S100000x64_1_0_0_1_n_n none x W

/-- The third layer's matrix product. -/
def lin64x128 (x : Arr S100000x64) (W : Arr S64x128) : Arr S100000x128 :=
  Host.dotGeneral dot_S100000x64_S64x128_S100000x128_1_0_0_1_n_n none x W

/-- The aggregation over the edges, 128 wide: the rows of `hw` at the sources (a negative index
    wrapped), each scaled by its edge's weight, summed into zeros at the destinations. -/
def agg128 (hw : Arr S100000x128) (s d : IArr S1700000) (nrm : Arr S1700000) : Arr S100000x128 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 hw (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x128 ![0, 1] bcast_S1700000x1_S1700000x128_0_1 (broadcastInDim S1700000x1 ![0] bcast_S1700000_S1700000x1_0 nrm)))

/-- The same aggregation, 64 wide. -/
def agg64 (hw : Arr S100000x64) (s d : IArr S1700000) (nrm : Arr S1700000) : Arr S100000x64 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 hw (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x64 ![0, 1] bcast_S1700000x1_S1700000x64_0_1 (broadcastInDim S1700000x1 ![0] bcast_S1700000_S1700000x1_0 nrm)))

/-- After an aggregation, 128 wide: the bias added, the maximum with zero, then each row centred by its
    mean, scaled by the inverse square root of its variance plus the small constant, times `g` plus `bt`. -/
def postln128 (s : Arr S100000x128) (b g bt : Arr S128) : Arr S100000x128 :=
  addf (mulf (mulf (subf (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (broadcastInDim S100000x128 ![0, 1] bcast_S100000x1_S100000x128_0_1 (Host.divf (broadcastInDim S100000x1 ![0] bcast_S100000_S100000x1_0 (Host.reduceAdd (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (constant S_ .f32 0x00000000#32) reducesTo_S100000x128_S100000_d1 h_S_)) (broadcastInDim S100000x1 ![] bcast_S_S100000x1 (constant S_ .f32 0x43000000#32))))) (broadcastInDim S100000x128 ![0, 1] bcast_S100000x1_S100000x128_0_1 (Host.rsqrt (addf (select (broadcastInDim S100000x1 ![] bcast_S_S100000x1 (cmpf (F := Ideal) .ogt (subf (constant S_ .f32 0x43000000#32) (sitofp .f32 (constantI S_ 32 0#32))) (constant S_ .f32 0x00000000#32))) (Host.divf (broadcastInDim S100000x1 ![0] bcast_S100000_S100000x1_0 (Host.reduceAdd (mulf (subf (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (broadcastInDim S100000x128 ![0, 1] bcast_S100000x1_S100000x128_0_1 (Host.divf (broadcastInDim S100000x1 ![0] bcast_S100000_S100000x1_0 (Host.reduceAdd (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (constant S_ .f32 0x00000000#32) reducesTo_S100000x128_S100000_d1 h_S_)) (broadcastInDim S100000x1 ![] bcast_S_S100000x1 (constant S_ .f32 0x43000000#32))))) (subf (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (broadcastInDim S100000x128 ![0, 1] bcast_S100000x1_S100000x128_0_1 (Host.divf (broadcastInDim S100000x1 ![0] bcast_S100000_S100000x1_0 (Host.reduceAdd (maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))) (constant S_ .f32 0x00000000#32) reducesTo_S100000x128_S100000_d1 h_S_)) (broadcastInDim S100000x1 ![] bcast_S_S100000x1 (constant S_ .f32 0x43000000#32)))))) (constant S_ .f32 0x00000000#32) reducesTo_S100000x128_S100000_d1 h_S_)) (broadcastInDim S100000x1 ![] bcast_S_S100000x1 (subf (constant S_ .f32 0x43000000#32) (sitofp .f32 (constantI S_ 32 0#32))))) (broadcastInDim S100000x1 ![] bcast_S_S100000x1 (id (constant S_ .f32 0x7FC00000#32)))) (broadcastInDim S100000x1 ![] bcast_S_S100000x1 (constant S_ .f32 0x3727C5AC#32)))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 bt))

/-- The same, 64 wide. -/
def postln64 (s : Arr S100000x64) (b g bt : Arr S64) : Arr S100000x64 :=
  addf (mulf (mulf (subf (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (broadcastInDim S100000x64 ![0, 1] bcast_S100000x1_S100000x64_0_1 (Host.divf (broadcastInDim S100000x1 ![0] bcast_S100000_S100000x1_0 (Host.reduceAdd (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (constant S_ .f32 0x00000000#32) reducesTo_S100000x64_S100000_d1 h_S_)) (broadcastInDim S100000x1 ![] bcast_S_S100000x1 (constant S_ .f32 0x42800000#32))))) (broadcastInDim S100000x64 ![0, 1] bcast_S100000x1_S100000x64_0_1 (Host.rsqrt (addf (select (broadcastInDim S100000x1 ![] bcast_S_S100000x1 (cmpf (F := Ideal) .ogt (subf (constant S_ .f32 0x42800000#32) (sitofp .f32 (constantI S_ 32 0#32))) (constant S_ .f32 0x00000000#32))) (Host.divf (broadcastInDim S100000x1 ![0] bcast_S100000_S100000x1_0 (Host.reduceAdd (mulf (subf (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (broadcastInDim S100000x64 ![0, 1] bcast_S100000x1_S100000x64_0_1 (Host.divf (broadcastInDim S100000x1 ![0] bcast_S100000_S100000x1_0 (Host.reduceAdd (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (constant S_ .f32 0x00000000#32) reducesTo_S100000x64_S100000_d1 h_S_)) (broadcastInDim S100000x1 ![] bcast_S_S100000x1 (constant S_ .f32 0x42800000#32))))) (subf (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (broadcastInDim S100000x64 ![0, 1] bcast_S100000x1_S100000x64_0_1 (Host.divf (broadcastInDim S100000x1 ![0] bcast_S100000_S100000x1_0 (Host.reduceAdd (maximumf (addf s (broadcastInDim S100000x64 ![0, 1] bcast_S1x64_S100000x64_0_1 (broadcastInDim S1x64 ![1] bcast_S64_S1x64_1 b))) (broadcastInDim S100000x64 ![] bcast_S_S100000x64 (constant S_ .f32 0x00000000#32))) (constant S_ .f32 0x00000000#32) reducesTo_S100000x64_S100000_d1 h_S_)) (broadcastInDim S100000x1 ![] bcast_S_S100000x1 (constant S_ .f32 0x42800000#32)))))) (constant S_ .f32 0x00000000#32) reducesTo_S100000x64_S100000_d1 h_S_)) (broadcastInDim S100000x1 ![] bcast_S_S100000x1 (subf (constant S_ .f32 0x42800000#32) (sitofp .f32 (constantI S_ 32 0#32))))) (broadcastInDim S100000x1 ![] bcast_S_S100000x1 (id (constant S_ .f32 0x7FC00000#32)))) (broadcastInDim S100000x1 ![] bcast_S_S100000x1 (constant S_ .f32 0x3727C5AC#32)))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt))

/-- The four-layer perceptron on the node features: three products with bias and maximum with zero,
    a last product with bias. -/
def mlp (x : Arr S100000x128) (W1 : Arr S128x128) (b1 : Arr S128) (W2 : Arr S128x128) (b2 : Arr S128)
    (W3 : Arr S128x64) (b3 : Arr S64) (W4 : Arr S64x128) (b4 : Arr S128) : Arr S100000x128 :=
  addf (Host.dotGeneral dot_S100000x64_S64x128_S100000x128_1_0_0_1_n_n none (maximumf (addf (Host.dotGeneral dot_S100000x128_S128x64_S100000x64_1_0_0_1_n_n none (maximumf (addf (Host.dotGeneral dot_S100000x128_S128x128_S100000x128_1_0_0_1_n_n none (maximumf (addf (Host.dotGeneral dot_S100000x128_S128x128_S100000x128_1_0_0_1_n_n none x W1) (broadcastInDim S100000x128 ![0, 1] bcast_S1x128_S100000x128_0_1 (broadcastInDim S1x128 ![1] bcast_S128_S1x128_1 b1))) (broadcastInDim S100000x128 ![] bcast_S_S100000x128 (constant S_ .f32 0x00000000#32))) W2) (broadcastInDim S100000x128 ![0, 1] bcast_S1x128_S100000x128_0_1 (broadcastInDim S1x128 ![1] bcast_S128_S1x128_1 b2))) (broadcastInDim S100000x128 ![] bcast_S_S100000x128 (constant S_ .f32 0x00000000#32))) W3) (broadcastInDim S100000x64 ![0, 1] bcast_S1x64_S100000x64_0_1 (broadcastInDim S1x64 ![1] bcast_S64_S1x64_1 b3))) (broadcastInDim S100000x64 ![] bcast_S_S100000x64 (constant S_ .f32 0x00000000#32))) W4) (broadcastInDim S100000x128 ![0, 1] bcast_S1x128_S100000x128_0_1 (broadcastInDim S1x128 ![1] bcast_S128_S1x128_1 b4))

/-- Half the sum of the two branches. -/
def combine (g f : Arr S100000x128) : Arr S100000x128 :=
  mulf (addf g f) (broadcastInDim S100000x128 ![] bcast_S_S100000x128 (constant S_ .f32 0x3F000000#32))

/-- The whole result as a function of the twenty-three arguments. -/
def res (a0 : Arr S100000x128) (a1 a2 : IArr S1600000) (a3 : Arr S128x128) (a4 : Arr S128) (a5 : Arr S128x64)
    (a6 : Arr S64) (a7 : Arr S64x128) (a8 : Arr S128) (a9 : Arr S128x128) (a10 : Arr S128) (a11 : Arr S128x128)
    (a12 : Arr S128) (a13 : Arr S128x64) (a14 : Arr S64) (a15 : Arr S64x128) (a16 a17 a18 : Arr S128)
    (a19 a20 : Arr S64) (a21 a22 : Arr S128) : Arr S100000x128 :=
  combine (postln128 (agg128 (lin64x128 (postln64 (agg64 (lin128x64 (postln128 (agg128 (lin128x128 a0 a3) (srcSl a1) (dstSl a2) (norm a1 a2)) a4 a17 a18) a5) (srcSl a1) (dstSl a2) (norm a1 a2)) a6 a19 a20) a7) (srcSl a1) (dstSl a2) (norm a1 a2)) a8 a21 a22) (mlp a0 a9 a10 a11 a12 a13 a14 a15 a16)

end Cert.ReferenceIdeal.RefSpec

end
-- ==== Proof.HostRunS0.lean ====
/- One stage of the reference program read back: the edge lists with self loops, and the edge weights. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w0` write. -/
abbrev w0_W : List (Ref sig .tc) := [main_v0, main_v1, main_v2, main_cst, main_v3, main_cst_0, main_v4, main_v5, main_v6, main_cst_1, main_v7, main_v8, main_v9, main_c, main_v10, main_v11, main_c_2, main_v12, main_v13, main_v14, main_v15, main_v16, main_c_3, main_v17, main_v18, main_c_4, main_v19, main_v20, main_v21, main_v22, main_v23, main_v24]
set_option maxRecDepth 8192 in
theorem w0_writes : (w0 : List (HloOp τ sig (Elt Ideal))).Forall fun op => op.writes ⊆ (w0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w0` does not write keeps its contents through it. -/
theorem w0_keep (V : Valuation τ sig (Elt Ideal)) (r : Ref sig .tc) (h : r ∉ w0_W) :
    after w0 V (Proc.devRef .tc r) = V (Proc.devRef .tc r) :=
  after_of_writes_sub w0 V w0_writes h

set_option maxRecDepth 8192 in
set_option maxHeartbeats 3200000 in
/-- The stage's result, from any contents. -/
theorem s0_main_v1 (V : Valuation τ sig (Elt Ideal)) :
    after w0 V (Proc.devRef .tc main_v1)
      = RefSpec.srcSl (V (Proc.devRef .tc main_arg1)) := by
  simp only [w0]
  after_results_simp
  rfl

set_option maxRecDepth 8192 in
set_option maxHeartbeats 3200000 in
/-- The stage's result, from any contents. -/
theorem s0_main_v2 (V : Valuation τ sig (Elt Ideal)) :
    after w0 V (Proc.devRef .tc main_v2)
      = RefSpec.dstSl (V (Proc.devRef .tc main_arg2)) := by
  simp only [w0]
  after_results_simp
  rfl

set_option maxRecDepth 8192 in
set_option maxHeartbeats 3200000 in
/-- The stage's result, from any contents. -/
theorem s0_main_v24 (V : Valuation τ sig (Elt Ideal)) :
    after w0 V (Proc.devRef .tc main_v24)
      = RefSpec.norm (V (Proc.devRef .tc main_arg1)) (V (Proc.devRef .tc main_arg2)) := by
  simp only [w0]
  after_results_simp
  rfl

end Cert.ReferenceIdeal.HostRun

end
-- ==== Proof.HostRunS1.lean ====
/- One stage of the reference program read back: the first product and its aggregation over the edges. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w1` write. -/
abbrev w1_W : List (Ref sig .tc) := [main_v25, main_c_5, main_v26, main_v27, main_c_6, main_v28, main_v29, main_v30, main_v31, main_v32, main_v33, main_v34, main_v35, main_cst_7, main_v36, main_v37, main_v38]
set_option maxRecDepth 8192 in
theorem w1_writes : (w1 : List (HloOp τ sig (Elt Ideal))).Forall fun op => op.writes ⊆ (w1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w1` does not write keeps its contents through it. -/
theorem w1_keep (V : Valuation τ sig (Elt Ideal)) (r : Ref sig .tc) (h : r ∉ w1_W) :
    after w1 V (Proc.devRef .tc r) = V (Proc.devRef .tc r) :=
  after_of_writes_sub w1 V w1_writes h

set_option maxRecDepth 8192 in
set_option maxHeartbeats 1700000 in
/-- The stage's result, from any contents. -/
theorem s1_main_v38 (V : Valuation τ sig (Elt Ideal)) :
    after w1 V (Proc.devRef .tc main_v38)
      = RefSpec.agg128 (RefSpec.lin128x128 (V (Proc.devRef .tc main_arg0)) (V (Proc.devRef .tc main_arg3))) (V (Proc.devRef .tc main_v1)) (V (Proc.devRef .tc main_v2)) (V (Proc.devRef .tc main_v24)) := by
  simp only [w1]
  after_results_simp
  rfl

end Cert.ReferenceIdeal.HostRun

end
-- ==== Proof.HostRunS2.lean ====
/- One stage of the reference program read back: the first bias, maximum with zero and row normalisation. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w2a` write. -/
abbrev w2a_W : List (Ref sig .tc) := [main_v39, main_v40, main_v41, main_call0_cst, main_call0_v0, main_v42, main_cst_8, main_v43, main_v44, main_cst_9, main_v45, main_v46, main_c_10]
set_option maxRecDepth 8192 in
theorem w2a_writes : (w2a : List (HloOp τ sig (Elt Ideal))).Forall fun op => op.writes ⊆ (w2a_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w2a` does not write keeps its contents through it. -/
theorem w2a_keep (V : Valuation τ sig (Elt Ideal)) (r : Ref sig .tc) (h : r ∉ w2a_W) :
    after w2a V (Proc.devRef .tc r) = V (Proc.devRef .tc r) :=
  after_of_writes_sub w2a V w2a_writes h

/-- The buffers that the operations `w2b` write. -/
abbrev w2b_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v47, main_v48, main_v49, main_cst_11, main_v50, main_v51, main_v52, main_v53, main_v54, main_v55, main_v56, main_v57, main_v58, main_v59, main_v60]
set_option maxRecDepth 8192 in
theorem w2b_writes : (w2b : List (HloOp τ sig (Elt Ideal))).Forall fun op => op.writes ⊆ (w2b_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w2b` does not write keeps its contents through it. -/
theorem w2b_keep (V : Valuation τ sig (Elt Ideal)) (r : Ref sig .tc) (h : r ∉ w2b_W) :
    after w2b V (Proc.devRef .tc r) = V (Proc.devRef .tc r) :=
  after_of_writes_sub w2b V w2b_writes h

set_option maxRecDepth 8192 in
set_option maxHeartbeats 5000000 in
/-- The stage's result, from any contents. -/
theorem s2_main_v60 (V : Valuation τ sig (Elt Ideal)) :
    after w2b (after w2a (V)) (Proc.devRef .tc main_v60)
      = RefSpec.postln128 (V (Proc.devRef .tc main_v38)) (V (Proc.devRef .tc main_arg4)) (V (Proc.devRef .tc main_arg17)) (V (Proc.devRef .tc main_arg18)) := by
  simp only [w2a, w2b]
  after_results_simp
  rfl

end Cert.ReferenceIdeal.HostRun

end
-- ==== Proof.HostRunS3.lean ====
/- One stage of the reference program read back: the second product and its aggregation over the edges. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w3` write. -/
abbrev w3_W : List (Ref sig .tc) := [main_v61, main_c_12, main_v62, main_v63, main_c_13, main_v64, main_v65, main_v66, main_v67, main_v68, main_v69, main_v70, main_v71, main_cst_14, main_v72, main_v73, main_v74]
set_option maxRecDepth 8192 in
theorem w3_writes : (w3 : List (HloOp τ sig (Elt Ideal))).Forall fun op => op.writes ⊆ (w3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w3` does not write keeps its contents through it. -/
theorem w3_keep (V : Valuation τ sig (Elt Ideal)) (r : Ref sig .tc) (h : r ∉ w3_W) :
    after w3 V (Proc.devRef .tc r) = V (Proc.devRef .tc r) :=
  after_of_writes_sub w3 V w3_writes h

set_option maxRecDepth 8192 in
set_option maxHeartbeats 1700000 in
/-- The stage's result, from any contents. -/
theorem s3_main_v74 (V : Valuation τ sig (Elt Ideal)) :
    after w3 V (Proc.devRef .tc main_v74)
      = RefSpec.agg64 (RefSpec.lin128x64 (V (Proc.devRef .tc main_v60)) (V (Proc.devRef .tc main_arg5))) (V (Proc.devRef .tc main_v1)) (V (Proc.devRef .tc main_v2)) (V (Proc.devRef .tc main_v24)) := by
  simp only [w3]
  after_results_simp
  rfl

end Cert.ReferenceIdeal.HostRun

end
-- ==== Proof.HostRunS4.lean ====
/- One stage of the reference program read back: the second bias, maximum with zero and row normalisation. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w4` write. -/
abbrev w4_W : List (Ref sig .tc) := [main_v75, main_v76, main_v77, main_call2_cst, main_call2_v0, main_v78, main_cst_15, main_v79, main_v80, main_cst_16, main_v81, main_v82, main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v83, main_v84, main_v85, main_cst_18, main_v86, main_v87, main_v88, main_v89, main_v90, main_v91, main_v92, main_v93, main_v94, main_v95, main_v96]
set_option maxRecDepth 8192 in
theorem w4_writes : (w4 : List (HloOp τ sig (Elt Ideal))).Forall fun op => op.writes ⊆ (w4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w4` does not write keeps its contents through it. -/
theorem w4_keep (V : Valuation τ sig (Elt Ideal)) (r : Ref sig .tc) (h : r ∉ w4_W) :
    after w4 V (Proc.devRef .tc r) = V (Proc.devRef .tc r) :=
  after_of_writes_sub w4 V w4_writes h

set_option maxRecDepth 8192 in
set_option maxHeartbeats 5000000 in
/-- The stage's result, from any contents. -/
theorem s4_main_v96 (V : Valuation τ sig (Elt Ideal)) :
    after w4 V (Proc.devRef .tc main_v96)
      = RefSpec.postln64 (V (Proc.devRef .tc main_v74)) (V (Proc.devRef .tc main_arg6)) (V (Proc.devRef .tc main_arg19)) (V (Proc.devRef .tc main_arg20)) := by
  simp only [w4]
  after_results_simp
  rfl

end Cert.ReferenceIdeal.HostRun

end
-- ==== Proof.HostRunS5.lean ====
/- One stage of the reference program read back: the third product and its aggregation over the edges. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w5a` write. -/
abbrev w5a_W : List (Ref sig .tc) := [main_v97, main_c_19]
set_option maxRecDepth 8192 in
theorem w5a_writes : (w5a : List (HloOp τ sig (Elt Ideal))).Forall fun op => op.writes ⊆ (w5a_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w5a` does not write keeps its contents through it. -/
theorem w5a_keep (V : Valuation τ sig (Elt Ideal)) (r : Ref sig .tc) (h : r ∉ w5a_W) :
    after w5a V (Proc.devRef .tc r) = V (Proc.devRef .tc r) :=
  after_of_writes_sub w5a V w5a_writes h

/-- The buffers that the operations `w5b` write. -/
abbrev w5b_W : List (Ref sig .tc) := [main_v98, main_v99, main_c_20, main_v100, main_v101, main_v102, main_v103, main_v104, main_v105, main_v106, main_v107, main_cst_21, main_v108, main_v109, main_v110]
set_option maxRecDepth 8192 in
theorem w5b_writes : (w5b : List (HloOp τ sig (Elt Ideal))).Forall fun op => op.writes ⊆ (w5b_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w5b` does not write keeps its contents through it. -/
theorem w5b_keep (V : Valuation τ sig (Elt Ideal)) (r : Ref sig .tc) (h : r ∉ w5b_W) :
    after w5b V (Proc.devRef .tc r) = V (Proc.devRef .tc r) :=
  after_of_writes_sub w5b V w5b_writes h

set_option maxRecDepth 8192 in
set_option maxHeartbeats 1700000 in
/-- The stage's result, from any contents. -/
theorem s5_main_v110 (V : Valuation τ sig (Elt Ideal)) :
    after w5b (after w5a (V)) (Proc.devRef .tc main_v110)
      = RefSpec.agg128 (RefSpec.lin64x128 (V (Proc.devRef .tc main_v96)) (V (Proc.devRef .tc main_arg7))) (V (Proc.devRef .tc main_v1)) (V (Proc.devRef .tc main_v2)) (V (Proc.devRef .tc main_v24)) := by
  simp only [w5a, w5b]
  after_results_simp
  rfl

end Cert.ReferenceIdeal.HostRun

end
-- ==== Proof.HostRunS6.lean ====
/- One stage of the reference program read back: the third bias, maximum with zero and row normalisation. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w6` write. -/
abbrev w6_W : List (Ref sig .tc) := [main_v111, main_v112, main_v113, main_call4_cst, main_call4_v0, main_v114, main_cst_22, main_v115, main_v116, main_cst_23, main_v117, main_v118, main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v119, main_v120, main_v121, main_cst_25, main_v122, main_v123, main_v124, main_v125, main_v126, main_v127, main_v128, main_v129, main_v130, main_v131, main_v132]
set_option maxRecDepth 8192 in
theorem w6_writes : (w6 : List (HloOp τ sig (Elt Ideal))).Forall fun op => op.writes ⊆ (w6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w6` does not write keeps its contents through it. -/
theorem w6_keep (V : Valuation τ sig (Elt Ideal)) (r : Ref sig .tc) (h : r ∉ w6_W) :
    after w6 V (Proc.devRef .tc r) = V (Proc.devRef .tc r) :=
  after_of_writes_sub w6 V w6_writes h

set_option maxRecDepth 8192 in
set_option maxHeartbeats 5000000 in
/-- The stage's result, from any contents. -/
theorem s6_main_v132 (V : Valuation τ sig (Elt Ideal)) :
    after w6 V (Proc.devRef .tc main_v132)
      = RefSpec.postln128 (V (Proc.devRef .tc main_v110)) (V (Proc.devRef .tc main_arg8)) (V (Proc.devRef .tc main_arg21)) (V (Proc.devRef .tc main_arg22)) := by
  simp only [w6]
  after_results_simp
  rfl

end Cert.ReferenceIdeal.HostRun

end
-- ==== Proof.HostRunS7.lean ====
/- One stage of the reference program read back: the perceptron branch. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w7` write. -/
abbrev w7_W : List (Ref sig .tc) := [main_v133, main_v134, main_v135, main_v136, main_call6_cst, main_call6_v0, main_v137, main_v138, main_v139, main_v140, main_v141, main_call7_cst, main_call7_v0, main_v142, main_v143, main_v144, main_v145, main_v146, main_call8_cst, main_call8_v0, main_v147, main_v148, main_v149, main_v150, main_v151]
set_option maxRecDepth 8192 in
theorem w7_writes : (w7 : List (HloOp τ sig (Elt Ideal))).Forall fun op => op.writes ⊆ (w7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w7` does not write keeps its contents through it. -/
theorem w7_keep (V : Valuation τ sig (Elt Ideal)) (r : Ref sig .tc) (h : r ∉ w7_W) :
    after w7 V (Proc.devRef .tc r) = V (Proc.devRef .tc r) :=
  after_of_writes_sub w7 V w7_writes h

set_option maxRecDepth 8192 in
set_option maxHeartbeats 2500000 in
/-- The stage's result, from any contents. -/
theorem s7_main_v151 (V : Valuation τ sig (Elt Ideal)) :
    after w7 V (Proc.devRef .tc main_v151)
      = RefSpec.mlp (V (Proc.devRef .tc main_arg0)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [w7]
  after_results_simp
  rfl

end Cert.ReferenceIdeal.HostRun

end
-- ==== Proof.HostRunS8.lean ====
/- One stage of the reference program read back: half the sum of the two branches. From any contents of the buffers, after the
   stage's operations its result holds the stage's function of what the buffers it reads held, and a
   buffer the stage does not write holds what it held. -/
import proofs.«112095_j75685913690122_1_alg».proof.Proof.HostRunOps
import proofs.«112095_j75685913690122_1_alg».proof.Proof.RefSpec

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The buffers that the operations `w8` write. -/
abbrev w8_W : List (Ref sig .tc) := [main_v152, main_cst_26, main_v153, main_v154]
set_option maxRecDepth 8192 in
theorem w8_writes : (w8 : List (HloOp τ sig (Elt Ideal))).Forall fun op => op.writes ⊆ (w8_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `w8` does not write keeps its contents through it. -/
theorem w8_keep (V : Valuation τ sig (Elt Ideal)) (r : Ref sig .tc) (h : r ∉ w8_W) :
    after w8 V (Proc.devRef .tc r) = V (Proc.devRef .tc r) :=
  after_of_writes_sub w8 V w8_writes h

set_option maxRecDepth 8192 in
set_option maxHeartbeats 400000 in
/-- The stage's result, from any contents. -/
theorem s8_main_v154 (V : Valuation τ sig (Elt Ideal)) :
    after w8 V (Proc.devRef .tc main_v154)
      = RefSpec.combine (V (Proc.devRef .tc main_v132)) (V (Proc.devRef .tc main_v151)) := by
  simp only [w8]
  after_results_simp
  rfl

end Cert.ReferenceIdeal.HostRun

end
-- ==== Proof.HostRun.lean ====
/- The run of the reference program: its text is the straight line of its operations, and after them the
   result buffer holds `RefSpec.res` of the arguments' contents at launch, the arguments unchanged. The
   contents are followed stage by stage: each stage's result from the previous contents (the stage modules),
   every other buffer kept. -/
import proofs.«112095_j75685913690122_1_alg».proof.Proof.HostRunOps
import proofs.«112095_j75685913690122_1_alg».proof.Proof.HostRun0
import proofs.«112095_j75685913690122_1_alg».proof.Proof.HostRun1
import proofs.«112095_j75685913690122_1_alg».proof.Proof.HostRun2
import proofs.«112095_j75685913690122_1_alg».proof.Proof.HostRun3
import proofs.«112095_j75685913690122_1_alg».proof.Proof.HostRunS0
import proofs.«112095_j75685913690122_1_alg».proof.Proof.HostRunS1
import proofs.«112095_j75685913690122_1_alg».proof.Proof.HostRunS2
import proofs.«112095_j75685913690122_1_alg».proof.Proof.HostRunS3
import proofs.«112095_j75685913690122_1_alg».proof.Proof.HostRunS4
import proofs.«112095_j75685913690122_1_alg».proof.Proof.HostRunS5
import proofs.«112095_j75685913690122_1_alg».proof.Proof.HostRunS6
import proofs.«112095_j75685913690122_1_alg».proof.Proof.HostRunS7
import proofs.«112095_j75685913690122_1_alg».proof.Proof.HostRunS8
import proofs.«112095_j75685913690122_1_alg».proof.Proof.RefSpec
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The program is its operations run in order: part by part. -/
theorem main_eq (c : Dev nD) : main (F := Ideal) c = seq ops := by
  rw [ops, seq_append, seq_append, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

/-- Every operation touches only buffers of the core. -/
theorem ops_sub : (ops : List (HloOp τ sig (Elt Ideal))).Forall fun op => op.bufs ⊆ tcRefs τ sig :=
  List.forall_iff_forall_mem.mpr fun op h => by
    simp only [ops, List.mem_append] at h
    rcases h with h | h | h | h
    exacts [p0_sub op h, p1_sub op h, p2_sub op h, p3_sub op h]

/-- Every operation determines the contents it writes. -/
theorem ops_fresh (op : HloOp τ sig (Elt Ideal)) (h : op ∈ (ops : List (HloOp τ sig (Elt Ideal)))) : op.fresh = ∅ := by
  simp only [ops, List.mem_append] at h
  rcases h with h | h | h | h
  exacts [p0_fresh op h, p1_fresh op h, p2_fresh op h, p3_fresh op h]

/-- The contents before the first stage. -/
def val0 (V0 : Valuation τ sig (Elt Ideal)) : Valuation τ sig (Elt Ideal) := V0
theorem val0_main_arg0 (V0 : Valuation τ sig (Elt Ideal)) : val0 V0 (Proc.devRef .tc main_arg0) = V0 (Proc.devRef .tc main_arg0) := rfl
theorem val0_main_arg1 (V0 : Valuation τ sig (Elt Ideal)) : val0 V0 (Proc.devRef .tc main_arg1) = V0 (Proc.devRef .tc main_arg1) := rfl
theorem val0_main_arg2 (V0 : Valuation τ sig (Elt Ideal)) : val0 V0 (Proc.devRef .tc main_arg2) = V0 (Proc.devRef .tc main_arg2) := rfl
theorem val0_main_arg3 (V0 : Valuation τ sig (Elt Ideal)) : val0 V0 (Proc.devRef .tc main_arg3) = V0 (Proc.devRef .tc main_arg3) := rfl
theorem val0_main_arg4 (V0 : Valuation τ sig (Elt Ideal)) : val0 V0 (Proc.devRef .tc main_arg4) = V0 (Proc.devRef .tc main_arg4) := rfl
theorem val0_main_arg5 (V0 : Valuation τ sig (Elt Ideal)) : val0 V0 (Proc.devRef .tc main_arg5) = V0 (Proc.devRef .tc main_arg5) := rfl
theorem val0_main_arg6 (V0 : Valuation τ sig (Elt Ideal)) : val0 V0 (Proc.devRef .tc main_arg6) = V0 (Proc.devRef .tc main_arg6) := rfl
theorem val0_main_arg7 (V0 : Valuation τ sig (Elt Ideal)) : val0 V0 (Proc.devRef .tc main_arg7) = V0 (Proc.devRef .tc main_arg7) := rfl
theorem val0_main_arg8 (V0 : Valuation τ sig (Elt Ideal)) : val0 V0 (Proc.devRef .tc main_arg8) = V0 (Proc.devRef .tc main_arg8) := rfl
theorem val0_main_arg9 (V0 : Valuation τ sig (Elt Ideal)) : val0 V0 (Proc.devRef .tc main_arg9) = V0 (Proc.devRef .tc main_arg9) := rfl
theorem val0_main_arg10 (V0 : Valuation τ sig (Elt Ideal)) : val0 V0 (Proc.devRef .tc main_arg10) = V0 (Proc.devRef .tc main_arg10) := rfl
theorem val0_main_arg11 (V0 : Valuation τ sig (Elt Ideal)) : val0 V0 (Proc.devRef .tc main_arg11) = V0 (Proc.devRef .tc main_arg11) := rfl
theorem val0_main_arg12 (V0 : Valuation τ sig (Elt Ideal)) : val0 V0 (Proc.devRef .tc main_arg12) = V0 (Proc.devRef .tc main_arg12) := rfl
theorem val0_main_arg13 (V0 : Valuation τ sig (Elt Ideal)) : val0 V0 (Proc.devRef .tc main_arg13) = V0 (Proc.devRef .tc main_arg13) := rfl
theorem val0_main_arg14 (V0 : Valuation τ sig (Elt Ideal)) : val0 V0 (Proc.devRef .tc main_arg14) = V0 (Proc.devRef .tc main_arg14) := rfl
theorem val0_main_arg15 (V0 : Valuation τ sig (Elt Ideal)) : val0 V0 (Proc.devRef .tc main_arg15) = V0 (Proc.devRef .tc main_arg15) := rfl
theorem val0_main_arg16 (V0 : Valuation τ sig (Elt Ideal)) : val0 V0 (Proc.devRef .tc main_arg16) = V0 (Proc.devRef .tc main_arg16) := rfl
theorem val0_main_arg17 (V0 : Valuation τ sig (Elt Ideal)) : val0 V0 (Proc.devRef .tc main_arg17) = V0 (Proc.devRef .tc main_arg17) := rfl
theorem val0_main_arg18 (V0 : Valuation τ sig (Elt Ideal)) : val0 V0 (Proc.devRef .tc main_arg18) = V0 (Proc.devRef .tc main_arg18) := rfl
theorem val0_main_arg19 (V0 : Valuation τ sig (Elt Ideal)) : val0 V0 (Proc.devRef .tc main_arg19) = V0 (Proc.devRef .tc main_arg19) := rfl
theorem val0_main_arg20 (V0 : Valuation τ sig (Elt Ideal)) : val0 V0 (Proc.devRef .tc main_arg20) = V0 (Proc.devRef .tc main_arg20) := rfl
theorem val0_main_arg21 (V0 : Valuation τ sig (Elt Ideal)) : val0 V0 (Proc.devRef .tc main_arg21) = V0 (Proc.devRef .tc main_arg21) := rfl
theorem val0_main_arg22 (V0 : Valuation τ sig (Elt Ideal)) : val0 V0 (Proc.devRef .tc main_arg22) = V0 (Proc.devRef .tc main_arg22) := rfl

/-- The contents after the first 1 stage: the edge lists with self loops, and the edge weights. -/
def val1 (V0 : Valuation τ sig (Elt Ideal)) : Valuation τ sig (Elt Ideal) := after w0 (val0 V0)
theorem val1_main_arg0 (V0 : Valuation τ sig (Elt Ideal)) : val1 V0 (Proc.devRef .tc main_arg0) = V0 (Proc.devRef .tc main_arg0) :=
  (w0_keep _ main_arg0 (by decide)).trans (val0_main_arg0 V0)
theorem val1_main_arg1 (V0 : Valuation τ sig (Elt Ideal)) : val1 V0 (Proc.devRef .tc main_arg1) = V0 (Proc.devRef .tc main_arg1) :=
  (w0_keep _ main_arg1 (by decide)).trans (val0_main_arg1 V0)
theorem val1_main_arg2 (V0 : Valuation τ sig (Elt Ideal)) : val1 V0 (Proc.devRef .tc main_arg2) = V0 (Proc.devRef .tc main_arg2) :=
  (w0_keep _ main_arg2 (by decide)).trans (val0_main_arg2 V0)
theorem val1_main_arg3 (V0 : Valuation τ sig (Elt Ideal)) : val1 V0 (Proc.devRef .tc main_arg3) = V0 (Proc.devRef .tc main_arg3) :=
  (w0_keep _ main_arg3 (by decide)).trans (val0_main_arg3 V0)
theorem val1_main_arg4 (V0 : Valuation τ sig (Elt Ideal)) : val1 V0 (Proc.devRef .tc main_arg4) = V0 (Proc.devRef .tc main_arg4) :=
  (w0_keep _ main_arg4 (by decide)).trans (val0_main_arg4 V0)
theorem val1_main_arg5 (V0 : Valuation τ sig (Elt Ideal)) : val1 V0 (Proc.devRef .tc main_arg5) = V0 (Proc.devRef .tc main_arg5) :=
  (w0_keep _ main_arg5 (by decide)).trans (val0_main_arg5 V0)
theorem val1_main_arg6 (V0 : Valuation τ sig (Elt Ideal)) : val1 V0 (Proc.devRef .tc main_arg6) = V0 (Proc.devRef .tc main_arg6) :=
  (w0_keep _ main_arg6 (by decide)).trans (val0_main_arg6 V0)
theorem val1_main_arg7 (V0 : Valuation τ sig (Elt Ideal)) : val1 V0 (Proc.devRef .tc main_arg7) = V0 (Proc.devRef .tc main_arg7) :=
  (w0_keep _ main_arg7 (by decide)).trans (val0_main_arg7 V0)
theorem val1_main_arg8 (V0 : Valuation τ sig (Elt Ideal)) : val1 V0 (Proc.devRef .tc main_arg8) = V0 (Proc.devRef .tc main_arg8) :=
  (w0_keep _ main_arg8 (by decide)).trans (val0_main_arg8 V0)
theorem val1_main_arg9 (V0 : Valuation τ sig (Elt Ideal)) : val1 V0 (Proc.devRef .tc main_arg9) = V0 (Proc.devRef .tc main_arg9) :=
  (w0_keep _ main_arg9 (by decide)).trans (val0_main_arg9 V0)
theorem val1_main_arg10 (V0 : Valuation τ sig (Elt Ideal)) : val1 V0 (Proc.devRef .tc main_arg10) = V0 (Proc.devRef .tc main_arg10) :=
  (w0_keep _ main_arg10 (by decide)).trans (val0_main_arg10 V0)
theorem val1_main_arg11 (V0 : Valuation τ sig (Elt Ideal)) : val1 V0 (Proc.devRef .tc main_arg11) = V0 (Proc.devRef .tc main_arg11) :=
  (w0_keep _ main_arg11 (by decide)).trans (val0_main_arg11 V0)
theorem val1_main_arg12 (V0 : Valuation τ sig (Elt Ideal)) : val1 V0 (Proc.devRef .tc main_arg12) = V0 (Proc.devRef .tc main_arg12) :=
  (w0_keep _ main_arg12 (by decide)).trans (val0_main_arg12 V0)
theorem val1_main_arg13 (V0 : Valuation τ sig (Elt Ideal)) : val1 V0 (Proc.devRef .tc main_arg13) = V0 (Proc.devRef .tc main_arg13) :=
  (w0_keep _ main_arg13 (by decide)).trans (val0_main_arg13 V0)
theorem val1_main_arg14 (V0 : Valuation τ sig (Elt Ideal)) : val1 V0 (Proc.devRef .tc main_arg14) = V0 (Proc.devRef .tc main_arg14) :=
  (w0_keep _ main_arg14 (by decide)).trans (val0_main_arg14 V0)
theorem val1_main_arg15 (V0 : Valuation τ sig (Elt Ideal)) : val1 V0 (Proc.devRef .tc main_arg15) = V0 (Proc.devRef .tc main_arg15) :=
  (w0_keep _ main_arg15 (by decide)).trans (val0_main_arg15 V0)
theorem val1_main_arg16 (V0 : Valuation τ sig (Elt Ideal)) : val1 V0 (Proc.devRef .tc main_arg16) = V0 (Proc.devRef .tc main_arg16) :=
  (w0_keep _ main_arg16 (by decide)).trans (val0_main_arg16 V0)
theorem val1_main_arg17 (V0 : Valuation τ sig (Elt Ideal)) : val1 V0 (Proc.devRef .tc main_arg17) = V0 (Proc.devRef .tc main_arg17) :=
  (w0_keep _ main_arg17 (by decide)).trans (val0_main_arg17 V0)
theorem val1_main_arg18 (V0 : Valuation τ sig (Elt Ideal)) : val1 V0 (Proc.devRef .tc main_arg18) = V0 (Proc.devRef .tc main_arg18) :=
  (w0_keep _ main_arg18 (by decide)).trans (val0_main_arg18 V0)
theorem val1_main_arg19 (V0 : Valuation τ sig (Elt Ideal)) : val1 V0 (Proc.devRef .tc main_arg19) = V0 (Proc.devRef .tc main_arg19) :=
  (w0_keep _ main_arg19 (by decide)).trans (val0_main_arg19 V0)
theorem val1_main_arg20 (V0 : Valuation τ sig (Elt Ideal)) : val1 V0 (Proc.devRef .tc main_arg20) = V0 (Proc.devRef .tc main_arg20) :=
  (w0_keep _ main_arg20 (by decide)).trans (val0_main_arg20 V0)
theorem val1_main_arg21 (V0 : Valuation τ sig (Elt Ideal)) : val1 V0 (Proc.devRef .tc main_arg21) = V0 (Proc.devRef .tc main_arg21) :=
  (w0_keep _ main_arg21 (by decide)).trans (val0_main_arg21 V0)
theorem val1_main_arg22 (V0 : Valuation τ sig (Elt Ideal)) : val1 V0 (Proc.devRef .tc main_arg22) = V0 (Proc.devRef .tc main_arg22) :=
  (w0_keep _ main_arg22 (by decide)).trans (val0_main_arg22 V0)
theorem val1_main_v1 (V0 : Valuation τ sig (Elt Ideal)) : val1 V0 (Proc.devRef .tc main_v1) = RefSpec.srcSl (V0 (Proc.devRef .tc main_arg1)) := by
  unfold val1
  rw [s0_main_v1, val0_main_arg1]
theorem val1_main_v2 (V0 : Valuation τ sig (Elt Ideal)) : val1 V0 (Proc.devRef .tc main_v2) = RefSpec.dstSl (V0 (Proc.devRef .tc main_arg2)) := by
  unfold val1
  rw [s0_main_v2, val0_main_arg2]
theorem val1_main_v24 (V0 : Valuation τ sig (Elt Ideal)) : val1 V0 (Proc.devRef .tc main_v24) = RefSpec.norm (V0 (Proc.devRef .tc main_arg1)) (V0 (Proc.devRef .tc main_arg2)) := by
  unfold val1
  rw [s0_main_v24, val0_main_arg1, val0_main_arg2]

/-- The contents after the first 2 stages: the first product and its aggregation over the edges. -/
def val2 (V0 : Valuation τ sig (Elt Ideal)) : Valuation τ sig (Elt Ideal) := after w1 (val1 V0)
theorem val2_main_arg0 (V0 : Valuation τ sig (Elt Ideal)) : val2 V0 (Proc.devRef .tc main_arg0) = V0 (Proc.devRef .tc main_arg0) :=
  (w1_keep _ main_arg0 (by decide)).trans (val1_main_arg0 V0)
theorem val2_main_arg1 (V0 : Valuation τ sig (Elt Ideal)) : val2 V0 (Proc.devRef .tc main_arg1) = V0 (Proc.devRef .tc main_arg1) :=
  (w1_keep _ main_arg1 (by decide)).trans (val1_main_arg1 V0)
theorem val2_main_arg2 (V0 : Valuation τ sig (Elt Ideal)) : val2 V0 (Proc.devRef .tc main_arg2) = V0 (Proc.devRef .tc main_arg2) :=
  (w1_keep _ main_arg2 (by decide)).trans (val1_main_arg2 V0)
theorem val2_main_arg3 (V0 : Valuation τ sig (Elt Ideal)) : val2 V0 (Proc.devRef .tc main_arg3) = V0 (Proc.devRef .tc main_arg3) :=
  (w1_keep _ main_arg3 (by decide)).trans (val1_main_arg3 V0)
theorem val2_main_arg4 (V0 : Valuation τ sig (Elt Ideal)) : val2 V0 (Proc.devRef .tc main_arg4) = V0 (Proc.devRef .tc main_arg4) :=
  (w1_keep _ main_arg4 (by decide)).trans (val1_main_arg4 V0)
theorem val2_main_arg5 (V0 : Valuation τ sig (Elt Ideal)) : val2 V0 (Proc.devRef .tc main_arg5) = V0 (Proc.devRef .tc main_arg5) :=
  (w1_keep _ main_arg5 (by decide)).trans (val1_main_arg5 V0)
theorem val2_main_arg6 (V0 : Valuation τ sig (Elt Ideal)) : val2 V0 (Proc.devRef .tc main_arg6) = V0 (Proc.devRef .tc main_arg6) :=
  (w1_keep _ main_arg6 (by decide)).trans (val1_main_arg6 V0)
theorem val2_main_arg7 (V0 : Valuation τ sig (Elt Ideal)) : val2 V0 (Proc.devRef .tc main_arg7) = V0 (Proc.devRef .tc main_arg7) :=
  (w1_keep _ main_arg7 (by decide)).trans (val1_main_arg7 V0)
theorem val2_main_arg8 (V0 : Valuation τ sig (Elt Ideal)) : val2 V0 (Proc.devRef .tc main_arg8) = V0 (Proc.devRef .tc main_arg8) :=
  (w1_keep _ main_arg8 (by decide)).trans (val1_main_arg8 V0)
theorem val2_main_arg9 (V0 : Valuation τ sig (Elt Ideal)) : val2 V0 (Proc.devRef .tc main_arg9) = V0 (Proc.devRef .tc main_arg9) :=
  (w1_keep _ main_arg9 (by decide)).trans (val1_main_arg9 V0)
theorem val2_main_arg10 (V0 : Valuation τ sig (Elt Ideal)) : val2 V0 (Proc.devRef .tc main_arg10) = V0 (Proc.devRef .tc main_arg10) :=
  (w1_keep _ main_arg10 (by decide)).trans (val1_main_arg10 V0)
theorem val2_main_arg11 (V0 : Valuation τ sig (Elt Ideal)) : val2 V0 (Proc.devRef .tc main_arg11) = V0 (Proc.devRef .tc main_arg11) :=
  (w1_keep _ main_arg11 (by decide)).trans (val1_main_arg11 V0)
theorem val2_main_arg12 (V0 : Valuation τ sig (Elt Ideal)) : val2 V0 (Proc.devRef .tc main_arg12) = V0 (Proc.devRef .tc main_arg12) :=
  (w1_keep _ main_arg12 (by decide)).trans (val1_main_arg12 V0)
theorem val2_main_arg13 (V0 : Valuation τ sig (Elt Ideal)) : val2 V0 (Proc.devRef .tc main_arg13) = V0 (Proc.devRef .tc main_arg13) :=
  (w1_keep _ main_arg13 (by decide)).trans (val1_main_arg13 V0)
theorem val2_main_arg14 (V0 : Valuation τ sig (Elt Ideal)) : val2 V0 (Proc.devRef .tc main_arg14) = V0 (Proc.devRef .tc main_arg14) :=
  (w1_keep _ main_arg14 (by decide)).trans (val1_main_arg14 V0)
theorem val2_main_arg15 (V0 : Valuation τ sig (Elt Ideal)) : val2 V0 (Proc.devRef .tc main_arg15) = V0 (Proc.devRef .tc main_arg15) :=
  (w1_keep _ main_arg15 (by decide)).trans (val1_main_arg15 V0)
theorem val2_main_arg16 (V0 : Valuation τ sig (Elt Ideal)) : val2 V0 (Proc.devRef .tc main_arg16) = V0 (Proc.devRef .tc main_arg16) :=
  (w1_keep _ main_arg16 (by decide)).trans (val1_main_arg16 V0)
theorem val2_main_arg17 (V0 : Valuation τ sig (Elt Ideal)) : val2 V0 (Proc.devRef .tc main_arg17) = V0 (Proc.devRef .tc main_arg17) :=
  (w1_keep _ main_arg17 (by decide)).trans (val1_main_arg17 V0)
theorem val2_main_arg18 (V0 : Valuation τ sig (Elt Ideal)) : val2 V0 (Proc.devRef .tc main_arg18) = V0 (Proc.devRef .tc main_arg18) :=
  (w1_keep _ main_arg18 (by decide)).trans (val1_main_arg18 V0)
theorem val2_main_arg19 (V0 : Valuation τ sig (Elt Ideal)) : val2 V0 (Proc.devRef .tc main_arg19) = V0 (Proc.devRef .tc main_arg19) :=
  (w1_keep _ main_arg19 (by decide)).trans (val1_main_arg19 V0)
theorem val2_main_arg20 (V0 : Valuation τ sig (Elt Ideal)) : val2 V0 (Proc.devRef .tc main_arg20) = V0 (Proc.devRef .tc main_arg20) :=
  (w1_keep _ main_arg20 (by decide)).trans (val1_main_arg20 V0)
theorem val2_main_arg21 (V0 : Valuation τ sig (Elt Ideal)) : val2 V0 (Proc.devRef .tc main_arg21) = V0 (Proc.devRef .tc main_arg21) :=
  (w1_keep _ main_arg21 (by decide)).trans (val1_main_arg21 V0)
theorem val2_main_arg22 (V0 : Valuation τ sig (Elt Ideal)) : val2 V0 (Proc.devRef .tc main_arg22) = V0 (Proc.devRef .tc main_arg22) :=
  (w1_keep _ main_arg22 (by decide)).trans (val1_main_arg22 V0)
theorem val2_main_v1 (V0 : Valuation τ sig (Elt Ideal)) : val2 V0 (Proc.devRef .tc main_v1) = RefSpec.srcSl (V0 (Proc.devRef .tc main_arg1)) :=
  (w1_keep _ main_v1 (by decide)).trans (val1_main_v1 V0)
theorem val2_main_v2 (V0 : Valuation τ sig (Elt Ideal)) : val2 V0 (Proc.devRef .tc main_v2) = RefSpec.dstSl (V0 (Proc.devRef .tc main_arg2)) :=
  (w1_keep _ main_v2 (by decide)).trans (val1_main_v2 V0)
theorem val2_main_v24 (V0 : Valuation τ sig (Elt Ideal)) : val2 V0 (Proc.devRef .tc main_v24) = RefSpec.norm (V0 (Proc.devRef .tc main_arg1)) (V0 (Proc.devRef .tc main_arg2)) :=
  (w1_keep _ main_v24 (by decide)).trans (val1_main_v24 V0)
theorem val2_main_v38 (V0 : Valuation τ sig (Elt Ideal)) : val2 V0 (Proc.devRef .tc main_v38) = RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2))) := by
  unfold val2
  rw [s1_main_v38, val1_main_arg0, val1_main_arg3, val1_main_v1, val1_main_v2, val1_main_v24]

/-- The contents after the first 3 stages: the first bias, maximum with zero and row normalisation. -/
def val3 (V0 : Valuation τ sig (Elt Ideal)) : Valuation τ sig (Elt Ideal) := after w2b (after w2a (val2 V0))
theorem val3_main_arg0 (V0 : Valuation τ sig (Elt Ideal)) : val3 V0 (Proc.devRef .tc main_arg0) = V0 (Proc.devRef .tc main_arg0) :=
  (w2b_keep _ main_arg0 (by decide)).trans ((w2a_keep _ main_arg0 (by decide)).trans (val2_main_arg0 V0))
theorem val3_main_arg1 (V0 : Valuation τ sig (Elt Ideal)) : val3 V0 (Proc.devRef .tc main_arg1) = V0 (Proc.devRef .tc main_arg1) :=
  (w2b_keep _ main_arg1 (by decide)).trans ((w2a_keep _ main_arg1 (by decide)).trans (val2_main_arg1 V0))
theorem val3_main_arg2 (V0 : Valuation τ sig (Elt Ideal)) : val3 V0 (Proc.devRef .tc main_arg2) = V0 (Proc.devRef .tc main_arg2) :=
  (w2b_keep _ main_arg2 (by decide)).trans ((w2a_keep _ main_arg2 (by decide)).trans (val2_main_arg2 V0))
theorem val3_main_arg3 (V0 : Valuation τ sig (Elt Ideal)) : val3 V0 (Proc.devRef .tc main_arg3) = V0 (Proc.devRef .tc main_arg3) :=
  (w2b_keep _ main_arg3 (by decide)).trans ((w2a_keep _ main_arg3 (by decide)).trans (val2_main_arg3 V0))
theorem val3_main_arg4 (V0 : Valuation τ sig (Elt Ideal)) : val3 V0 (Proc.devRef .tc main_arg4) = V0 (Proc.devRef .tc main_arg4) :=
  (w2b_keep _ main_arg4 (by decide)).trans ((w2a_keep _ main_arg4 (by decide)).trans (val2_main_arg4 V0))
theorem val3_main_arg5 (V0 : Valuation τ sig (Elt Ideal)) : val3 V0 (Proc.devRef .tc main_arg5) = V0 (Proc.devRef .tc main_arg5) :=
  (w2b_keep _ main_arg5 (by decide)).trans ((w2a_keep _ main_arg5 (by decide)).trans (val2_main_arg5 V0))
theorem val3_main_arg6 (V0 : Valuation τ sig (Elt Ideal)) : val3 V0 (Proc.devRef .tc main_arg6) = V0 (Proc.devRef .tc main_arg6) :=
  (w2b_keep _ main_arg6 (by decide)).trans ((w2a_keep _ main_arg6 (by decide)).trans (val2_main_arg6 V0))
theorem val3_main_arg7 (V0 : Valuation τ sig (Elt Ideal)) : val3 V0 (Proc.devRef .tc main_arg7) = V0 (Proc.devRef .tc main_arg7) :=
  (w2b_keep _ main_arg7 (by decide)).trans ((w2a_keep _ main_arg7 (by decide)).trans (val2_main_arg7 V0))
theorem val3_main_arg8 (V0 : Valuation τ sig (Elt Ideal)) : val3 V0 (Proc.devRef .tc main_arg8) = V0 (Proc.devRef .tc main_arg8) :=
  (w2b_keep _ main_arg8 (by decide)).trans ((w2a_keep _ main_arg8 (by decide)).trans (val2_main_arg8 V0))
theorem val3_main_arg9 (V0 : Valuation τ sig (Elt Ideal)) : val3 V0 (Proc.devRef .tc main_arg9) = V0 (Proc.devRef .tc main_arg9) :=
  (w2b_keep _ main_arg9 (by decide)).trans ((w2a_keep _ main_arg9 (by decide)).trans (val2_main_arg9 V0))
theorem val3_main_arg10 (V0 : Valuation τ sig (Elt Ideal)) : val3 V0 (Proc.devRef .tc main_arg10) = V0 (Proc.devRef .tc main_arg10) :=
  (w2b_keep _ main_arg10 (by decide)).trans ((w2a_keep _ main_arg10 (by decide)).trans (val2_main_arg10 V0))
theorem val3_main_arg11 (V0 : Valuation τ sig (Elt Ideal)) : val3 V0 (Proc.devRef .tc main_arg11) = V0 (Proc.devRef .tc main_arg11) :=
  (w2b_keep _ main_arg11 (by decide)).trans ((w2a_keep _ main_arg11 (by decide)).trans (val2_main_arg11 V0))
theorem val3_main_arg12 (V0 : Valuation τ sig (Elt Ideal)) : val3 V0 (Proc.devRef .tc main_arg12) = V0 (Proc.devRef .tc main_arg12) :=
  (w2b_keep _ main_arg12 (by decide)).trans ((w2a_keep _ main_arg12 (by decide)).trans (val2_main_arg12 V0))
theorem val3_main_arg13 (V0 : Valuation τ sig (Elt Ideal)) : val3 V0 (Proc.devRef .tc main_arg13) = V0 (Proc.devRef .tc main_arg13) :=
  (w2b_keep _ main_arg13 (by decide)).trans ((w2a_keep _ main_arg13 (by decide)).trans (val2_main_arg13 V0))
theorem val3_main_arg14 (V0 : Valuation τ sig (Elt Ideal)) : val3 V0 (Proc.devRef .tc main_arg14) = V0 (Proc.devRef .tc main_arg14) :=
  (w2b_keep _ main_arg14 (by decide)).trans ((w2a_keep _ main_arg14 (by decide)).trans (val2_main_arg14 V0))
theorem val3_main_arg15 (V0 : Valuation τ sig (Elt Ideal)) : val3 V0 (Proc.devRef .tc main_arg15) = V0 (Proc.devRef .tc main_arg15) :=
  (w2b_keep _ main_arg15 (by decide)).trans ((w2a_keep _ main_arg15 (by decide)).trans (val2_main_arg15 V0))
theorem val3_main_arg16 (V0 : Valuation τ sig (Elt Ideal)) : val3 V0 (Proc.devRef .tc main_arg16) = V0 (Proc.devRef .tc main_arg16) :=
  (w2b_keep _ main_arg16 (by decide)).trans ((w2a_keep _ main_arg16 (by decide)).trans (val2_main_arg16 V0))
theorem val3_main_arg17 (V0 : Valuation τ sig (Elt Ideal)) : val3 V0 (Proc.devRef .tc main_arg17) = V0 (Proc.devRef .tc main_arg17) :=
  (w2b_keep _ main_arg17 (by decide)).trans ((w2a_keep _ main_arg17 (by decide)).trans (val2_main_arg17 V0))
theorem val3_main_arg18 (V0 : Valuation τ sig (Elt Ideal)) : val3 V0 (Proc.devRef .tc main_arg18) = V0 (Proc.devRef .tc main_arg18) :=
  (w2b_keep _ main_arg18 (by decide)).trans ((w2a_keep _ main_arg18 (by decide)).trans (val2_main_arg18 V0))
theorem val3_main_arg19 (V0 : Valuation τ sig (Elt Ideal)) : val3 V0 (Proc.devRef .tc main_arg19) = V0 (Proc.devRef .tc main_arg19) :=
  (w2b_keep _ main_arg19 (by decide)).trans ((w2a_keep _ main_arg19 (by decide)).trans (val2_main_arg19 V0))
theorem val3_main_arg20 (V0 : Valuation τ sig (Elt Ideal)) : val3 V0 (Proc.devRef .tc main_arg20) = V0 (Proc.devRef .tc main_arg20) :=
  (w2b_keep _ main_arg20 (by decide)).trans ((w2a_keep _ main_arg20 (by decide)).trans (val2_main_arg20 V0))
theorem val3_main_arg21 (V0 : Valuation τ sig (Elt Ideal)) : val3 V0 (Proc.devRef .tc main_arg21) = V0 (Proc.devRef .tc main_arg21) :=
  (w2b_keep _ main_arg21 (by decide)).trans ((w2a_keep _ main_arg21 (by decide)).trans (val2_main_arg21 V0))
theorem val3_main_arg22 (V0 : Valuation τ sig (Elt Ideal)) : val3 V0 (Proc.devRef .tc main_arg22) = V0 (Proc.devRef .tc main_arg22) :=
  (w2b_keep _ main_arg22 (by decide)).trans ((w2a_keep _ main_arg22 (by decide)).trans (val2_main_arg22 V0))
theorem val3_main_v1 (V0 : Valuation τ sig (Elt Ideal)) : val3 V0 (Proc.devRef .tc main_v1) = RefSpec.srcSl (V0 (Proc.devRef .tc main_arg1)) :=
  (w2b_keep _ main_v1 (by decide)).trans ((w2a_keep _ main_v1 (by decide)).trans (val2_main_v1 V0))
theorem val3_main_v2 (V0 : Valuation τ sig (Elt Ideal)) : val3 V0 (Proc.devRef .tc main_v2) = RefSpec.dstSl (V0 (Proc.devRef .tc main_arg2)) :=
  (w2b_keep _ main_v2 (by decide)).trans ((w2a_keep _ main_v2 (by decide)).trans (val2_main_v2 V0))
theorem val3_main_v24 (V0 : Valuation τ sig (Elt Ideal)) : val3 V0 (Proc.devRef .tc main_v24) = RefSpec.norm (V0 (Proc.devRef .tc main_arg1)) (V0 (Proc.devRef .tc main_arg2)) :=
  (w2b_keep _ main_v24 (by decide)).trans ((w2a_keep _ main_v24 (by decide)).trans (val2_main_v24 V0))
theorem val3_main_v60 (V0 : Valuation τ sig (Elt Ideal)) : val3 V0 (Proc.devRef .tc main_v60) = RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18)) := by
  unfold val3
  rw [s2_main_v60, val2_main_v38, val2_main_arg4, val2_main_arg17, val2_main_arg18]

/-- The contents after the first 4 stages: the second product and its aggregation over the edges. -/
def val4 (V0 : Valuation τ sig (Elt Ideal)) : Valuation τ sig (Elt Ideal) := after w3 (val3 V0)
theorem val4_main_arg0 (V0 : Valuation τ sig (Elt Ideal)) : val4 V0 (Proc.devRef .tc main_arg0) = V0 (Proc.devRef .tc main_arg0) :=
  (w3_keep _ main_arg0 (by decide)).trans (val3_main_arg0 V0)
theorem val4_main_arg1 (V0 : Valuation τ sig (Elt Ideal)) : val4 V0 (Proc.devRef .tc main_arg1) = V0 (Proc.devRef .tc main_arg1) :=
  (w3_keep _ main_arg1 (by decide)).trans (val3_main_arg1 V0)
theorem val4_main_arg2 (V0 : Valuation τ sig (Elt Ideal)) : val4 V0 (Proc.devRef .tc main_arg2) = V0 (Proc.devRef .tc main_arg2) :=
  (w3_keep _ main_arg2 (by decide)).trans (val3_main_arg2 V0)
theorem val4_main_arg3 (V0 : Valuation τ sig (Elt Ideal)) : val4 V0 (Proc.devRef .tc main_arg3) = V0 (Proc.devRef .tc main_arg3) :=
  (w3_keep _ main_arg3 (by decide)).trans (val3_main_arg3 V0)
theorem val4_main_arg4 (V0 : Valuation τ sig (Elt Ideal)) : val4 V0 (Proc.devRef .tc main_arg4) = V0 (Proc.devRef .tc main_arg4) :=
  (w3_keep _ main_arg4 (by decide)).trans (val3_main_arg4 V0)
theorem val4_main_arg5 (V0 : Valuation τ sig (Elt Ideal)) : val4 V0 (Proc.devRef .tc main_arg5) = V0 (Proc.devRef .tc main_arg5) :=
  (w3_keep _ main_arg5 (by decide)).trans (val3_main_arg5 V0)
theorem val4_main_arg6 (V0 : Valuation τ sig (Elt Ideal)) : val4 V0 (Proc.devRef .tc main_arg6) = V0 (Proc.devRef .tc main_arg6) :=
  (w3_keep _ main_arg6 (by decide)).trans (val3_main_arg6 V0)
theorem val4_main_arg7 (V0 : Valuation τ sig (Elt Ideal)) : val4 V0 (Proc.devRef .tc main_arg7) = V0 (Proc.devRef .tc main_arg7) :=
  (w3_keep _ main_arg7 (by decide)).trans (val3_main_arg7 V0)
theorem val4_main_arg8 (V0 : Valuation τ sig (Elt Ideal)) : val4 V0 (Proc.devRef .tc main_arg8) = V0 (Proc.devRef .tc main_arg8) :=
  (w3_keep _ main_arg8 (by decide)).trans (val3_main_arg8 V0)
theorem val4_main_arg9 (V0 : Valuation τ sig (Elt Ideal)) : val4 V0 (Proc.devRef .tc main_arg9) = V0 (Proc.devRef .tc main_arg9) :=
  (w3_keep _ main_arg9 (by decide)).trans (val3_main_arg9 V0)
theorem val4_main_arg10 (V0 : Valuation τ sig (Elt Ideal)) : val4 V0 (Proc.devRef .tc main_arg10) = V0 (Proc.devRef .tc main_arg10) :=
  (w3_keep _ main_arg10 (by decide)).trans (val3_main_arg10 V0)
theorem val4_main_arg11 (V0 : Valuation τ sig (Elt Ideal)) : val4 V0 (Proc.devRef .tc main_arg11) = V0 (Proc.devRef .tc main_arg11) :=
  (w3_keep _ main_arg11 (by decide)).trans (val3_main_arg11 V0)
theorem val4_main_arg12 (V0 : Valuation τ sig (Elt Ideal)) : val4 V0 (Proc.devRef .tc main_arg12) = V0 (Proc.devRef .tc main_arg12) :=
  (w3_keep _ main_arg12 (by decide)).trans (val3_main_arg12 V0)
theorem val4_main_arg13 (V0 : Valuation τ sig (Elt Ideal)) : val4 V0 (Proc.devRef .tc main_arg13) = V0 (Proc.devRef .tc main_arg13) :=
  (w3_keep _ main_arg13 (by decide)).trans (val3_main_arg13 V0)
theorem val4_main_arg14 (V0 : Valuation τ sig (Elt Ideal)) : val4 V0 (Proc.devRef .tc main_arg14) = V0 (Proc.devRef .tc main_arg14) :=
  (w3_keep _ main_arg14 (by decide)).trans (val3_main_arg14 V0)
theorem val4_main_arg15 (V0 : Valuation τ sig (Elt Ideal)) : val4 V0 (Proc.devRef .tc main_arg15) = V0 (Proc.devRef .tc main_arg15) :=
  (w3_keep _ main_arg15 (by decide)).trans (val3_main_arg15 V0)
theorem val4_main_arg16 (V0 : Valuation τ sig (Elt Ideal)) : val4 V0 (Proc.devRef .tc main_arg16) = V0 (Proc.devRef .tc main_arg16) :=
  (w3_keep _ main_arg16 (by decide)).trans (val3_main_arg16 V0)
theorem val4_main_arg17 (V0 : Valuation τ sig (Elt Ideal)) : val4 V0 (Proc.devRef .tc main_arg17) = V0 (Proc.devRef .tc main_arg17) :=
  (w3_keep _ main_arg17 (by decide)).trans (val3_main_arg17 V0)
theorem val4_main_arg18 (V0 : Valuation τ sig (Elt Ideal)) : val4 V0 (Proc.devRef .tc main_arg18) = V0 (Proc.devRef .tc main_arg18) :=
  (w3_keep _ main_arg18 (by decide)).trans (val3_main_arg18 V0)
theorem val4_main_arg19 (V0 : Valuation τ sig (Elt Ideal)) : val4 V0 (Proc.devRef .tc main_arg19) = V0 (Proc.devRef .tc main_arg19) :=
  (w3_keep _ main_arg19 (by decide)).trans (val3_main_arg19 V0)
theorem val4_main_arg20 (V0 : Valuation τ sig (Elt Ideal)) : val4 V0 (Proc.devRef .tc main_arg20) = V0 (Proc.devRef .tc main_arg20) :=
  (w3_keep _ main_arg20 (by decide)).trans (val3_main_arg20 V0)
theorem val4_main_arg21 (V0 : Valuation τ sig (Elt Ideal)) : val4 V0 (Proc.devRef .tc main_arg21) = V0 (Proc.devRef .tc main_arg21) :=
  (w3_keep _ main_arg21 (by decide)).trans (val3_main_arg21 V0)
theorem val4_main_arg22 (V0 : Valuation τ sig (Elt Ideal)) : val4 V0 (Proc.devRef .tc main_arg22) = V0 (Proc.devRef .tc main_arg22) :=
  (w3_keep _ main_arg22 (by decide)).trans (val3_main_arg22 V0)
theorem val4_main_v1 (V0 : Valuation τ sig (Elt Ideal)) : val4 V0 (Proc.devRef .tc main_v1) = RefSpec.srcSl (V0 (Proc.devRef .tc main_arg1)) :=
  (w3_keep _ main_v1 (by decide)).trans (val3_main_v1 V0)
theorem val4_main_v2 (V0 : Valuation τ sig (Elt Ideal)) : val4 V0 (Proc.devRef .tc main_v2) = RefSpec.dstSl (V0 (Proc.devRef .tc main_arg2)) :=
  (w3_keep _ main_v2 (by decide)).trans (val3_main_v2 V0)
theorem val4_main_v24 (V0 : Valuation τ sig (Elt Ideal)) : val4 V0 (Proc.devRef .tc main_v24) = RefSpec.norm (V0 (Proc.devRef .tc main_arg1)) (V0 (Proc.devRef .tc main_arg2)) :=
  (w3_keep _ main_v24 (by decide)).trans (val3_main_v24 V0)
theorem val4_main_v74 (V0 : Valuation τ sig (Elt Ideal)) : val4 V0 (Proc.devRef .tc main_v74) = RefSpec.agg64 (RefSpec.lin128x64 (RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18))) (V0 (Proc.devRef .tc main_arg5))) (RefSpec.srcSl (V0 (Proc.devRef .tc main_arg1))) (RefSpec.dstSl (V0 (Proc.devRef .tc main_arg2))) (RefSpec.norm (V0 (Proc.devRef .tc main_arg1)) (V0 (Proc.devRef .tc main_arg2))) := by
  unfold val4
  rw [s3_main_v74, val3_main_v60, val3_main_arg5, val3_main_v1, val3_main_v2, val3_main_v24]

/-- The contents after the first 5 stages: the second bias, maximum with zero and row normalisation. -/
def val5 (V0 : Valuation τ sig (Elt Ideal)) : Valuation τ sig (Elt Ideal) := after w4 (val4 V0)
theorem val5_main_arg0 (V0 : Valuation τ sig (Elt Ideal)) : val5 V0 (Proc.devRef .tc main_arg0) = V0 (Proc.devRef .tc main_arg0) :=
  (w4_keep _ main_arg0 (by decide)).trans (val4_main_arg0 V0)
theorem val5_main_arg1 (V0 : Valuation τ sig (Elt Ideal)) : val5 V0 (Proc.devRef .tc main_arg1) = V0 (Proc.devRef .tc main_arg1) :=
  (w4_keep _ main_arg1 (by decide)).trans (val4_main_arg1 V0)
theorem val5_main_arg2 (V0 : Valuation τ sig (Elt Ideal)) : val5 V0 (Proc.devRef .tc main_arg2) = V0 (Proc.devRef .tc main_arg2) :=
  (w4_keep _ main_arg2 (by decide)).trans (val4_main_arg2 V0)
theorem val5_main_arg3 (V0 : Valuation τ sig (Elt Ideal)) : val5 V0 (Proc.devRef .tc main_arg3) = V0 (Proc.devRef .tc main_arg3) :=
  (w4_keep _ main_arg3 (by decide)).trans (val4_main_arg3 V0)
theorem val5_main_arg4 (V0 : Valuation τ sig (Elt Ideal)) : val5 V0 (Proc.devRef .tc main_arg4) = V0 (Proc.devRef .tc main_arg4) :=
  (w4_keep _ main_arg4 (by decide)).trans (val4_main_arg4 V0)
theorem val5_main_arg5 (V0 : Valuation τ sig (Elt Ideal)) : val5 V0 (Proc.devRef .tc main_arg5) = V0 (Proc.devRef .tc main_arg5) :=
  (w4_keep _ main_arg5 (by decide)).trans (val4_main_arg5 V0)
theorem val5_main_arg6 (V0 : Valuation τ sig (Elt Ideal)) : val5 V0 (Proc.devRef .tc main_arg6) = V0 (Proc.devRef .tc main_arg6) :=
  (w4_keep _ main_arg6 (by decide)).trans (val4_main_arg6 V0)
theorem val5_main_arg7 (V0 : Valuation τ sig (Elt Ideal)) : val5 V0 (Proc.devRef .tc main_arg7) = V0 (Proc.devRef .tc main_arg7) :=
  (w4_keep _ main_arg7 (by decide)).trans (val4_main_arg7 V0)
theorem val5_main_arg8 (V0 : Valuation τ sig (Elt Ideal)) : val5 V0 (Proc.devRef .tc main_arg8) = V0 (Proc.devRef .tc main_arg8) :=
  (w4_keep _ main_arg8 (by decide)).trans (val4_main_arg8 V0)
theorem val5_main_arg9 (V0 : Valuation τ sig (Elt Ideal)) : val5 V0 (Proc.devRef .tc main_arg9) = V0 (Proc.devRef .tc main_arg9) :=
  (w4_keep _ main_arg9 (by decide)).trans (val4_main_arg9 V0)
theorem val5_main_arg10 (V0 : Valuation τ sig (Elt Ideal)) : val5 V0 (Proc.devRef .tc main_arg10) = V0 (Proc.devRef .tc main_arg10) :=
  (w4_keep _ main_arg10 (by decide)).trans (val4_main_arg10 V0)
theorem val5_main_arg11 (V0 : Valuation τ sig (Elt Ideal)) : val5 V0 (Proc.devRef .tc main_arg11) = V0 (Proc.devRef .tc main_arg11) :=
  (w4_keep _ main_arg11 (by decide)).trans (val4_main_arg11 V0)
theorem val5_main_arg12 (V0 : Valuation τ sig (Elt Ideal)) : val5 V0 (Proc.devRef .tc main_arg12) = V0 (Proc.devRef .tc main_arg12) :=
  (w4_keep _ main_arg12 (by decide)).trans (val4_main_arg12 V0)
theorem val5_main_arg13 (V0 : Valuation τ sig (Elt Ideal)) : val5 V0 (Proc.devRef .tc main_arg13) = V0 (Proc.devRef .tc main_arg13) :=
  (w4_keep _ main_arg13 (by decide)).trans (val4_main_arg13 V0)
theorem val5_main_arg14 (V0 : Valuation τ sig (Elt Ideal)) : val5 V0 (Proc.devRef .tc main_arg14) = V0 (Proc.devRef .tc main_arg14) :=
  (w4_keep _ main_arg14 (by decide)).trans (val4_main_arg14 V0)
theorem val5_main_arg15 (V0 : Valuation τ sig (Elt Ideal)) : val5 V0 (Proc.devRef .tc main_arg15) = V0 (Proc.devRef .tc main_arg15) :=
  (w4_keep _ main_arg15 (by decide)).trans (val4_main_arg15 V0)
theorem val5_main_arg16 (V0 : Valuation τ sig (Elt Ideal)) : val5 V0 (Proc.devRef .tc main_arg16) = V0 (Proc.devRef .tc main_arg16) :=
  (w4_keep _ main_arg16 (by decide)).trans (val4_main_arg16 V0)
theorem val5_main_arg17 (V0 : Valuation τ sig (Elt Ideal)) : val5 V0 (Proc.devRef .tc main_arg17) = V0 (Proc.devRef .tc main_arg17) :=
  (w4_keep _ main_arg17 (by decide)).trans (val4_main_arg17 V0)
theorem val5_main_arg18 (V0 : Valuation τ sig (Elt Ideal)) : val5 V0 (Proc.devRef .tc main_arg18) = V0 (Proc.devRef .tc main_arg18) :=
  (w4_keep _ main_arg18 (by decide)).trans (val4_main_arg18 V0)
theorem val5_main_arg19 (V0 : Valuation τ sig (Elt Ideal)) : val5 V0 (Proc.devRef .tc main_arg19) = V0 (Proc.devRef .tc main_arg19) :=
  (w4_keep _ main_arg19 (by decide)).trans (val4_main_arg19 V0)
theorem val5_main_arg20 (V0 : Valuation τ sig (Elt Ideal)) : val5 V0 (Proc.devRef .tc main_arg20) = V0 (Proc.devRef .tc main_arg20) :=
  (w4_keep _ main_arg20 (by decide)).trans (val4_main_arg20 V0)
theorem val5_main_arg21 (V0 : Valuation τ sig (Elt Ideal)) : val5 V0 (Proc.devRef .tc main_arg21) = V0 (Proc.devRef .tc main_arg21) :=
  (w4_keep _ main_arg21 (by decide)).trans (val4_main_arg21 V0)
theorem val5_main_arg22 (V0 : Valuation τ sig (Elt Ideal)) : val5 V0 (Proc.devRef .tc main_arg22) = V0 (Proc.devRef .tc main_arg22) :=
  (w4_keep _ main_arg22 (by decide)).trans (val4_main_arg22 V0)
theorem val5_main_v1 (V0 : Valuation τ sig (Elt Ideal)) : val5 V0 (Proc.devRef .tc main_v1) = RefSpec.srcSl (V0 (Proc.devRef .tc main_arg1)) :=
  (w4_keep _ main_v1 (by decide)).trans (val4_main_v1 V0)
theorem val5_main_v2 (V0 : Valuation τ sig (Elt Ideal)) : val5 V0 (Proc.devRef .tc main_v2) = RefSpec.dstSl (V0 (Proc.devRef .tc main_arg2)) :=
  (w4_keep _ main_v2 (by decide)).trans (val4_main_v2 V0)
theorem val5_main_v24 (V0 : Valuation τ sig (Elt Ideal)) : val5 V0 (Proc.devRef .tc main_v24) = RefSpec.norm (V0 (Proc.devRef .tc main_arg1)) (V0 (Proc.devRef .tc main_arg2)) :=
  (w4_keep _ main_v24 (by decide)).trans (val4_main_v24 V0)
theorem val5_main_v96 (V0 : Valuation τ sig (Elt Ideal)) : val5 V0 (Proc.devRef .tc main_v96) = RefSpec.postln64 (RefSpec.agg64 (RefSpec.lin128x64 (RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18))) (V0 (Proc.devRef .tc main_arg5))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg6)) (V0 (Proc.devRef .tc main_arg19)) (V0 (Proc.devRef .tc main_arg20)) := by
  unfold val5
  rw [s4_main_v96, val4_main_v74, val4_main_arg6, val4_main_arg19, val4_main_arg20]

/-- The contents after the first 6 stages: the third product and its aggregation over the edges. -/
def val6 (V0 : Valuation τ sig (Elt Ideal)) : Valuation τ sig (Elt Ideal) := after w5b (after w5a (val5 V0))
theorem val6_main_arg0 (V0 : Valuation τ sig (Elt Ideal)) : val6 V0 (Proc.devRef .tc main_arg0) = V0 (Proc.devRef .tc main_arg0) :=
  (w5b_keep _ main_arg0 (by decide)).trans ((w5a_keep _ main_arg0 (by decide)).trans (val5_main_arg0 V0))
theorem val6_main_arg1 (V0 : Valuation τ sig (Elt Ideal)) : val6 V0 (Proc.devRef .tc main_arg1) = V0 (Proc.devRef .tc main_arg1) :=
  (w5b_keep _ main_arg1 (by decide)).trans ((w5a_keep _ main_arg1 (by decide)).trans (val5_main_arg1 V0))
theorem val6_main_arg2 (V0 : Valuation τ sig (Elt Ideal)) : val6 V0 (Proc.devRef .tc main_arg2) = V0 (Proc.devRef .tc main_arg2) :=
  (w5b_keep _ main_arg2 (by decide)).trans ((w5a_keep _ main_arg2 (by decide)).trans (val5_main_arg2 V0))
theorem val6_main_arg3 (V0 : Valuation τ sig (Elt Ideal)) : val6 V0 (Proc.devRef .tc main_arg3) = V0 (Proc.devRef .tc main_arg3) :=
  (w5b_keep _ main_arg3 (by decide)).trans ((w5a_keep _ main_arg3 (by decide)).trans (val5_main_arg3 V0))
theorem val6_main_arg4 (V0 : Valuation τ sig (Elt Ideal)) : val6 V0 (Proc.devRef .tc main_arg4) = V0 (Proc.devRef .tc main_arg4) :=
  (w5b_keep _ main_arg4 (by decide)).trans ((w5a_keep _ main_arg4 (by decide)).trans (val5_main_arg4 V0))
theorem val6_main_arg5 (V0 : Valuation τ sig (Elt Ideal)) : val6 V0 (Proc.devRef .tc main_arg5) = V0 (Proc.devRef .tc main_arg5) :=
  (w5b_keep _ main_arg5 (by decide)).trans ((w5a_keep _ main_arg5 (by decide)).trans (val5_main_arg5 V0))
theorem val6_main_arg6 (V0 : Valuation τ sig (Elt Ideal)) : val6 V0 (Proc.devRef .tc main_arg6) = V0 (Proc.devRef .tc main_arg6) :=
  (w5b_keep _ main_arg6 (by decide)).trans ((w5a_keep _ main_arg6 (by decide)).trans (val5_main_arg6 V0))
theorem val6_main_arg7 (V0 : Valuation τ sig (Elt Ideal)) : val6 V0 (Proc.devRef .tc main_arg7) = V0 (Proc.devRef .tc main_arg7) :=
  (w5b_keep _ main_arg7 (by decide)).trans ((w5a_keep _ main_arg7 (by decide)).trans (val5_main_arg7 V0))
theorem val6_main_arg8 (V0 : Valuation τ sig (Elt Ideal)) : val6 V0 (Proc.devRef .tc main_arg8) = V0 (Proc.devRef .tc main_arg8) :=
  (w5b_keep _ main_arg8 (by decide)).trans ((w5a_keep _ main_arg8 (by decide)).trans (val5_main_arg8 V0))
theorem val6_main_arg9 (V0 : Valuation τ sig (Elt Ideal)) : val6 V0 (Proc.devRef .tc main_arg9) = V0 (Proc.devRef .tc main_arg9) :=
  (w5b_keep _ main_arg9 (by decide)).trans ((w5a_keep _ main_arg9 (by decide)).trans (val5_main_arg9 V0))
theorem val6_main_arg10 (V0 : Valuation τ sig (Elt Ideal)) : val6 V0 (Proc.devRef .tc main_arg10) = V0 (Proc.devRef .tc main_arg10) :=
  (w5b_keep _ main_arg10 (by decide)).trans ((w5a_keep _ main_arg10 (by decide)).trans (val5_main_arg10 V0))
theorem val6_main_arg11 (V0 : Valuation τ sig (Elt Ideal)) : val6 V0 (Proc.devRef .tc main_arg11) = V0 (Proc.devRef .tc main_arg11) :=
  (w5b_keep _ main_arg11 (by decide)).trans ((w5a_keep _ main_arg11 (by decide)).trans (val5_main_arg11 V0))
theorem val6_main_arg12 (V0 : Valuation τ sig (Elt Ideal)) : val6 V0 (Proc.devRef .tc main_arg12) = V0 (Proc.devRef .tc main_arg12) :=
  (w5b_keep _ main_arg12 (by decide)).trans ((w5a_keep _ main_arg12 (by decide)).trans (val5_main_arg12 V0))
theorem val6_main_arg13 (V0 : Valuation τ sig (Elt Ideal)) : val6 V0 (Proc.devRef .tc main_arg13) = V0 (Proc.devRef .tc main_arg13) :=
  (w5b_keep _ main_arg13 (by decide)).trans ((w5a_keep _ main_arg13 (by decide)).trans (val5_main_arg13 V0))
theorem val6_main_arg14 (V0 : Valuation τ sig (Elt Ideal)) : val6 V0 (Proc.devRef .tc main_arg14) = V0 (Proc.devRef .tc main_arg14) :=
  (w5b_keep _ main_arg14 (by decide)).trans ((w5a_keep _ main_arg14 (by decide)).trans (val5_main_arg14 V0))
theorem val6_main_arg15 (V0 : Valuation τ sig (Elt Ideal)) : val6 V0 (Proc.devRef .tc main_arg15) = V0 (Proc.devRef .tc main_arg15) :=
  (w5b_keep _ main_arg15 (by decide)).trans ((w5a_keep _ main_arg15 (by decide)).trans (val5_main_arg15 V0))
theorem val6_main_arg16 (V0 : Valuation τ sig (Elt Ideal)) : val6 V0 (Proc.devRef .tc main_arg16) = V0 (Proc.devRef .tc main_arg16) :=
  (w5b_keep _ main_arg16 (by decide)).trans ((w5a_keep _ main_arg16 (by decide)).trans (val5_main_arg16 V0))
theorem val6_main_arg17 (V0 : Valuation τ sig (Elt Ideal)) : val6 V0 (Proc.devRef .tc main_arg17) = V0 (Proc.devRef .tc main_arg17) :=
  (w5b_keep _ main_arg17 (by decide)).trans ((w5a_keep _ main_arg17 (by decide)).trans (val5_main_arg17 V0))
theorem val6_main_arg18 (V0 : Valuation τ sig (Elt Ideal)) : val6 V0 (Proc.devRef .tc main_arg18) = V0 (Proc.devRef .tc main_arg18) :=
  (w5b_keep _ main_arg18 (by decide)).trans ((w5a_keep _ main_arg18 (by decide)).trans (val5_main_arg18 V0))
theorem val6_main_arg19 (V0 : Valuation τ sig (Elt Ideal)) : val6 V0 (Proc.devRef .tc main_arg19) = V0 (Proc.devRef .tc main_arg19) :=
  (w5b_keep _ main_arg19 (by decide)).trans ((w5a_keep _ main_arg19 (by decide)).trans (val5_main_arg19 V0))
theorem val6_main_arg20 (V0 : Valuation τ sig (Elt Ideal)) : val6 V0 (Proc.devRef .tc main_arg20) = V0 (Proc.devRef .tc main_arg20) :=
  (w5b_keep _ main_arg20 (by decide)).trans ((w5a_keep _ main_arg20 (by decide)).trans (val5_main_arg20 V0))
theorem val6_main_arg21 (V0 : Valuation τ sig (Elt Ideal)) : val6 V0 (Proc.devRef .tc main_arg21) = V0 (Proc.devRef .tc main_arg21) :=
  (w5b_keep _ main_arg21 (by decide)).trans ((w5a_keep _ main_arg21 (by decide)).trans (val5_main_arg21 V0))
theorem val6_main_arg22 (V0 : Valuation τ sig (Elt Ideal)) : val6 V0 (Proc.devRef .tc main_arg22) = V0 (Proc.devRef .tc main_arg22) :=
  (w5b_keep _ main_arg22 (by decide)).trans ((w5a_keep _ main_arg22 (by decide)).trans (val5_main_arg22 V0))
theorem val6_main_v110 (V0 : Valuation τ sig (Elt Ideal)) : val6 V0 (Proc.devRef .tc main_v110) = RefSpec.agg128 (RefSpec.lin64x128 (RefSpec.postln64 (RefSpec.agg64 (RefSpec.lin128x64 (RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18))) (V0 (Proc.devRef .tc main_arg5))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg6)) (V0 (Proc.devRef .tc main_arg19)) (V0 (Proc.devRef .tc main_arg20))) (V0 (Proc.devRef .tc main_arg7))) (RefSpec.srcSl (V0 (Proc.devRef .tc main_arg1))) (RefSpec.dstSl (V0 (Proc.devRef .tc main_arg2))) (RefSpec.norm (V0 (Proc.devRef .tc main_arg1)) (V0 (Proc.devRef .tc main_arg2))) := by
  unfold val6
  rw [s5_main_v110, val5_main_v96, val5_main_arg7, val5_main_v1, val5_main_v2, val5_main_v24]

/-- The contents after the first 7 stages: the third bias, maximum with zero and row normalisation. -/
def val7 (V0 : Valuation τ sig (Elt Ideal)) : Valuation τ sig (Elt Ideal) := after w6 (val6 V0)
theorem val7_main_arg0 (V0 : Valuation τ sig (Elt Ideal)) : val7 V0 (Proc.devRef .tc main_arg0) = V0 (Proc.devRef .tc main_arg0) :=
  (w6_keep _ main_arg0 (by decide)).trans (val6_main_arg0 V0)
theorem val7_main_arg1 (V0 : Valuation τ sig (Elt Ideal)) : val7 V0 (Proc.devRef .tc main_arg1) = V0 (Proc.devRef .tc main_arg1) :=
  (w6_keep _ main_arg1 (by decide)).trans (val6_main_arg1 V0)
theorem val7_main_arg2 (V0 : Valuation τ sig (Elt Ideal)) : val7 V0 (Proc.devRef .tc main_arg2) = V0 (Proc.devRef .tc main_arg2) :=
  (w6_keep _ main_arg2 (by decide)).trans (val6_main_arg2 V0)
theorem val7_main_arg3 (V0 : Valuation τ sig (Elt Ideal)) : val7 V0 (Proc.devRef .tc main_arg3) = V0 (Proc.devRef .tc main_arg3) :=
  (w6_keep _ main_arg3 (by decide)).trans (val6_main_arg3 V0)
theorem val7_main_arg4 (V0 : Valuation τ sig (Elt Ideal)) : val7 V0 (Proc.devRef .tc main_arg4) = V0 (Proc.devRef .tc main_arg4) :=
  (w6_keep _ main_arg4 (by decide)).trans (val6_main_arg4 V0)
theorem val7_main_arg5 (V0 : Valuation τ sig (Elt Ideal)) : val7 V0 (Proc.devRef .tc main_arg5) = V0 (Proc.devRef .tc main_arg5) :=
  (w6_keep _ main_arg5 (by decide)).trans (val6_main_arg5 V0)
theorem val7_main_arg6 (V0 : Valuation τ sig (Elt Ideal)) : val7 V0 (Proc.devRef .tc main_arg6) = V0 (Proc.devRef .tc main_arg6) :=
  (w6_keep _ main_arg6 (by decide)).trans (val6_main_arg6 V0)
theorem val7_main_arg7 (V0 : Valuation τ sig (Elt Ideal)) : val7 V0 (Proc.devRef .tc main_arg7) = V0 (Proc.devRef .tc main_arg7) :=
  (w6_keep _ main_arg7 (by decide)).trans (val6_main_arg7 V0)
theorem val7_main_arg8 (V0 : Valuation τ sig (Elt Ideal)) : val7 V0 (Proc.devRef .tc main_arg8) = V0 (Proc.devRef .tc main_arg8) :=
  (w6_keep _ main_arg8 (by decide)).trans (val6_main_arg8 V0)
theorem val7_main_arg9 (V0 : Valuation τ sig (Elt Ideal)) : val7 V0 (Proc.devRef .tc main_arg9) = V0 (Proc.devRef .tc main_arg9) :=
  (w6_keep _ main_arg9 (by decide)).trans (val6_main_arg9 V0)
theorem val7_main_arg10 (V0 : Valuation τ sig (Elt Ideal)) : val7 V0 (Proc.devRef .tc main_arg10) = V0 (Proc.devRef .tc main_arg10) :=
  (w6_keep _ main_arg10 (by decide)).trans (val6_main_arg10 V0)
theorem val7_main_arg11 (V0 : Valuation τ sig (Elt Ideal)) : val7 V0 (Proc.devRef .tc main_arg11) = V0 (Proc.devRef .tc main_arg11) :=
  (w6_keep _ main_arg11 (by decide)).trans (val6_main_arg11 V0)
theorem val7_main_arg12 (V0 : Valuation τ sig (Elt Ideal)) : val7 V0 (Proc.devRef .tc main_arg12) = V0 (Proc.devRef .tc main_arg12) :=
  (w6_keep _ main_arg12 (by decide)).trans (val6_main_arg12 V0)
theorem val7_main_arg13 (V0 : Valuation τ sig (Elt Ideal)) : val7 V0 (Proc.devRef .tc main_arg13) = V0 (Proc.devRef .tc main_arg13) :=
  (w6_keep _ main_arg13 (by decide)).trans (val6_main_arg13 V0)
theorem val7_main_arg14 (V0 : Valuation τ sig (Elt Ideal)) : val7 V0 (Proc.devRef .tc main_arg14) = V0 (Proc.devRef .tc main_arg14) :=
  (w6_keep _ main_arg14 (by decide)).trans (val6_main_arg14 V0)
theorem val7_main_arg15 (V0 : Valuation τ sig (Elt Ideal)) : val7 V0 (Proc.devRef .tc main_arg15) = V0 (Proc.devRef .tc main_arg15) :=
  (w6_keep _ main_arg15 (by decide)).trans (val6_main_arg15 V0)
theorem val7_main_arg16 (V0 : Valuation τ sig (Elt Ideal)) : val7 V0 (Proc.devRef .tc main_arg16) = V0 (Proc.devRef .tc main_arg16) :=
  (w6_keep _ main_arg16 (by decide)).trans (val6_main_arg16 V0)
theorem val7_main_arg17 (V0 : Valuation τ sig (Elt Ideal)) : val7 V0 (Proc.devRef .tc main_arg17) = V0 (Proc.devRef .tc main_arg17) :=
  (w6_keep _ main_arg17 (by decide)).trans (val6_main_arg17 V0)
theorem val7_main_arg18 (V0 : Valuation τ sig (Elt Ideal)) : val7 V0 (Proc.devRef .tc main_arg18) = V0 (Proc.devRef .tc main_arg18) :=
  (w6_keep _ main_arg18 (by decide)).trans (val6_main_arg18 V0)
theorem val7_main_arg19 (V0 : Valuation τ sig (Elt Ideal)) : val7 V0 (Proc.devRef .tc main_arg19) = V0 (Proc.devRef .tc main_arg19) :=
  (w6_keep _ main_arg19 (by decide)).trans (val6_main_arg19 V0)
theorem val7_main_arg20 (V0 : Valuation τ sig (Elt Ideal)) : val7 V0 (Proc.devRef .tc main_arg20) = V0 (Proc.devRef .tc main_arg20) :=
  (w6_keep _ main_arg20 (by decide)).trans (val6_main_arg20 V0)
theorem val7_main_arg21 (V0 : Valuation τ sig (Elt Ideal)) : val7 V0 (Proc.devRef .tc main_arg21) = V0 (Proc.devRef .tc main_arg21) :=
  (w6_keep _ main_arg21 (by decide)).trans (val6_main_arg21 V0)
theorem val7_main_arg22 (V0 : Valuation τ sig (Elt Ideal)) : val7 V0 (Proc.devRef .tc main_arg22) = V0 (Proc.devRef .tc main_arg22) :=
  (w6_keep _ main_arg22 (by decide)).trans (val6_main_arg22 V0)
theorem val7_main_v132 (V0 : Valuation τ sig (Elt Ideal)) : val7 V0 (Proc.devRef .tc main_v132) = RefSpec.postln128 (RefSpec.agg128 (RefSpec.lin64x128 (RefSpec.postln64 (RefSpec.agg64 (RefSpec.lin128x64 (RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18))) (V0 (Proc.devRef .tc main_arg5))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg6)) (V0 (Proc.devRef .tc main_arg19)) (V0 (Proc.devRef .tc main_arg20))) (V0 (Proc.devRef .tc main_arg7))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg8)) (V0 (Proc.devRef .tc main_arg21)) (V0 (Proc.devRef .tc main_arg22)) := by
  unfold val7
  rw [s6_main_v132, val6_main_v110, val6_main_arg8, val6_main_arg21, val6_main_arg22]

/-- The contents after the first 8 stages: the perceptron branch. -/
def val8 (V0 : Valuation τ sig (Elt Ideal)) : Valuation τ sig (Elt Ideal) := after w7 (val7 V0)
theorem val8_main_arg0 (V0 : Valuation τ sig (Elt Ideal)) : val8 V0 (Proc.devRef .tc main_arg0) = V0 (Proc.devRef .tc main_arg0) :=
  (w7_keep _ main_arg0 (by decide)).trans (val7_main_arg0 V0)
theorem val8_main_arg1 (V0 : Valuation τ sig (Elt Ideal)) : val8 V0 (Proc.devRef .tc main_arg1) = V0 (Proc.devRef .tc main_arg1) :=
  (w7_keep _ main_arg1 (by decide)).trans (val7_main_arg1 V0)
theorem val8_main_arg2 (V0 : Valuation τ sig (Elt Ideal)) : val8 V0 (Proc.devRef .tc main_arg2) = V0 (Proc.devRef .tc main_arg2) :=
  (w7_keep _ main_arg2 (by decide)).trans (val7_main_arg2 V0)
theorem val8_main_arg3 (V0 : Valuation τ sig (Elt Ideal)) : val8 V0 (Proc.devRef .tc main_arg3) = V0 (Proc.devRef .tc main_arg3) :=
  (w7_keep _ main_arg3 (by decide)).trans (val7_main_arg3 V0)
theorem val8_main_arg4 (V0 : Valuation τ sig (Elt Ideal)) : val8 V0 (Proc.devRef .tc main_arg4) = V0 (Proc.devRef .tc main_arg4) :=
  (w7_keep _ main_arg4 (by decide)).trans (val7_main_arg4 V0)
theorem val8_main_arg5 (V0 : Valuation τ sig (Elt Ideal)) : val8 V0 (Proc.devRef .tc main_arg5) = V0 (Proc.devRef .tc main_arg5) :=
  (w7_keep _ main_arg5 (by decide)).trans (val7_main_arg5 V0)
theorem val8_main_arg6 (V0 : Valuation τ sig (Elt Ideal)) : val8 V0 (Proc.devRef .tc main_arg6) = V0 (Proc.devRef .tc main_arg6) :=
  (w7_keep _ main_arg6 (by decide)).trans (val7_main_arg6 V0)
theorem val8_main_arg7 (V0 : Valuation τ sig (Elt Ideal)) : val8 V0 (Proc.devRef .tc main_arg7) = V0 (Proc.devRef .tc main_arg7) :=
  (w7_keep _ main_arg7 (by decide)).trans (val7_main_arg7 V0)
theorem val8_main_arg8 (V0 : Valuation τ sig (Elt Ideal)) : val8 V0 (Proc.devRef .tc main_arg8) = V0 (Proc.devRef .tc main_arg8) :=
  (w7_keep _ main_arg8 (by decide)).trans (val7_main_arg8 V0)
theorem val8_main_arg9 (V0 : Valuation τ sig (Elt Ideal)) : val8 V0 (Proc.devRef .tc main_arg9) = V0 (Proc.devRef .tc main_arg9) :=
  (w7_keep _ main_arg9 (by decide)).trans (val7_main_arg9 V0)
theorem val8_main_arg10 (V0 : Valuation τ sig (Elt Ideal)) : val8 V0 (Proc.devRef .tc main_arg10) = V0 (Proc.devRef .tc main_arg10) :=
  (w7_keep _ main_arg10 (by decide)).trans (val7_main_arg10 V0)
theorem val8_main_arg11 (V0 : Valuation τ sig (Elt Ideal)) : val8 V0 (Proc.devRef .tc main_arg11) = V0 (Proc.devRef .tc main_arg11) :=
  (w7_keep _ main_arg11 (by decide)).trans (val7_main_arg11 V0)
theorem val8_main_arg12 (V0 : Valuation τ sig (Elt Ideal)) : val8 V0 (Proc.devRef .tc main_arg12) = V0 (Proc.devRef .tc main_arg12) :=
  (w7_keep _ main_arg12 (by decide)).trans (val7_main_arg12 V0)
theorem val8_main_arg13 (V0 : Valuation τ sig (Elt Ideal)) : val8 V0 (Proc.devRef .tc main_arg13) = V0 (Proc.devRef .tc main_arg13) :=
  (w7_keep _ main_arg13 (by decide)).trans (val7_main_arg13 V0)
theorem val8_main_arg14 (V0 : Valuation τ sig (Elt Ideal)) : val8 V0 (Proc.devRef .tc main_arg14) = V0 (Proc.devRef .tc main_arg14) :=
  (w7_keep _ main_arg14 (by decide)).trans (val7_main_arg14 V0)
theorem val8_main_arg15 (V0 : Valuation τ sig (Elt Ideal)) : val8 V0 (Proc.devRef .tc main_arg15) = V0 (Proc.devRef .tc main_arg15) :=
  (w7_keep _ main_arg15 (by decide)).trans (val7_main_arg15 V0)
theorem val8_main_arg16 (V0 : Valuation τ sig (Elt Ideal)) : val8 V0 (Proc.devRef .tc main_arg16) = V0 (Proc.devRef .tc main_arg16) :=
  (w7_keep _ main_arg16 (by decide)).trans (val7_main_arg16 V0)
theorem val8_main_arg17 (V0 : Valuation τ sig (Elt Ideal)) : val8 V0 (Proc.devRef .tc main_arg17) = V0 (Proc.devRef .tc main_arg17) :=
  (w7_keep _ main_arg17 (by decide)).trans (val7_main_arg17 V0)
theorem val8_main_arg18 (V0 : Valuation τ sig (Elt Ideal)) : val8 V0 (Proc.devRef .tc main_arg18) = V0 (Proc.devRef .tc main_arg18) :=
  (w7_keep _ main_arg18 (by decide)).trans (val7_main_arg18 V0)
theorem val8_main_arg19 (V0 : Valuation τ sig (Elt Ideal)) : val8 V0 (Proc.devRef .tc main_arg19) = V0 (Proc.devRef .tc main_arg19) :=
  (w7_keep _ main_arg19 (by decide)).trans (val7_main_arg19 V0)
theorem val8_main_arg20 (V0 : Valuation τ sig (Elt Ideal)) : val8 V0 (Proc.devRef .tc main_arg20) = V0 (Proc.devRef .tc main_arg20) :=
  (w7_keep _ main_arg20 (by decide)).trans (val7_main_arg20 V0)
theorem val8_main_arg21 (V0 : Valuation τ sig (Elt Ideal)) : val8 V0 (Proc.devRef .tc main_arg21) = V0 (Proc.devRef .tc main_arg21) :=
  (w7_keep _ main_arg21 (by decide)).trans (val7_main_arg21 V0)
theorem val8_main_arg22 (V0 : Valuation τ sig (Elt Ideal)) : val8 V0 (Proc.devRef .tc main_arg22) = V0 (Proc.devRef .tc main_arg22) :=
  (w7_keep _ main_arg22 (by decide)).trans (val7_main_arg22 V0)
theorem val8_main_v132 (V0 : Valuation τ sig (Elt Ideal)) : val8 V0 (Proc.devRef .tc main_v132) = RefSpec.postln128 (RefSpec.agg128 (RefSpec.lin64x128 (RefSpec.postln64 (RefSpec.agg64 (RefSpec.lin128x64 (RefSpec.postln128 (RefSpec.agg128 (RefSpec.lin128x128 (V0 (Proc.devRef .tc main_arg0)) (V0 (Proc.devRef .tc main_arg3))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg4)) (V0 (Proc.devRef .tc main_arg17)) (V0 (Proc.devRef .tc main_arg18))) (V0 (Proc.devRef .tc main_arg5))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg6)) (V0 (Proc.devRef .tc main_arg19)) (V0 (Proc.devRef .tc main_arg20))) (V0 (Proc.devRef .tc main_arg7))) (RefSpec.srcSl (V0 (Proc.devRef .tc main_arg1))) (RefSpec.dstSl (V0 (Proc.devRef .tc main_arg2))) (RefSpec.norm (V0 (Proc.devRef .tc main_arg1)) (V0 (Proc.devRef .tc main_arg2)))) (V0 (Proc.devRef .tc main_arg8)) (V0 (Proc.devRef .tc main_arg21)) (V0 (Proc.devRef .tc main_arg22)) :=
  (w7_keep _ main_v132 (by decide)).trans (val7_main_v132 V0)
theorem val8_main_v151 (V0 : Valuation τ sig (Elt Ideal)) : val8 V0 (Proc.devRef .tc main_v151) = RefSpec.mlp (V0 (Proc.devRef .tc main_arg0)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val8
  rw [s7_main_v151, val7_main_arg0, val7_main_arg9, val7_main_arg10, val7_main_arg11, val7_main_arg12, val7_main_arg13, val7_main_arg14, val7_main_arg15, val7_main_arg16]

/-- The contents after the first 9 stages: half the sum of the two branches. -/
def val9 (V0 : Valuation τ sig (Elt Ideal)) : Valuation τ sig (Elt Ideal) := after w8 (val8 V0)
theorem val9_main_arg0 (V0 : Valuation τ sig (Elt Ideal)) : val9 V0 (Proc.devRef .tc main_arg0) = V0 (Proc.devRef .tc main_arg0) :=
  (w8_keep _ main_arg0 (by decide)).trans (val8_main_arg0 V0)
theorem val9_main_arg1 (V0 : Valuation τ sig (Elt Ideal)) : val9 V0 (Proc.devRef .tc main_arg1) = V0 (Proc.devRef .tc main_arg1) :=
  (w8_keep _ main_arg1 (by decide)).trans (val8_main_arg1 V0)
theorem val9_main_arg2 (V0 : Valuation τ sig (Elt Ideal)) : val9 V0 (Proc.devRef .tc main_arg2) = V0 (Proc.devRef .tc main_arg2) :=
  (w8_keep _ main_arg2 (by decide)).trans (val8_main_arg2 V0)
theorem val9_main_arg3 (V0 : Valuation τ sig (Elt Ideal)) : val9 V0 (Proc.devRef .tc main_arg3) = V0 (Proc.devRef .tc main_arg3) :=
  (w8_keep _ main_arg3 (by decide)).trans (val8_main_arg3 V0)
theorem val9_main_arg4 (V0 : Valuation τ sig (Elt Ideal)) : val9 V0 (Proc.devRef .tc main_arg4) = V0 (Proc.devRef .tc main_arg4) :=
  (w8_keep _ main_arg4 (by decide)).trans (val8_main_arg4 V0)
theorem val9_main_arg5 (V0 : Valuation τ sig (Elt Ideal)) : val9 V0 (Proc.devRef .tc main_arg5) = V0 (Proc.devRef .tc main_arg5) :=
  (w8_keep _ main_arg5 (by decide)).trans (val8_main_arg5 V0)
theorem val9_main_arg6 (V0 : Valuation τ sig (Elt Ideal)) : val9 V0 (Proc.devRef .tc main_arg6) = V0 (Proc.devRef .tc main_arg6) :=
  (w8_keep _ main_arg6 (by decide)).trans (val8_main_arg6 V0)
theorem val9_main_arg7 (V0 : Valuation τ sig (Elt Ideal)) : val9 V0 (Proc.devRef .tc main_arg7) = V0 (Proc.devRef .tc main_arg7) :=
  (w8_keep _ main_arg7 (by decide)).trans (val8_main_arg7 V0)
theorem val9_main_arg8 (V0 : Valuation τ sig (Elt Ideal)) : val9 V0 (Proc.devRef .tc main_arg8) = V0 (Proc.devRef .tc main_arg8) :=
  (w8_keep _ main_arg8 (by decide)).trans (val8_main_arg8 V0)
theorem val9_main_arg9 (V0 : Valuation τ sig (Elt Ideal)) : val9 V0 (Proc.devRef .tc main_arg9) = V0 (Proc.devRef .tc main_arg9) :=
  (w8_keep _ main_arg9 (by decide)).trans (val8_main_arg9 V0)
theorem val9_main_arg10 (V0 : Valuation τ sig (Elt Ideal)) : val9 V0 (Proc.devRef .tc main_arg10) = V0 (Proc.devRef .tc main_arg10) :=
  (w8_keep _ main_arg10 (by decide)).trans (val8_main_arg10 V0)
theorem val9_main_arg11 (V0 : Valuation τ sig (Elt Ideal)) : val9 V0 (Proc.devRef .tc main_arg11) = V0 (Proc.devRef .tc main_arg11) :=
  (w8_keep _ main_arg11 (by decide)).trans (val8_main_arg11 V0)
theorem val9_main_arg12 (V0 : Valuation τ sig (Elt Ideal)) : val9 V0 (Proc.devRef .tc main_arg12) = V0 (Proc.devRef .tc main_arg12) :=
  (w8_keep _ main_arg12 (by decide)).trans (val8_main_arg12 V0)
theorem val9_main_arg13 (V0 : Valuation τ sig (Elt Ideal)) : val9 V0 (Proc.devRef .tc main_arg13) = V0 (Proc.devRef .tc main_arg13) :=
  (w8_keep _ main_arg13 (by decide)).trans (val8_main_arg13 V0)
theorem val9_main_arg14 (V0 : Valuation τ sig (Elt Ideal)) : val9 V0 (Proc.devRef .tc main_arg14) = V0 (Proc.devRef .tc main_arg14) :=
  (w8_keep _ main_arg14 (by decide)).trans (val8_main_arg14 V0)
theorem val9_main_arg15 (V0 : Valuation τ sig (Elt Ideal)) : val9 V0 (Proc.devRef .tc main_arg15) = V0 (Proc.devRef .tc main_arg15) :=
  (w8_keep _ main_arg15 (by decide)).trans (val8_main_arg15 V0)
theorem val9_main_arg16 (V0 : Valuation τ sig (Elt Ideal)) : val9 V0 (Proc.devRef .tc main_arg16) = V0 (Proc.devRef .tc main_arg16) :=
  (w8_keep _ main_arg16 (by decide)).trans (val8_main_arg16 V0)
theorem val9_main_arg17 (V0 : Valuation τ sig (Elt Ideal)) : val9 V0 (Proc.devRef .tc main_arg17) = V0 (Proc.devRef .tc main_arg17) :=
  (w8_keep _ main_arg17 (by decide)).trans (val8_main_arg17 V0)
theorem val9_main_arg18 (V0 : Valuation τ sig (Elt Ideal)) : val9 V0 (Proc.devRef .tc main_arg18) = V0 (Proc.devRef .tc main_arg18) :=
  (w8_keep _ main_arg18 (by decide)).trans (val8_main_arg18 V0)
theorem val9_main_arg19 (V0 : Valuation τ sig (Elt Ideal)) : val9 V0 (Proc.devRef .tc main_arg19) = V0 (Proc.devRef .tc main_arg19) :=
  (w8_keep _ main_arg19 (by decide)).trans (val8_main_arg19 V0)
theorem val9_main_arg20 (V0 : Valuation τ sig (Elt Ideal)) : val9 V0 (Proc.devRef .tc main_arg20) = V0 (Proc.devRef .tc main_arg20) :=
  (w8_keep _ main_arg20 (by decide)).trans (val8_main_arg20 V0)
theorem val9_main_arg21 (V0 : Valuation τ sig (Elt Ideal)) : val9 V0 (Proc.devRef .tc main_arg21) = V0 (Proc.devRef .tc main_arg21) :=
  (w8_keep _ main_arg21 (by decide)).trans (val8_main_arg21 V0)
theorem val9_main_arg22 (V0 : Valuation τ sig (Elt Ideal)) : val9 V0 (Proc.devRef .tc main_arg22) = V0 (Proc.devRef .tc main_arg22) :=
  (w8_keep _ main_arg22 (by decide)).trans (val8_main_arg22 V0)
theorem val9_main_v154 (V0 : Valuation τ sig (Elt Ideal)) : val9 V0 (Proc.devRef .tc main_v154) = RefSpec.res (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  unfold val9
  rw [s8_main_v154, val8_main_v132, val8_main_v151]
  unfold RefSpec.res
  rfl

/-- The operations' fold is the stages' composition. -/
theorem after_ops (V0 : Valuation τ sig (Elt Ideal)) : after ops V0 = val9 V0 := by
  simp only [ops, p0, p1, p2, p3, after_append]
  rfl

/-- On every device, from any memory with zero counters: every weakly fair execution of the reference program
    terminates with the result buffer at `RefSpec.res` of the arguments' contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v154) = RefSpec.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_v154).trans (by rw [after_ops]; exact val9_main_v154 (launchContents m c)),
      (h c main_arg0).trans (by rw [after_ops]; exact val9_main_arg0 (launchContents m c)),
      (h c main_arg1).trans (by rw [after_ops]; exact val9_main_arg1 (launchContents m c)),
      (h c main_arg2).trans (by rw [after_ops]; exact val9_main_arg2 (launchContents m c)),
      (h c main_arg3).trans (by rw [after_ops]; exact val9_main_arg3 (launchContents m c)),
      (h c main_arg4).trans (by rw [after_ops]; exact val9_main_arg4 (launchContents m c)),
      (h c main_arg5).trans (by rw [after_ops]; exact val9_main_arg5 (launchContents m c)),
      (h c main_arg6).trans (by rw [after_ops]; exact val9_main_arg6 (launchContents m c)),
      (h c main_arg7).trans (by rw [after_ops]; exact val9_main_arg7 (launchContents m c)),
      (h c main_arg8).trans (by rw [after_ops]; exact val9_main_arg8 (launchContents m c)),
      (h c main_arg9).trans (by rw [after_ops]; exact val9_main_arg9 (launchContents m c)),
      (h c main_arg10).trans (by rw [after_ops]; exact val9_main_arg10 (launchContents m c)),
      (h c main_arg11).trans (by rw [after_ops]; exact val9_main_arg11 (launchContents m c)),
      (h c main_arg12).trans (by rw [after_ops]; exact val9_main_arg12 (launchContents m c)),
      (h c main_arg13).trans (by rw [after_ops]; exact val9_main_arg13 (launchContents m c)),
      (h c main_arg14).trans (by rw [after_ops]; exact val9_main_arg14 (launchContents m c)),
      (h c main_arg15).trans (by rw [after_ops]; exact val9_main_arg15 (launchContents m c)),
      (h c main_arg16).trans (by rw [after_ops]; exact val9_main_arg16 (launchContents m c)),
      (h c main_arg17).trans (by rw [after_ops]; exact val9_main_arg17 (launchContents m c)),
      (h c main_arg18).trans (by rw [after_ops]; exact val9_main_arg18 (launchContents m c)),
      (h c main_arg19).trans (by rw [after_ops]; exact val9_main_arg19 (launchContents m c)),
      (h c main_arg20).trans (by rw [after_ops]; exact val9_main_arg20 (launchContents m c)),
      (h c main_arg21).trans (by rw [after_ops]; exact val9_main_arg21 (launchContents m c)),
      (h c main_arg22).trans (by rw [after_ops]; exact val9_main_arg22 (launchContents m c))⟩)
    (run_seq scopedRefs_eq scopedSems_eq defs main (fun _ => ops) main_eq (fun _ => ops_sub) m ρ (fun _ => ops_fresh))

end Cert.ReferenceIdeal.HostRun

end
-- ==== Proof.Algebraic.lean ====
/-
  The certificate's five claims from their parts.

  The three frames are the programs' runs with the results dropped; the idealization rewrote nothing, so it preserves
  the kernel trivially. The algebraic claim: from memories that agree on the twenty-three arguments, the idealized
  kernel ends with its result buffer at `KChain.res` of the arguments and the reference with its result buffer at
  `RefSpec.res` of the same arrays; the two are one function of the arguments (a hypothesis here, as are the seven
  regions' properties), so the results are equal, and both programs leave their arguments unchanged.
-/
import proofs.«112095_j75685913690122_1_alg».proof.Defs
import proofs.«112095_j75685913690122_1_alg».proof.Proof.Gen.Kernel.Frame
import proofs.«112095_j75685913690122_1_alg».proof.Proof.Gen.KernelIdeal.Frame
import proofs.«112095_j75685913690122_1_alg».proof.Proof.Gen.ReferenceIdeal
import proofs.«112095_j75685913690122_1_alg».proof.Proof.Gen.Pre_finite_inputs
import proofs.«112095_j75685913690122_1_alg».proof.Proof.KValue
import proofs.«112095_j75685913690122_1_alg».proof.Proof.HostRun

set_option maxRecDepth 16384

noncomputable section

namespace Cert.Proof.Assembly

open Idealize.ShloMosaic Idealize.ShloMosaic.TcCoe Idealize.SL.Sem
open Cert.Spec (Arr2)

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.HostRun.run m ρ)

/-- The idealization rewrote no operation. -/
theorem preserves : Cert.preserves_Kernel_KernelIdeal := trivial

/-- The reference's result function applied to equal arguments gives equal results. -/
theorem res_congr {a0 b0 : Cert.ReferenceIdeal.RefSpec.Arr Cert.ReferenceIdeal.S100000x128} {a1 b1 : Cert.ReferenceIdeal.RefSpec.IArr Cert.ReferenceIdeal.S1600000} {a2 b2 : Cert.ReferenceIdeal.RefSpec.IArr Cert.ReferenceIdeal.S1600000} {a3 b3 : Cert.ReferenceIdeal.RefSpec.Arr Cert.ReferenceIdeal.S128x128} {a4 b4 : Cert.ReferenceIdeal.RefSpec.Arr Cert.ReferenceIdeal.S128} {a5 b5 : Cert.ReferenceIdeal.RefSpec.Arr Cert.ReferenceIdeal.S128x64} {a6 b6 : Cert.ReferenceIdeal.RefSpec.Arr Cert.ReferenceIdeal.S64} {a7 b7 : Cert.ReferenceIdeal.RefSpec.Arr Cert.ReferenceIdeal.S64x128} {a8 b8 : Cert.ReferenceIdeal.RefSpec.Arr Cert.ReferenceIdeal.S128} {a9 b9 : Cert.ReferenceIdeal.RefSpec.Arr Cert.ReferenceIdeal.S128x128} {a10 b10 : Cert.ReferenceIdeal.RefSpec.Arr Cert.ReferenceIdeal.S128} {a11 b11 : Cert.ReferenceIdeal.RefSpec.Arr Cert.ReferenceIdeal.S128x128} {a12 b12 : Cert.ReferenceIdeal.RefSpec.Arr Cert.ReferenceIdeal.S128} {a13 b13 : Cert.ReferenceIdeal.RefSpec.Arr Cert.ReferenceIdeal.S128x64} {a14 b14 : Cert.ReferenceIdeal.RefSpec.Arr Cert.ReferenceIdeal.S64} {a15 b15 : Cert.ReferenceIdeal.RefSpec.Arr Cert.ReferenceIdeal.S64x128} {a16 b16 : Cert.ReferenceIdeal.RefSpec.Arr Cert.ReferenceIdeal.S128} {a17 b17 : Cert.ReferenceIdeal.RefSpec.Arr Cert.ReferenceIdeal.S128} {a18 b18 : Cert.ReferenceIdeal.RefSpec.Arr Cert.ReferenceIdeal.S128} {a19 b19 : Cert.ReferenceIdeal.RefSpec.Arr Cert.ReferenceIdeal.S64} {a20 b20 : Cert.ReferenceIdeal.RefSpec.Arr Cert.ReferenceIdeal.S64} {a21 b21 : Cert.ReferenceIdeal.RefSpec.Arr Cert.ReferenceIdeal.S128} {a22 b22 : Cert.ReferenceIdeal.RefSpec.Arr Cert.ReferenceIdeal.S128}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) :
    Cert.ReferenceIdeal.RefSpec.res a0 a1 a2 a3 a4 a5 a6 a7 a8 a9 a10 a11 a12 a13 a14 a15 a16 a17 a18 a19 a20 a21 a22 = Cert.ReferenceIdeal.RefSpec.res b0 b1 b2 b3 b4 b5 b6 b7 b8 b9 b10 b11 b12 b13 b14 b15 b16 b17 b18 b19 b20 b21 b22 := by
  subst h0 h1 h2 h3 h4 h5 h6 h7 h8 h9 h10 h11 h12 h13 h14 h15 h16 h17 h18 h19 h20 h21 h22; rfl

/-- The two idealized programs, run from memories that agree on the arguments, end with equal results: the kernel's
    result is `KChain.res` of the arguments (given what its seven regions compute), the reference's is `RefSpec.res` of
    them, and the two functions agree (`hres`). -/
theorem algebraic (H0 : Cert.KernelIdeal.Iface.Final0) (H1 : Cert.KernelIdeal.Iface.Final1) (H2 : Cert.KernelIdeal.Iface.Final2) (H3 : Cert.KernelIdeal.Iface.Final3) (H4 : Cert.KernelIdeal.Iface.Final4) (H5 : Cert.KernelIdeal.Iface.Final5) (H6 : Cert.KernelIdeal.Iface.Final6)
    (hres : ∀ (a0 : Arr2 100000 128) (a1 : Cert.KernelIdeal.KChain.IArr Cert.KernelIdeal.S1600000) (a2 : Cert.KernelIdeal.KChain.IArr Cert.KernelIdeal.S1600000) (a3 : Arr2 128 128) (a4 : Cert.KernelIdeal.KChain.FArr Cert.KernelIdeal.S128) (a5 : Arr2 128 64) (a6 : Cert.KernelIdeal.KChain.FArr Cert.KernelIdeal.S64) (a7 : Arr2 64 128) (a8 : Cert.KernelIdeal.KChain.FArr Cert.KernelIdeal.S128) (a9 : Arr2 128 128) (a10 : Cert.KernelIdeal.KChain.FArr Cert.KernelIdeal.S128) (a11 : Arr2 128 128) (a12 : Cert.KernelIdeal.KChain.FArr Cert.KernelIdeal.S128) (a13 : Arr2 128 64) (a14 : Cert.KernelIdeal.KChain.FArr Cert.KernelIdeal.S64) (a15 : Arr2 64 128) (a16 : Cert.KernelIdeal.KChain.FArr Cert.KernelIdeal.S128) (a17 : Cert.KernelIdeal.KChain.FArr Cert.KernelIdeal.S128) (a18 : Cert.KernelIdeal.KChain.FArr Cert.KernelIdeal.S128) (a19 : Cert.KernelIdeal.KChain.FArr Cert.KernelIdeal.S64) (a20 : Cert.KernelIdeal.KChain.FArr Cert.KernelIdeal.S64) (a21 : Cert.KernelIdeal.KChain.FArr Cert.KernelIdeal.S128) (a22 : Cert.KernelIdeal.KChain.FArr Cert.KernelIdeal.S128),
      (Cert.KernelIdeal.KChain.res a0 a1 a2 a3 a4 a5 a6 a7 a8 a9 a10 a11 a12 a13 a14 a15 a16 a17 a18 a19 a20 a21 a22 : Arr2 100000 128)
        = Cert.ReferenceIdeal.RefSpec.res a0 a1 a2 a3 a4 a5 a6 a7 a8 a9 a10 a11 a12 a13 a14 a15 a16 a17 a18 a19 a20 a21 a22) :
    Cert.algebraic_KernelIdeal_ReferenceIdeal := by
  intro m ρ m' ρ' _ hagree
  refine ⟨_, Cert.KernelIdeal.KValue.run H0 H1 H2 H3 H4 H5 H6 m ρ, ?_⟩
  refine (θ_run Cert.ReferenceIdeal.defs _ _).mono (fun _ h c => ⟨(h c).1.trans ?_, (h c).2⟩)
    (Cert.ReferenceIdeal.HostRun.run m' ρ')
  obtain ⟨e0, e1, e2, e3, e4, e5, e6, e7, e8, e9, e10, e11, e12, e13, e14, e15, e16, e17, e18, e19, e20, e21, e22⟩ := hagree c
  exact (res_congr e0 e1 e2 e3 e4 e5 e6 e7 e8 e9 e10 e11 e12 e13 e14 e15 e16 e17 e18 e19 e20 e21 e22).trans (hres _ _ _ _ _ _ _ _ _ _ _ _ _ _ _ _ _ _ _ _ _ _ _).symm

end Cert.Proof.Assembly

end
-- ==== Proof.SpecRow.lean ====
/-
  A vector of length D seen as an array of one row: entry (0, k) is the vector's entry k. The reference broadcasts a bias
  vector along the rows; the kernel's program reshapes it to one row first. Both read the same entry.
-/
import proofs.«112095_j75685913690122_1_alg».proof.Proof.Spec

noncomputable section

namespace Cert.Spec

open Idealize.ShloMosaic Idealize.ShloMosaic.ValueIdx

/-- The vector `b` as the one-row array whose row is `b`. -/
def rowOf {D : Nat} (b : (⟨1, ![D]⟩ : Shape).Idx → EReal) : Arr2 1 D := fun i => b (ix1 (i 1))

theorem rowOf_apply {D : Nat} (b : (⟨1, ![D]⟩ : Shape).Idx → EReal) (u : Fin 1) (k : Fin D) : rowOf b (ix2 u k) = b (ix1 k) := rfl

end Cert.Spec

end
-- ==== Proof.Bridge.lean ====
/- The host chains of the two programs are the same functions. The tiled program's host stretches and the
   reference apply the same operations in the same order to the edge lists, the edge weights and the
   aggregation over the edges; the two programs' dimension records and shape facts have the same fields, so
   each pair of definitions is equal by unfolding. A bias vector reshaped to one row reads, at column `k`,
   the vector's entry `k`. -/
import proofs.«112095_j75685913690122_1_alg».proof.Proof.KChain
import proofs.«112095_j75685913690122_1_alg».proof.Proof.RefSpec
import proofs.«112095_j75685913690122_1_alg».proof.Proof.SpecRow
import Idealize.ShloMosaic.Lib.ValueLayout

noncomputable section

namespace Cert.Bridge

open Idealize.ShloMosaic Idealize.ShloMosaic.ValueIdx

variable [ReferenceIdeal.Facts]

set_option maxHeartbeats 400000 in
/-- The sources with self loops: the same concatenation. -/
theorem srcSl_eq (a : KernelIdeal.KChain.IArr KernelIdeal.S1600000) :
    KernelIdeal.KChain.srcSl a = ReferenceIdeal.RefSpec.srcSl a := by
  unfold KernelIdeal.KChain.srcSl KernelIdeal.KChain.withLoops ReferenceIdeal.RefSpec.srcSl
  rfl

set_option maxHeartbeats 400000 in
/-- The destinations with self loops: the same concatenation. -/
theorem dstSl_eq (a : KernelIdeal.KChain.IArr KernelIdeal.S1600000) :
    KernelIdeal.KChain.dstSl a = ReferenceIdeal.RefSpec.dstSl a := by
  unfold KernelIdeal.KChain.dstSl KernelIdeal.KChain.withLoops ReferenceIdeal.RefSpec.dstSl
  rfl

set_option maxHeartbeats 400000 in
/-- The edge weights: the same degree count, inverse square root, two reads and product. -/
theorem norm_eq (a1 a2 : KernelIdeal.KChain.IArr KernelIdeal.S1600000) :
    KernelIdeal.KChain.norm a1 a2 = ReferenceIdeal.RefSpec.norm a1 a2 := by
  unfold KernelIdeal.KChain.norm KernelIdeal.KChain.normOf KernelIdeal.KChain.invSqrtDeg KernelIdeal.KChain.col
    KernelIdeal.KChain.wrap ReferenceIdeal.RefSpec.norm
  rw [srcSl_eq, dstSl_eq]
  rfl

set_option maxHeartbeats 400000 in
/-- The aggregation over the edges, 128 wide: the same read, scaling and sum. -/
theorem agg128_eq (hw : Spec.Arr2 100000 128) (s d : KernelIdeal.KChain.IArr KernelIdeal.S1700000)
    (n : KernelIdeal.KChain.FArr KernelIdeal.S1700000) :
    KernelIdeal.KChain.agg128 hw s d n = ReferenceIdeal.RefSpec.agg128 hw s d n := by
  unfold KernelIdeal.KChain.agg128 KernelIdeal.KChain.col KernelIdeal.KChain.wrap ReferenceIdeal.RefSpec.agg128
  rfl

set_option maxHeartbeats 400000 in
/-- The aggregation over the edges, 64 wide. -/
theorem agg64_eq (hw : Spec.Arr2 100000 64) (s d : KernelIdeal.KChain.IArr KernelIdeal.S1700000)
    (n : KernelIdeal.KChain.FArr KernelIdeal.S1700000) :
    KernelIdeal.KChain.agg64 hw s d n = ReferenceIdeal.RefSpec.agg64 hw s d n := by
  unfold KernelIdeal.KChain.agg64 KernelIdeal.KChain.col KernelIdeal.KChain.wrap ReferenceIdeal.RefSpec.agg64
  rfl

/-- A vector of 128 entries reshaped to one row is the vector as a row. -/
theorem row128_eq (b : KernelIdeal.KChain.FArr KernelIdeal.S128) :
    KernelIdeal.KChain.row128 b = Spec.rowOf (D := 128) b := by
  funext i
  obtain ⟨u, k, rfl⟩ : ∃ (u : Fin 1) (k : Fin 128), i = ix2 u k := ⟨i 0, i 1, eq_ix2 i⟩
  unfold KernelIdeal.KChain.row128
  exact (shapeCast_a_1a_apply (a := 128) b _ u k).trans (Spec.rowOf_apply (D := 128) b u k).symm

/-- A vector of 64 entries reshaped to one row is the vector as a row. -/
theorem row64_eq (b : KernelIdeal.KChain.FArr KernelIdeal.S64) :
    KernelIdeal.KChain.row64 b = Spec.rowOf (D := 64) b := by
  funext i
  obtain ⟨u, k, rfl⟩ : ∃ (u : Fin 1) (k : Fin 64), i = ix2 u k := ⟨i 0, i 1, eq_ix2 i⟩
  unfold KernelIdeal.KChain.row64
  exact (shapeCast_a_1a_apply (a := 64) b _ u k).trans (Spec.rowOf_apply (D := 64) b u k).symm

end Cert.Bridge

end
-- ==== Proof.LibKeepdims.lean ====
/-
  General lemmas about arrays read at an index, none of them about any one program.

  A column `[a, 1]` kept by a row-wise reduction (`keepdims`): the cast `[a] → [a, 1]` reads its operand at the row, the
  broadcast `[a, 1] → [a, b]` reads its operand's one column at the row, whatever the column asked for. A sum over a
  one-axis contraction index is the sum over that axis's coordinates.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the index of a one-axis contraction of extent `n` is the sum over `Fin n` of the summand at the index
    whose one coordinate is the `Fin n` value. -/
theorem sum_contr1 {M : Type} [AddCommMonoid M] {sl sr so : Shape} (D : DotDims sl sr so) (n : Nat) (hr : D.contr.rank = 1)
    (hs : D.contr.size ⟨0, by omega⟩ = n) (f : D.contr.Idx → M) :
    ∑ k : D.contr.Idx, f k = ∑ c : Fin n, f ((contrEquiv1 D n hr hs).symm c) :=
  (Equiv.sum_comp (contrEquiv1 D n hr hs).symm f).symm

end Cert.LibKeepdims
-- ==== Proof.RefReadLin.lean ====
/-
  The reference's three matrix products read at an index: entry (r, q) of a host product of an N×K array with a K×M
  array is the sum over k of the products of the operands' entries (r, k) and (k, q). The host operation's own reading
  sums over the index set of its one contracted axis; the four small facts per product say which operand entries that
  index names, and the sum is then re-indexed by the axis's coordinate.
-/
import proofs.«112095_j75685913690122_1_alg».proof.Proof.RefSpec
import proofs.«112095_j75685913690122_1_alg».proof.Proof.SpecRow
import proofs.«112095_j75685913690122_1_alg».proof.Proof.LibKeepdims
import Idealize.ShloMosaic.PureOps.Ideal.Laws
import Idealize.ShloMosaic.Lib.ValueIdx
import Idealize.ShloMosaic.Lib.IdealHost

noncomputable section

open scoped BigOperators

namespace Cert.ReferenceIdeal.RefRead

open Cert.ReferenceIdeal Idealize.ShloMosaic Idealize.ShloMosaic.ValueIdx Idealize.SL.Sem
open Cert.ReferenceIdeal.RefSpec (Arr)

variable [Facts]
open Facts₀ Facts

/-! ### 128 × 128 -/

theorem l128x128_0 (j : S100000x128.Idx) (k : dot_S100000x128_S128x128_S100000x128_1_0_0_1_n_n.contr.Idx) :
    (dot_S100000x128_S128x128_S100000x128_1_0_0_1_n_n.lhsIdx j k 0 : ℕ) = j 0 := by
  simp [DotDims.lhsIdx, dot_S100000x128_S128x128_S100000x128_1_0_0_1_n_n]; rfl
theorem l128x128_1 (j : S100000x128.Idx) (k : dot_S100000x128_S128x128_S100000x128_1_0_0_1_n_n.contr.Idx) :
    (dot_S100000x128_S128x128_S100000x128_1_0_0_1_n_n.lhsIdx j k 1 : ℕ) = k ⟨0, Nat.one_pos⟩ := by
  simp [DotDims.lhsIdx, dot_S100000x128_S128x128_S100000x128_1_0_0_1_n_n]; rfl
theorem r128x128_0 (j : S100000x128.Idx) (k : dot_S100000x128_S128x128_S100000x128_1_0_0_1_n_n.contr.Idx) :
    (dot_S100000x128_S128x128_S100000x128_1_0_0_1_n_n.rhsIdx j k 0 : ℕ) = k ⟨0, Nat.one_pos⟩ := by
  simp [DotDims.rhsIdx, dot_S100000x128_S128x128_S100000x128_1_0_0_1_n_n]; rfl
theorem r128x128_1 (j : S100000x128.Idx) (k : dot_S100000x128_S128x128_S100000x128_1_0_0_1_n_n.contr.Idx) :
    (dot_S100000x128_S128x128_S100000x128_1_0_0_1_n_n.rhsIdx j k 1 : ℕ) = j 1 := by
  simp [DotDims.rhsIdx, dot_S100000x128_S128x128_S100000x128_1_0_0_1_n_n]; rfl

/-- Entry (r, q) of the first layer's product: the sum over the 128 shared coordinates. -/
theorem lin128x128_apply (x : Arr S100000x128) (W : Arr S128x128) (r : Fin 100000) (q : Fin 128) :
    RefSpec.lin128x128 x W (ix2 r q) = ∑ k : Fin 128, x (ix2 r k) * W (ix2 k q) := by
  unfold RefSpec.lin128x128
  refine (Ideal.dotGeneral_apply _ _ _ x W (ix2 r q)).trans ?_
  rw [LibKeepdims.sum_contr1 dot_S100000x128_S128x128_S100000x128_1_0_0_1_n_n 128 rfl rfl]
  refine Finset.sum_congr rfl fun k _ => ?_
  congr 2
  · funext a
    refine Fin.ext ?_
    match a with
    | ⟨0, _⟩ => exact l128x128_0 _ _
    | ⟨1, _⟩ => exact (l128x128_1 _ _).trans (contrEquiv1_symm_val _ 128 rfl rfl k)
  · funext a
    refine Fin.ext ?_
    match a with
    | ⟨0, _⟩ => exact (r128x128_0 _ _).trans (contrEquiv1_symm_val _ 128 rfl rfl k)
    | ⟨1, _⟩ => exact r128x128_1 _ _

/-- The first layer's product is the index-wise matrix product. -/
theorem lin128x128_eq (x : Arr S100000x128) (W : Arr S128x128) :
    (RefSpec.lin128x128 x W : Spec.Arr2 100000 128) = Spec.lin x W := by
  funext i
  obtain ⟨r, q, rfl⟩ : ∃ (r : Fin 100000) (q : Fin 128), i = ix2 r q := ⟨i 0, i 1, eq_ix2 i⟩
  exact lin128x128_apply x W r q

/-! ### 128 × 64 -/

theorem l128x64_0 (j : S100000x64.Idx) (k : dot_S100000x128_S128x64_S100000x64_1_0_0_1_n_n.contr.Idx) :
    (dot_S100000x128_S128x64_S100000x64_1_0_0_1_n_n.lhsIdx j k 0 : ℕ) = j 0 := by
  simp [DotDims.lhsIdx, dot_S100000x128_S128x64_S100000x64_1_0_0_1_n_n]; rfl
theorem l128x64_1 (j : S100000x64.Idx) (k : dot_S100000x128_S128x64_S100000x64_1_0_0_1_n_n.contr.Idx) :
    (dot_S100000x128_S128x64_S100000x64_1_0_0_1_n_n.lhsIdx j k 1 : ℕ) = k ⟨0, Nat.one_pos⟩ := by
  simp [DotDims.lhsIdx, dot_S100000x128_S128x64_S100000x64_1_0_0_1_n_n]; rfl
theorem r128x64_0 (j : S100000x64.Idx) (k : dot_S100000x128_S128x64_S100000x64_1_0_0_1_n_n.contr.Idx) :
    (dot_S100000x128_S128x64_S100000x64_1_0_0_1_n_n.rhsIdx j k 0 : ℕ) = k ⟨0, Nat.one_pos⟩ := by
  simp [DotDims.rhsIdx, dot_S100000x128_S128x64_S100000x64_1_0_0_1_n_n]; rfl
theorem r128x64_1 (j : S100000x64.Idx) (k : dot_S100000x128_S128x64_S100000x64_1_0_0_1_n_n.contr.Idx) :
    (dot_S100000x128_S128x64_S100000x64_1_0_0_1_n_n.rhsIdx j k 1 : ℕ) = j 1 := by
  simp [DotDims.rhsIdx, dot_S100000x128_S128x64_S100000x64_1_0_0_1_n_n]; rfl

/-- Entry (r, q) of the second layer's product: the sum over the 128 shared coordinates. -/
theorem lin128x64_apply (x : Arr S100000x128) (W : Arr S128x64) (r : Fin 100000) (q : Fin 64) :
    RefSpec.lin128x64 x W (ix2 r q) = ∑ k : Fin 128, x (ix2 r k) * W (ix2 k q) := by
  unfold RefSpec.lin128x64
  refine (Ideal.dotGeneral_apply _ _ _ x W (ix2 r q)).trans ?_
  rw [LibKeepdims.sum_contr1 dot_S100000x128_S128x64_S100000x64_1_0_0_1_n_n 128 rfl rfl]
  refine Finset.sum_congr rfl fun k _ => ?_
  congr 2
  · funext a
    refine Fin.ext ?_
    match a with
    | ⟨0, _⟩ => exact l128x64_0 _ _
    | ⟨1, _⟩ => exact (l128x64_1 _ _).trans (contrEquiv1_symm_val _ 128 rfl rfl k)
  · funext a
    refine Fin.ext ?_
    match a with
    | ⟨0, _⟩ => exact (r128x64_0 _ _).trans (contrEquiv1_symm_val _ 128 rfl rfl k)
    | ⟨1, _⟩ => exact r128x64_1 _ _

/-- The second layer's product is the index-wise matrix product. -/
theorem lin128x64_eq (x : Arr S100000x128) (W : Arr S128x64) :
    (RefSpec.lin128x64 x W : Spec.Arr2 100000 64) = Spec.lin x W := by
  funext i
  obtain ⟨r, q, rfl⟩ : ∃ (r : Fin 100000) (q : Fin 64), i = ix2 r q := ⟨i 0, i 1, eq_ix2 i⟩
  exact lin128x64_apply x W r q

/-! ### 64 × 128 -/

theorem l64x128_0 (j : S100000x128.Idx) (k : dot_S100000x64_S64x128_S100000x128_1_0_0_1_n_n.contr.Idx) :
    (dot_S100000x64_S64x128_S100000x128_1_0_0_1_n_n.lhsIdx j k 0 : ℕ) = j 0 := by
  simp [DotDims.lhsIdx, dot_S100000x64_S64x128_S100000x128_1_0_0_1_n_n]; rfl
theorem l64x128_1 (j : S100000x128.Idx) (k : dot_S100000x64_S64x128_S100000x128_1_0_0_1_n_n.contr.Idx) :
    (dot_S100000x64_S64x128_S100000x128_1_0_0_1_n_n.lhsIdx j k 1 : ℕ) = k ⟨0, Nat.one_pos⟩ := by
  simp [DotDims.lhsIdx, dot_S100000x64_S64x128_S100000x128_1_0_0_1_n_n]; rfl
theorem r64x128_0 (j : S100000x128.Idx) (k : dot_S100000x64_S64x128_S100000x128_1_0_0_1_n_n.contr.Idx) :
    (dot_S100000x64_S64x128_S100000x128_1_0_0_1_n_n.rhsIdx j k 0 : ℕ) = k ⟨0, Nat.one_pos⟩ := by
  simp [DotDims.rhsIdx, dot_S100000x64_S64x128_S100000x128_1_0_0_1_n_n]; rfl
theorem r64x128_1 (j : S100000x128.Idx) (k : dot_S100000x64_S64x128_S100000x128_1_0_0_1_n_n.contr.Idx) :
    (dot_S100000x64_S64x128_S100000x128_1_0_0_1_n_n.rhsIdx j k 1 : ℕ) = j 1 := by
  simp [DotDims.rhsIdx, dot_S100000x64_S64x128_S100000x128_1_0_0_1_n_n]; rfl

/-- Entry (r, q) of the third layer's product: the sum over the 64 shared coordinates. -/
theorem lin64x128_apply (x : Arr S100000x64) (W : Arr S64x128) (r : Fin 100000) (q : Fin 128) :
    RefSpec.lin64x128 x W (ix2 r q) = ∑ k : Fin 64, x (ix2 r k) * W (ix2 k q) := by
  unfold RefSpec.lin64x128
  refine (Ideal.dotGeneral_apply _ _ _ x W (ix2 r q)).trans ?_
  rw [LibKeepdims.sum_contr1 dot_S100000x64_S64x128_S100000x128_1_0_0_1_n_n 64 rfl rfl]
  refine Finset.sum_congr rfl fun k _ => ?_
  congr 2
  · funext a
    refine Fin.ext ?_
    match a with
    | ⟨0, _⟩ => exact l64x128_0 _ _
    | ⟨1, _⟩ => exact (l64x128_1 _ _).trans (contrEquiv1_symm_val _ 64 rfl rfl k)
  · funext a
    refine Fin.ext ?_
    match a with
    | ⟨0, _⟩ => exact (r64x128_0 _ _).trans (contrEquiv1_symm_val _ 64 rfl rfl k)
    | ⟨1, _⟩ => exact r64x128_1 _ _

/-- The third layer's product is the index-wise matrix product. -/
theorem lin64x128_eq (x : Arr S100000x64) (W : Arr S64x128) :
    (RefSpec.lin64x128 x W : Spec.Arr2 100000 128) = Spec.lin x W := by
  funext i
  obtain ⟨r, q, rfl⟩ : ∃ (r : Fin 100000) (q : Fin 128), i = ix2 r q := ⟨i 0, i 1, eq_ix2 i⟩
  exact lin64x128_apply x W r q

end Cert.ReferenceIdeal.RefRead

end
-- ==== Proof.RefReadLn.lean ====
/-
  The reference's stage after an aggregation (bias, clip at zero, row normalisation, scale and shift) read at an index.

  Every operation of the stage is read at one entry (r, q): the elementwise ones by definition; a vector broadcast along
  the rows reads its entry q, a column broadcast along the columns its entry r; the host's row sum is the float zero plus
  the sum of the row; the host's quotient and inverse root are the extended reals'. The variance is printed with a guard
  "the divisor is above zero" around its quotient and the divisor as "the row length minus the integer zero converted":
  the converted zero is 0, the divisor is the row length's float, which is above zero, so the guard picks the quotient.
  The mean taken again inside the variance is the same formula on the same row, so both are the row's mean.
-/
import proofs.«112095_j75685913690122_1_alg».proof.Proof.RefSpec
import proofs.«112095_j75685913690122_1_alg».proof.Proof.SpecRow
import proofs.«112095_j75685913690122_1_alg».proof.Proof.LibKeepdims
import Idealize.ShloMosaic.PureOps.Ideal.Laws
import Idealize.ShloMosaic.Lib.ValueIdx
import Idealize.ShloMosaic.Lib.IdealHost

noncomputable section

open scoped BigOperators

namespace Cert.ReferenceIdeal.RefRead

open Cert.ReferenceIdeal Idealize.ShloMosaic Idealize.ShloMosaic.ValueIdx Idealize.SL.Sem
open Cert.ReferenceIdeal.RefSpec (Arr)

variable [Facts]
open Facts₀ Facts

/-- The float 128. -/
abbrev c128 : EReal := Ideal.ofBits .f32 0x43000000#32
/-- The float 64. -/
abbrev c64 : EReal := Ideal.ofBits .f32 0x42800000#32

/-! ### Scalar facts -/

theorem c128_val : c128 = ((128 : ℝ) : EReal) := by
  simp [Ideal.ofBits, Ideal.ieee, -EReal.coe_mul]; norm_num
theorem c64_val : c64 = ((64 : ℝ) : EReal) := by
  simp [Ideal.ofBits, Ideal.ieee, -EReal.coe_mul]; norm_num
theorem c128_pos : (0 : EReal) < c128 := by
  rw [c128_val]; exact EReal.coe_pos.mpr (by norm_num)
theorem c64_pos : (0 : EReal) < c64 := by
  rw [c64_val]; exact EReal.coe_pos.mpr (by norm_num)

/-- The integer zero converted to a float is 0. -/
theorem sitofp_zero_word : FloatOps.sitofp (F := Ideal) .f32 ((constantI S_ 32 0#32 : IVec S_ 32) ix0) = (0 : EReal) := by
  show (((0#32 : BitVec 32).toInt : ℝ) : EReal) = 0
  simp

/-- "Above zero" of a positive extended real is the bit one. -/
theorem cmp_ogt_zero {x : EReal} (hx : 0 < x) : Ideal.cmp .ogt x 0 = 1#1 := by
  simp [Ideal.cmp, hx]

/-- The host's inverse square root at an index is the extended reals'. -/
theorem hostRsqrt_apply {s : Shape} (x : FVec Ideal s .f32) (i : s.Idx) : Host.rsqrt x i = Ideal.rsqrt (x i) := rfl

/-- A vector of 100000 entries made a column reads, at (r, u), its entry r. -/
theorem col_apply (v : Arr S100000) (r : Fin 100000) (u : Fin 1) :
    broadcastInDim S100000x1 ![0] bcast_S100000_S100000x1_0 v (ix2 r u) = v (ix1 r) := by
  refine broadcastInDim_apply _ _ v (ix2 r u) (ix1 r) fun a => ?_
  match a with
  | ⟨0, _⟩ => rfl

/-! ### Width 128 -/

/-- A vector of length 128 broadcast along the rows (through a one-row array) reads, at (r, q), its entry q. -/
theorem brow128_apply (v : Arr S128) (r : Fin 100000) (q : Fin 128) :
    broadcastInDim S100000x128 ![0, 1] bcast_S1x128_S100000x128_0_1 (broadcastInDim S1x128 ![1] bcast_S128_S1x128_1 v) (ix2 r q)
      = v (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ v (ix2 (0 : Fin 1) q) (ix1 q) fun a => ?_
    match a with
    | ⟨0, _⟩ => rfl

/-- A column broadcast along the 128 columns reads, at (r, q), the column's entry at row r. -/
theorem bcol128_apply (c : Arr S100000x1) (r : Fin 100000) (q : Fin 128) :
    broadcastInDim S100000x128 ![0, 1] bcast_S100000x1_S100000x128_0_1 c (ix2 r q) = c (ix2 r (0 : Fin 1)) := by
  refine broadcastInDim_apply _ _ c (ix2 r q) (ix2 r (0 : Fin 1)) fun a => ?_
  match a with
  | ⟨0, _⟩ => rfl
  | ⟨1, _⟩ => rfl

/-- The host's sum along a row of 128 entries, started from the float zero, is the sum of the row. -/
theorem rowsum128_apply (h : Arr S100000x128) (r : Fin 100000) :
    Host.reduceAdd (F := Ideal) h (constant (F := Ideal) S_ .f32 0x00000000#32) reducesTo_S100000x128_S100000_d1 h_S_ (ix1 r)
      = ∑ k : Fin 128, h (ix2 r k) := by
  refine (hostReduceAdd_apply h _ _ _ (ix1 r)).trans ?_
  refine (Ideal.hostReduceAdd_single reducesTo_S100000x128_S100000_d1 (by decide : S100000x128.Reduces [1] S100000) h _ (ix1 r)).trans ?_
  rw [constant_apply, Ideal.ofBits_zero_f32, zero_add]
  refine Finset.sum_congr rfl fun k _ => congrArg h ?_
  funext a
  match a with
  | ⟨0, _⟩ => rfl
  | ⟨1, _⟩ => rfl

/-- The column of row means: each row's sum divided by the float 128. -/
def meanCol128 (h : Arr S100000x128) : Arr S100000x1 :=
  Host.divf (F := Ideal) (broadcastInDim S100000x1 ![0] bcast_S100000_S100000x1_0 (Host.reduceAdd (F := Ideal) h (constant (F := Ideal) S_ .f32 0x00000000#32) reducesTo_S100000x128_S100000_d1 h_S_)) (broadcastInDim S100000x1 ![] bcast_S_S100000x1 (constant (F := Ideal) S_ .f32 0x43000000#32))

theorem meanCol128_apply (h : Arr S100000x128) (r : Fin 100000) (u : Fin 1) :
    meanCol128 h (ix2 r u) = Spec.meanRow c128 (fun k => h (ix2 r k)) := by
  unfold meanCol128 Spec.meanRow
  rw [hostDivf_apply, col_apply, rowsum128_apply, broadcastInDim_scalar_apply, constant_apply]

/-- The divisor of the variance as the program spells it, the float 128 minus the converted integer zero, is the float 128. -/
theorem denom128 :
    (subf (constant (F := Ideal) S_ .f32 0x43000000#32) (sitofp .f32 (constantI S_ 32 0#32)) : Arr S_) ix0 = c128 := by
  rw [subf_apply, constant_apply, sitofp_apply, sitofp_zero_word, sub_zero]

/-- The guard of the variance, "the divisor is above zero", is the bit one. -/
theorem guard128 :
    (cmpf (F := Ideal) .ogt (subf (constant (F := Ideal) S_ .f32 0x43000000#32) (sitofp .f32 (constantI S_ 32 0#32))) (constant (F := Ideal) S_ .f32 0x00000000#32)) ix0 = 1#1 := by
  rw [cmpf_apply, denom128, constant_apply, Ideal.cmpf_def, Ideal.ofBits_zero_f32]
  exact cmp_ogt_zero c128_pos

/-- The column of row variances as the program spells it: the guarded quotient of each row's sum of squared deviations
    from the row's mean by the divisor, the mean taken again by the same formula. -/
def varCol128 (h : Arr S100000x128) : Arr S100000x1 :=
  select (broadcastInDim S100000x1 ![] bcast_S_S100000x1 (cmpf (F := Ideal) .ogt (subf (constant (F := Ideal) S_ .f32 0x43000000#32) (sitofp .f32 (constantI S_ 32 0#32))) (constant (F := Ideal) S_ .f32 0x00000000#32))) (Host.divf (F := Ideal) (broadcastInDim S100000x1 ![0] bcast_S100000_S100000x1_0 (Host.reduceAdd (F := Ideal) (mulf (subf h (broadcastInDim S100000x128 ![0, 1] bcast_S100000x1_S100000x128_0_1 (meanCol128 h))) (subf h (broadcastInDim S100000x128 ![0, 1] bcast_S100000x1_S100000x128_0_1 (meanCol128 h)))) (constant (F := Ideal) S_ .f32 0x00000000#32) reducesTo_S100000x128_S100000_d1 h_S_)) (broadcastInDim S100000x1 ![] bcast_S_S100000x1 (subf (constant (F := Ideal) S_ .f32 0x43000000#32) (sitofp .f32 (constantI S_ 32 0#32))))) (broadcastInDim S100000x1 ![] bcast_S_S100000x1 (id (constant (F := Ideal) S_ .f32 0x7FC00000#32)))

theorem varCol128_apply (h : Arr S100000x128) (r : Fin 100000) (u : Fin 1) :
    varCol128 h (ix2 r u) = Spec.varRow c128 (fun k => h (ix2 r k)) := by
  unfold varCol128 Spec.varRow
  rw [select_apply, broadcastInDim_scalar_apply, guard128, select_one, hostDivf_apply, col_apply, rowsum128_apply,
    broadcastInDim_scalar_apply, denom128]
  refine congrArg (fun t => Ideal.div t c128) (Finset.sum_congr rfl fun k _ => ?_)
  rw [mulf_apply, subf_apply, bcol128_apply, meanCol128_apply]

/-- The bias added to every row and the maximum with zero. -/
def relu128 (s : Arr S100000x128) (b : Arr S128) : Arr S100000x128 :=
  maximumf (addf s (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

theorem relu128_apply (s : Arr S100000x128) (b : Arr S128) (r : Fin 100000) (k : Fin 128) :
    relu128 s b (ix2 r k) = Spec.reluRow s (Spec.rowOf b) r k := by
  unfold relu128 Spec.reluRow
  rw [maximumf_apply, addf_apply, brow128_apply, broadcastInDim_scalar_apply, constant_apply]
  rfl

/-- The stage cut at its parts: the clipped rows, centred by the column of means, scaled by the inverse root of the column
    of variances plus the small constant, times `g`, plus `bt`. -/
theorem postln128_parts (s : Arr S100000x128) (b g bt : Arr S128) :
    RefSpec.postln128 s b g bt =
      addf (mulf (mulf (subf (relu128 s b) (broadcastInDim S100000x128 ![0, 1] bcast_S100000x1_S100000x128_0_1 (meanCol128 (relu128 s b)))) (broadcastInDim S100000x128 ![0, 1] bcast_S100000x1_S100000x128_0_1 (Host.rsqrt (F := Ideal) (addf (varCol128 (relu128 s b)) (broadcastInDim S100000x1 ![] bcast_S_S100000x1 (constant (F := Ideal) S_ .f32 0x3727C5AC#32)))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 bt)) := rfl

/-- The stage after an aggregation, 128 wide, is the index-wise bias, clip and row normalisation. -/
theorem postln128_eq (s : Arr S100000x128) (b g bt : Arr S128) :
    (RefSpec.postln128 s b g bt : Spec.Arr2 100000 128)
      = Spec.postln c128 s (Spec.rowOf b) (Spec.rowOf g) (Spec.rowOf bt) := by
  funext i
  obtain ⟨r, q, rfl⟩ : ∃ (r : Fin 100000) (q : Fin 128), i = ix2 r q := ⟨i 0, i 1, eq_ix2 i⟩
  rw [postln128_parts, addf_apply, mulf_apply, mulf_apply, subf_apply, bcol128_apply, bcol128_apply, brow128_apply,
    brow128_apply, meanCol128_apply, hostRsqrt_apply, addf_apply, varCol128_apply, broadcastInDim_scalar_apply, constant_apply]
  have hrow : (fun k => relu128 s b (ix2 r k)) = Spec.reluRow s (Spec.rowOf b) r := funext fun k => relu128_apply s b r k
  rw [hrow, relu128_apply]
  rfl

/-! ### Width 64 -/

/-- A vector of length 64 broadcast along the rows (through a one-row array) reads, at (r, q), its entry q. -/
theorem brow64_apply (v : Arr S64) (r : Fin 100000) (q : Fin 64) :
    broadcastInDim S100000x64 ![0, 1] bcast_S1x64_S100000x64_0_1 (broadcastInDim S1x64 ![1] bcast_S64_S1x64_1 v) (ix2 r q)
      = v (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ v (ix2 (0 : Fin 1) q) (ix1 q) fun a => ?_
    match a with
    | ⟨0, _⟩ => rfl

/-- A column broadcast along the 64 columns reads, at (r, q), the column's entry at row r. -/
theorem bcol64_apply (c : Arr S100000x1) (r : Fin 100000) (q : Fin 64) :
    broadcastInDim S100000x64 ![0, 1] bcast_S100000x1_S100000x64_0_1 c (ix2 r q) = c (ix2 r (0 : Fin 1)) := by
  refine broadcastInDim_apply _ _ c (ix2 r q) (ix2 r (0 : Fin 1)) fun a => ?_
  match a with
  | ⟨0, _⟩ => rfl
  | ⟨1, _⟩ => rfl

/-- The host's sum along a row of 64 entries, started from the float zero, is the sum of the row. -/
theorem rowsum64_apply (h : Arr S100000x64) (r : Fin 100000) :
    Host.reduceAdd (F := Ideal) h (constant (F := Ideal) S_ .f32 0x00000000#32) reducesTo_S100000x64_S100000_d1 h_S_ (ix1 r)
      = ∑ k : Fin 64, h (ix2 r k) := by
  refine (hostReduceAdd_apply h _ _ _ (ix1 r)).trans ?_
  refine (Ideal.hostReduceAdd_single reducesTo_S100000x64_S100000_d1 (by decide : S100000x64.Reduces [1] S100000) h _ (ix1 r)).trans ?_
  rw [constant_apply, Ideal.ofBits_zero_f32, zero_add]
  refine Finset.sum_congr rfl fun k _ => congrArg h ?_
  funext a
  match a with
  | ⟨0, _⟩ => rfl
  | ⟨1, _⟩ => rfl

/-- The column of row means: each row's sum divided by the float 64. -/
def meanCol64 (h : Arr S100000x64) : Arr S100000x1 :=
  Host.divf (F := Ideal) (broadcastInDim S100000x1 ![0] bcast_S100000_S100000x1_0 (Host.reduceAdd (F := Ideal) h (constant (F := Ideal) S_ .f32 0x00000000#32) reducesTo_S100000x64_S100000_d1 h_S_)) (broadcastInDim S100000x1 ![] bcast_S_S100000x1 (constant (F := Ideal) S_ .f32 0x42800000#32))

theorem meanCol64_apply (h : Arr S100000x64) (r : Fin 100000) (u : Fin 1) :
    meanCol64 h (ix2 r u) = Spec.meanRow c64 (fun k => h (ix2 r k)) := by
  unfold meanCol64 Spec.meanRow
  rw [hostDivf_apply, col_apply, rowsum64_apply, broadcastInDim_scalar_apply, constant_apply]

/-- The divisor of the variance as the program spells it, the float 64 minus the converted integer zero, is the float 64. -/
theorem denom64 :
    (subf (constant (F := Ideal) S_ .f32 0x42800000#32) (sitofp .f32 (constantI S_ 32 0#32)) : Arr S_) ix0 = c64 := by
  rw [subf_apply, constant_apply, sitofp_apply, sitofp_zero_word, sub_zero]

/-- The guard of the variance, "the divisor is above zero", is the bit one. -/
theorem guard64 :
    (cmpf (F := Ideal) .ogt (subf (constant (F := Ideal) S_ .f32 0x42800000#32) (sitofp .f32 (constantI S_ 32 0#32))) (constant (F := Ideal) S_ .f32 0x00000000#32)) ix0 = 1#1 := by
  rw [cmpf_apply, denom64, constant_apply, Ideal.cmpf_def, Ideal.ofBits_zero_f32]
  exact cmp_ogt_zero c64_pos

/-- The column of row variances as the program spells it: the guarded quotient of each row's sum of squared deviations
    from the row's mean by the divisor, the mean taken again by the same formula. -/
def varCol64 (h : Arr S100000x64) : Arr S100000x1 :=
  select (broadcastInDim S100000x1 ![] bcast_S_S100000x1 (cmpf (F := Ideal) .ogt (subf (constant (F := Ideal) S_ .f32 0x42800000#32) (sitofp .f32 (constantI S_ 32 0#32))) (constant (F := Ideal) S_ .f32 0x00000000#32))) (Host.divf (F := Ideal) (broadcastInDim S100000x1 ![0] bcast_S100000_S100000x1_0 (Host.reduceAdd (F := Ideal) (mulf (subf h (broadcastInDim S100000x64 ![0, 1] bcast_S100000x1_S100000x64_0_1 (meanCol64 h))) (subf h (broadcastInDim S100000x64 ![0, 1] bcast_S100000x1_S100000x64_0_1 (meanCol64 h)))) (constant (F := Ideal) S_ .f32 0x00000000#32) reducesTo_S100000x64_S100000_d1 h_S_)) (broadcastInDim S100000x1 ![] bcast_S_S100000x1 (subf (constant (F := Ideal) S_ .f32 0x42800000#32) (sitofp .f32 (constantI S_ 32 0#32))))) (broadcastInDim S100000x1 ![] bcast_S_S100000x1 (id (constant (F := Ideal) S_ .f32 0x7FC00000#32)))

theorem varCol64_apply (h : Arr S100000x64) (r : Fin 100000) (u : Fin 1) :
    varCol64 h (ix2 r u) = Spec.varRow c64 (fun k => h (ix2 r k)) := by
  unfold varCol64 Spec.varRow
  rw [select_apply, broadcastInDim_scalar_apply, guard64, select_one, hostDivf_apply, col_apply, rowsum64_apply,
    broadcastInDim_scalar_apply, denom64]
  refine congrArg (fun t => Ideal.div t c64) (Finset.sum_congr rfl fun k _ => ?_)
  rw [mulf_apply, subf_apply, bcol64_apply, meanCol64_apply]

/-- The bias added to every row and the maximum with zero. -/
def relu64 (s : Arr S100000x64) (b : Arr S64) : Arr S100000x64 :=
  maximumf (addf s (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))

theorem relu64_apply (s : Arr S100000x64) (b : Arr S64) (r : Fin 100000) (k : Fin 64) :
    relu64 s b (ix2 r k) = Spec.reluRow s (Spec.rowOf b) r k := by
  unfold relu64 Spec.reluRow
  rw [maximumf_apply, addf_apply, brow64_apply, broadcastInDim_scalar_apply, constant_apply]
  rfl

/-- The stage cut at its parts: the clipped rows, centred by the column of means, scaled by the inverse root of the column
    of variances plus the small constant, times `g`, plus `bt`. -/
theorem postln64_parts (s : Arr S100000x64) (b g bt : Arr S64) :
    RefSpec.postln64 s b g bt =
      addf (mulf (mulf (subf (relu64 s b) (broadcastInDim S100000x64 ![0, 1] bcast_S100000x1_S100000x64_0_1 (meanCol64 (relu64 s b)))) (broadcastInDim S100000x64 ![0, 1] bcast_S100000x1_S100000x64_0_1 (Host.rsqrt (F := Ideal) (addf (varCol64 (relu64 s b)) (broadcastInDim S100000x1 ![] bcast_S_S100000x1 (constant (F := Ideal) S_ .f32 0x3727C5AC#32)))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 bt)) := rfl

/-- The stage after an aggregation, 64 wide, is the index-wise bias, clip and row normalisation. -/
theorem postln64_eq (s : Arr S100000x64) (b g bt : Arr S64) :
    (RefSpec.postln64 s b g bt : Spec.Arr2 100000 64)
      = Spec.postln c64 s (Spec.rowOf b) (Spec.rowOf g) (Spec.rowOf bt) := by
  funext i
  obtain ⟨r, q, rfl⟩ : ∃ (r : Fin 100000) (q : Fin 64), i = ix2 r q := ⟨i 0, i 1, eq_ix2 i⟩
  rw [postln64_parts, addf_apply, mulf_apply, mulf_apply, subf_apply, bcol64_apply, bcol64_apply, brow64_apply,
    brow64_apply, meanCol64_apply, hostRsqrt_apply, addf_apply, varCol64_apply, broadcastInDim_scalar_apply, constant_apply]
  have hrow : (fun k => relu64 s b (ix2 r k)) = Spec.reluRow s (Spec.rowOf b) r := funext fun k => relu64_apply s b r k
  rw [hrow, relu64_apply]
  rfl

end Cert.ReferenceIdeal.RefRead

end
-- ==== Proof.RefReadMlp.lean ====
/-
  The reference's dense branch and the final mean of the two branches read at an index.

  The dense branch is three layers "product, plus a bias row, maximum with zero" and a last layer "product, plus a bias
  row". Each layer is read at an entry (r, q) from the product's entry (the sum over the shared axis), the bias vector's
  entry q and the float zero; the branch is then the composition of the four index-wise layers.
-/
import proofs.«112095_j75685913690122_1_alg».proof.Proof.RefSpec
import proofs.«112095_j75685913690122_1_alg».proof.Proof.SpecRow
import proofs.«112095_j75685913690122_1_alg».proof.Proof.LibKeepdims
import proofs.«112095_j75685913690122_1_alg».proof.Proof.RefReadLin
import proofs.«112095_j75685913690122_1_alg».proof.Proof.RefReadLn
import Idealize.ShloMosaic.PureOps.Ideal.Laws
import Idealize.ShloMosaic.Lib.ValueIdx
import Idealize.ShloMosaic.Lib.IdealHost

noncomputable section

open scoped BigOperators

namespace Cert.ReferenceIdeal.RefRead

open Cert.ReferenceIdeal Idealize.ShloMosaic Idealize.ShloMosaic.ValueIdx Idealize.SL.Sem
open Cert.ReferenceIdeal.RefSpec (Arr)

variable [Facts]
open Facts₀ Facts

/-- A clipped affine layer from 128 to 128 columns. -/
def dns128x128 (x : Arr S100000x128) (W : Arr S128x128) (b : Arr S128) : Arr S100000x128 :=
  maximumf (addf (RefSpec.lin128x128 x W) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- A clipped affine layer from 128 to 64 columns. -/
def dns128x64 (x : Arr S100000x128) (W : Arr S128x64) (b : Arr S64) : Arr S100000x64 :=
  maximumf (addf (RefSpec.lin128x64 x W) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))

/-- The last affine layer, from 64 to 128 columns, with no clip. -/
def aff64x128 (x : Arr S100000x64) (W : Arr S64x128) (b : Arr S128) : Arr S100000x128 :=
  addf (RefSpec.lin64x128 x W) (broadcastInDim S100000x128 ![0, 1] bcast_S1x128_S100000x128_0_1 (broadcastInDim S1x128 ![1] bcast_S128_S1x128_1 b))

theorem dns128x128_eq (x : Arr S100000x128) (W : Arr S128x128) (b : Arr S128) :
    (dns128x128 x W b : Spec.Arr2 100000 128) = Spec.dense x W (Spec.rowOf b) := by
  funext i
  obtain ⟨r, q, rfl⟩ : ∃ (r : Fin 100000) (q : Fin 128), i = ix2 r q := ⟨i 0, i 1, eq_ix2 i⟩
  unfold dns128x128
  rw [maximumf_apply, addf_apply, lin128x128_apply, brow128_apply, broadcastInDim_scalar_apply, constant_apply]
  rfl

theorem dns128x64_eq (x : Arr S100000x128) (W : Arr S128x64) (b : Arr S64) :
    (dns128x64 x W b : Spec.Arr2 100000 64) = Spec.dense x W (Spec.rowOf b) := by
  funext i
  obtain ⟨r, q, rfl⟩ : ∃ (r : Fin 100000) (q : Fin 64), i = ix2 r q := ⟨i 0, i 1, eq_ix2 i⟩
  unfold dns128x64
  rw [maximumf_apply, addf_apply, lin128x64_apply, brow64_apply, broadcastInDim_scalar_apply, constant_apply]
  rfl

theorem aff64x128_eq (x : Arr S100000x64) (W : Arr S64x128) (b : Arr S128) :
    (aff64x128 x W b : Spec.Arr2 100000 128) = Spec.affine x W (Spec.rowOf b) := by
  funext i
  obtain ⟨r, q, rfl⟩ : ∃ (r : Fin 100000) (q : Fin 128), i = ix2 r q := ⟨i 0, i 1, eq_ix2 i⟩
  unfold aff64x128
  rw [addf_apply, lin64x128_apply, brow128_apply]
  rfl

/-- The dense branch cut at its four layers. -/
theorem mlp_parts (x : Arr S100000x128) (W1 : Arr S128x128) (b1 : Arr S128) (W2 : Arr S128x128) (b2 : Arr S128)
    (W3 : Arr S128x64) (b3 : Arr S64) (W4 : Arr S64x128) (b4 : Arr S128) :
    RefSpec.mlp x W1 b1 W2 b2 W3 b3 W4 b4
      = aff64x128 (dns128x64 (dns128x128 (dns128x128 x W1 b1) W2 b2) W3 b3) W4 b4 := rfl

/-- The dense branch is the composition of the four index-wise layers. -/
theorem mlp_eq (x : Arr S100000x128) (W1 : Arr S128x128) (b1 : Arr S128) (W2 : Arr S128x128) (b2 : Arr S128)
    (W3 : Arr S128x64) (b3 : Arr S64) (W4 : Arr S64x128) (b4 : Arr S128) :
    (RefSpec.mlp x W1 b1 W2 b2 W3 b3 W4 b4 : Spec.Arr2 100000 128)
      = Spec.mlp x W1 (Spec.rowOf b1) W2 (Spec.rowOf b2) W3 (Spec.rowOf b3) W4 (Spec.rowOf b4) := by
  rw [mlp_parts]
  refine (aff64x128_eq _ W4 b4).trans ?_
  unfold Spec.mlp
  rw [dns128x64_eq, dns128x128_eq, dns128x128_eq]

/-- Half the sum of the two branches, entry by entry. -/
theorem combine_eq (g f : Arr S100000x128) :
    (RefSpec.combine g f : Spec.Arr2 100000 128) = Spec.combine g f := by
  funext i
  unfold RefSpec.combine Spec.combine
  rw [mulf_apply, addf_apply, broadcastInDim_scalar_apply, constant_apply]

end Cert.ReferenceIdeal.RefRead

end
-- ==== Proof.RefRead.lean ====
/-
  The reference's stage functions read at an index, gathered: the three matrix products, the stage after an aggregation at
  both widths, the dense branch and the final mean of the two branches, each equal to its index-wise form.
-/
import proofs.«112095_j75685913690122_1_alg».proof.Proof.RefReadLin
import proofs.«112095_j75685913690122_1_alg».proof.Proof.RefReadLn
import proofs.«112095_j75685913690122_1_alg».proof.Proof.RefReadMlp
-- ==== Proof.BridgeRes.lean ====
/- The two programs compute the same function of the twenty-three arguments: the reference's result, read
   stage by stage as the index-wise functions, is the tiled program's result, whose host chains are the
   reference's. -/
import proofs.«112095_j75685913690122_1_alg».proof.Proof.Bridge
import proofs.«112095_j75685913690122_1_alg».proof.Proof.KRes
import proofs.«112095_j75685913690122_1_alg».proof.Proof.RefRead

noncomputable section

namespace Cert.Bridge

open Idealize.ShloMosaic

variable [ReferenceIdeal.Facts]

set_option maxHeartbeats 400000 in
/-- The whole results agree. -/
theorem res_eq (a0 : Spec.Arr2 100000 128) (a1 : KernelIdeal.KChain.IArr KernelIdeal.S1600000) (a2 : KernelIdeal.KChain.IArr KernelIdeal.S1600000) (a3 : Spec.Arr2 128 128) (a4 : KernelIdeal.KChain.FArr KernelIdeal.S128) (a5 : Spec.Arr2 128 64) (a6 : KernelIdeal.KChain.FArr KernelIdeal.S64) (a7 : Spec.Arr2 64 128) (a8 : KernelIdeal.KChain.FArr KernelIdeal.S128) (a9 : Spec.Arr2 128 128) (a10 : KernelIdeal.KChain.FArr KernelIdeal.S128) (a11 : Spec.Arr2 128 128) (a12 : KernelIdeal.KChain.FArr KernelIdeal.S128) (a13 : Spec.Arr2 128 64) (a14 : KernelIdeal.KChain.FArr KernelIdeal.S64) (a15 : Spec.Arr2 64 128) (a16 : KernelIdeal.KChain.FArr KernelIdeal.S128) (a17 : KernelIdeal.KChain.FArr KernelIdeal.S128) (a18 : KernelIdeal.KChain.FArr KernelIdeal.S128) (a19 : KernelIdeal.KChain.FArr KernelIdeal.S64) (a20 : KernelIdeal.KChain.FArr KernelIdeal.S64) (a21 : KernelIdeal.KChain.FArr KernelIdeal.S128) (a22 : KernelIdeal.KChain.FArr KernelIdeal.S128) :
    (KernelIdeal.KChain.res a0 a1 a2 a3 a4 a5 a6 a7 a8 a9 a10 a11 a12 a13 a14 a15 a16 a17 a18 a19 a20 a21 a22 : Spec.Arr2 100000 128) = ReferenceIdeal.RefSpec.res a0 a1 a2 a3 a4 a5 a6 a7 a8 a9 a10 a11 a12 a13 a14 a15 a16 a17 a18 a19 a20 a21 a22 := by
  unfold ReferenceIdeal.RefSpec.res
  rw [ReferenceIdeal.RefRead.combine_eq, ReferenceIdeal.RefRead.mlp_eq, ReferenceIdeal.RefRead.postln128_eq,
    ReferenceIdeal.RefRead.lin64x128_eq, ReferenceIdeal.RefRead.postln64_eq, ReferenceIdeal.RefRead.lin128x64_eq,
    ReferenceIdeal.RefRead.postln128_eq, ReferenceIdeal.RefRead.lin128x128_eq]
  unfold KernelIdeal.KChain.res
  simp only [srcSl_eq, dstSl_eq, norm_eq, agg128_eq, agg64_eq, row128_eq, row64_eq]

end Cert.Bridge

end
-- ==== Proof.Reg0.lean ====
/-
  Region 0: a feature transform. The body multiplies its block of 5000 rows by the whole 128 x 128 matrix; a change of
  float format on the way in is the identity on extended reals, and the product into a zero accumulator is the plain sum
  over the shared axis. Block t holds rows 5000 t .. 5000 t + 4999, so the twenty blocks tile the array and entry
  (r, q) of the result is the sum over k of x (r, k) * W (k, q).
-/
import proofs.«112095_j75685913690122_1_alg».proof.Proof.Iface
import Idealize.ShloMosaic.Lib.Pipeline.Value
import Idealize.ShloMosaic.Lib.ValueIdx
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface

theorem hz : (![0, 0] : Fin 2 → Nat) = fun _ => 0 := funext fun a => by fin_cases a <;> rfl

/-- The matrix product's dimension numbers: rows by the shared axis, times the shared axis by columns. -/
abbrev D := dot_S5000x128_S128x128_S5000x128_1_0_0_1_n_n

theorem lhs_0 (j : S5000x128.Idx) (k : D.contr.Idx) : (D.lhsIdx j k 0 : ℕ) = j 0 := by
  simp [DotDims.lhsIdx, D, dot_S5000x128_S128x128_S5000x128_1_0_0_1_n_n]; rfl
theorem lhs_1 (j : S5000x128.Idx) (k : D.contr.Idx) : (D.lhsIdx j k 1 : ℕ) = k ⟨0, by decide⟩ := by
  simp [DotDims.lhsIdx, D, dot_S5000x128_S128x128_S5000x128_1_0_0_1_n_n]; rfl
theorem rhs_0 (j : S5000x128.Idx) (k : D.contr.Idx) : (D.rhsIdx j k 0 : ℕ) = k ⟨0, by decide⟩ := by
  simp [DotDims.rhsIdx, D, dot_S5000x128_S128x128_S5000x128_1_0_0_1_n_n]; rfl
theorem rhs_1 (j : S5000x128.Idx) (k : D.contr.Idx) : (D.rhsIdx j k 1 : ℕ) = j 1 := by
  simp [DotDims.rhsIdx, D, dot_S5000x128_S128x128_S5000x128_1_0_0_1_n_n]; rfl

/-- The body's value at local entry (p, q): row p of the block against column q of the matrix. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply D none _ _ (ix2 p q)).trans ?_
  rw [← Equiv.sum_comp (contrEquiv1 D 128 rfl rfl).symm]
  refine Finset.sum_congr rfl fun k _ => ?_
  have hl : D.lhsIdx (ix2 p q) ((contrEquiv1 D 128 rfl rfl).symm k) = ix2 p k := by
    funext a; apply Fin.ext
    match a with
    | ⟨0, _⟩ => exact lhs_0 _ _
    | ⟨1, _⟩ => exact (lhs_1 _ _).trans (contrEquiv1_symm_val D 128 rfl rfl k)
  have hr : D.rhsIdx (ix2 p q) ((contrEquiv1 D 128 rfl rfl).symm k) = ix2 k q := by
    funext a; apply Fin.ext
    match a with
    | ⟨0, _⟩ => exact (rhs_0 _ _).trans (contrEquiv1_symm_val D 128 rfl rfl k)
    | ⟨1, _⟩ => exact rhs_1 _ _
  rw [hl, hr]
  rfl

/-- The printed block index maps over the grid: the tall operand and the result move one block of rows per point, the
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : VT)

set_option maxHeartbeats 4000000 in
/-- The tall operand's block at point t, entry (p, k), is the array's entry (5000 t + p, k). -/
theorem blk0_apply (c : Dev nD) (t : Fin cfg0.N) (p : Fin 5000) (k : Fin 128) (i : S100000x128.Idx)
    (h0 : (i 0).val = t.val * 5000 + p.val) (h1 : (i 1).val = k.val) :
    iblk0 V c 0 t (ix2 p k) = (V c main_arg0 : Arr2 100000 128) i := by
  obtain ⟨e0, e1, -, -, -, -⟩ := idx_facts t
  unfold iblk0
  rw [View.read_apply]
  show V c main_arg0 _ = V c main_arg0 _
  congr 1
  funext a; apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The matrix's one block is the matrix. -/
theorem blk1_apply (c : Dev nD) (t : Fin cfg0.N) (k : Fin 128) (q : Fin 128) :
    iblk0 V c 1 t (ix2 k q) = (V c main_arg3 : Arr2 128 128) (ix2 k q) := by
  obtain ⟨-, -, e2, e3, -, -⟩ := idx_facts t
  unfold iblk0
  rw [View.read_apply]
  show V c main_arg3 _ = V c main_arg3 _
  congr 1
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

set_option maxHeartbeats 4000000 in
/-- What point t writes back is block t of the product of the two arrays. -/
theorem flushed_eq (c : Dev nD) (t : Fin cfg0.N) :
    (dat0 V c).flushed 2 t = ((cfg0.win 2).blk t).view.read (Elt Ideal)
      (lin (V c main_arg0 : Arr2 100000 128) (V c main_arg3 : Arr2 128 128)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) p q).trans ?_
  rw [View.read_apply]
  show _ = linAt _ _ ((((cfg0.win 2).blk t).view.emb (ix2 p q)) 0) ((((cfg0.win 2).blk t).view.emb (ix2 p q)) 1)
  unfold linAt
  refine Finset.sum_congr rfl fun k _ => ?_
  have hq : ((((cfg0.win 2).blk t).view.emb (ix2 p q)) 1).val = q.val := by
    show win0_2.index t (1 : Fin 2) * 128 + 1 * q.val = q.val; rw [e5]; omega
  have hp : ((((cfg0.win 2).blk t).view.emb (ix2 p q)) 0).val = t.val * 5000 + p.val := by
    show win0_2.index t (0 : Fin 2) * 5000 + 1 * p.val = _; rw [e4]; omega
  rw [blk0_apply V c t p k (ix2 ((((cfg0.win 2).blk t).view.emb (ix2 p q)) 0) k) hp rfl, blk1_apply V c t k q]
  congr 2
  funext a; apply Fin.ext
  match a with
  | ⟨0, _⟩ => rfl
  | ⟨1, _⟩ => exact hq.symm

set_option maxHeartbeats 4000000 in
/-- An index of the array lies in point t's block iff its row does. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v25).slice (win0_2.rect t)).set ↔ _
  rw [View.set_slice_whole, Rect.mem_set_unit]
  exact Iff.rfl

set_option maxHeartbeats 4000000 in
/-- Every row lies in the block of the point numbered by its quotient by 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

set_option maxHeartbeats 4000000 in
/-- The region's result array is the product of its two operand arrays. -/
theorem final : Final0 := fun V c =>
  (dat0 V c).arrAt_eq_of_cover 2 _ (fun t _ => flushed_eq V c t) cover

end Cert.KernelIdeal.Reg0

end
-- ==== Proof.Reg1.lean ====
/-
  Region 1: bias, clip at zero and layer norm, row by row. The body adds the bias row to its block of 5000 rows, clips
  at zero, takes each row's mean (the row sum over the row length), the mean of the squared deviations, and writes
  (h - mean) * rsqrt (var + eps) * g + beta. A row's sum kept as a column `[5000, 1]` and broadcast back reads, at any
  column, the row's value; so entry (p, q) of the block depends on row p of the tall operand only, and block t holds
  rows 5000 t .. 5000 t + 4999 of the whole array's row-wise normalisation.
-/
import proofs.«112095_j75685913690122_1_alg».proof.Proof.Iface
import proofs.«112095_j75685913690122_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface Cert.LibKeepdims

theorem hz : (![0, 0] : Fin 2 → Nat) = fun _ => 0 := funext fun a => by fin_cases a <;> rfl

/-- The normalised entry depends on the row, the scale, the shift and the column only through their values. -/
theorem lnRow_congr {D : Nat} (cD : EReal) {h h' g g' bt bt' : Fin D → EReal} {q q' : Fin D}
    (eh : h = h') (eg : g = g') (eb : bt = bt') (eq : q = q') : lnRow cD h g bt q = lnRow cD h' g' bt' q' := by
  subst eh eg eb eq; rfl

/-- A row-wise sum of a block, kept as a vector of 5000 row sums, read at row p: the sum of that row's entries. -/
theorem rowSum_apply (src : FVec Ideal S5000x128 .f32) (h : Shape.Reduces S5000x128 [1] S5000) (hφ : FTy.f32 = FTy.f32 ∨ FTy.f32 = FTy.bf16)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The same, as a function of the row. -/
theorem rowSum_fun (src : FVec Ideal S5000x128 .f32) (h : Shape.Reduces S5000x128 [1] S5000) (hφ : FTy.f32 = FTy.f32 ∨ FTy.f32 = FTy.bf16)
    (hacc : (0x00000000#32 : BitVec 32) = 0x00000000#32) :
    multiReduction .add [1] S5000 src 0x00000000#32 h hφ hacc = fun j => ∑ k : Fin 128, src (ix2 (j 0) k) := by
  funext j
  obtain ⟨p, rfl⟩ : ∃ p : Fin 5000, j = ix1 p := ⟨j 0, eq_ix1 j⟩
  exact rowSum_apply src h hφ hacc p

/-- The reciprocal square root of a vector, read at an index, is the scalar one of the entry. -/
theorem rsqrt_apply {s : Shape} (a : FVec Ideal s .f32) (i : s.Idx) : rsqrt a i = Ideal.rsqrt (a i) := rfl

/-- The body's value at local entry (p, q): the normalised, scaled and shifted entry q of row p after bias and clip. -/
theorem pay_apply (x0 : Vec Ideal S5000x128 .f32) (x1 x2 x3 : Vec Ideal S1x128 .f32) (p : Fin 5000) (q : Fin 128) :
    k1_pay1 x0 x1 x2 x3 (ix2 p q)
      = lnRow c128 (fun k => max (x0 (ix2 p k) + x1 (ix2 (0 : Fin 1) k)) zeroV) (fun k => x2 (ix2 (0 : Fin 1) k)) (fun k => x3 (ix2 (0 : Fin 1) k)) q := by
  unfold k1_pay1
  simp only [shapeCast_self, mulf_apply, addf_apply, subf_apply, divf_apply, maximumf_apply, broadcast_apply,
    broadcastTo_1b_ab_apply, broadcastTo_a1_ab_apply, shapeCast_a_a1_apply, rsqrt_apply]
  rw [rowSum_apply, rowSum_apply]
  simp only [shapeCast_self, mulf_apply, addf_apply, subf_apply, divf_apply, maximumf_apply, broadcast_apply,
    broadcastTo_1b_ab_apply, broadcastTo_a1_ab_apply, shapeCast_a_a1_apply, rsqrt_apply]
  rw [rowSum_apply]
  simp only [shapeCast_self, mulf_apply, addf_apply, subf_apply, divf_apply, maximumf_apply, broadcast_apply,
    broadcastTo_1b_ab_apply, broadcastTo_a1_ab_apply, shapeCast_a_a1_apply, rsqrt_apply]
  rfl

/-- The printed block index maps over the grid: the tall operand and the result move one block of rows per point, the
    three single rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : VT)

set_option maxHeartbeats 4000000 in
/-- The tall operand's block at point t, entry (p, k), is the array's entry (5000 t + p, k). -/
theorem blk0_apply (c : Dev nD) (t : Fin cfg1.N) (p : Fin 5000) (k : Fin 128) (i : S100000x128.Idx)
    (h0 : (i 0).val = t.val * 5000 + p.val) (h1 : (i 1).val = k.val) :
    iblk1 V c 0 t (ix2 p k) = (V c main_v38 : Arr2 100000 128) i := by
  obtain ⟨e0, e1, -⟩ := idx_facts t
  unfold iblk1
  rw [View.read_apply]
  show V c main_v38 _ = V c main_v38 _
  congr 1
  funext a; apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- A single-row operand's one block is the row. -/
theorem blk1_apply (c : Dev nD) (t : Fin cfg1.N) (k : Fin 128) :
    iblk1 V c 1 t (ix2 (0 : Fin 1) k) = (V c main_v39 : Arr2 1 128) (ix2 (0 : Fin 1) k) := by
  obtain ⟨-, -, e2, e3, -⟩ := idx_facts t
  unfold iblk1
  rw [View.read_apply]
  show V c main_v39 _ = V c main_v39 _
  congr 1
  funext a; apply Fin.ext
  match a with
  | ⟨0, _⟩ => show win1_1.index t (0 : Fin 2) * 1 + 1 * 0 = 0; rw [e2]
  | ⟨1, _⟩ => show win1_1.index t (1 : Fin 2) * 128 + 1 * k.val = k.val; rw [e3]; omega
theorem blk2_apply (c : Dev nD) (t : Fin cfg1.N) (k : Fin 128) :
    iblk1 V c 2 t (ix2 (0 : Fin 1) k) = (V c main_v40 : Arr2 1 128) (ix2 (0 : Fin 1) k) := by
  obtain ⟨-, -, -, -, e2, e3, -⟩ := idx_facts t
  unfold iblk1
  rw [View.read_apply]
  show V c main_v40 _ = V c main_v40 _
  congr 1
  funext a; apply Fin.ext
  match a with
  | ⟨0, _⟩ => show win1_2.index t (0 : Fin 2) * 1 + 1 * 0 = 0; rw [e2]
  | ⟨1, _⟩ => show win1_2.index t (1 : Fin 2) * 128 + 1 * k.val = k.val; rw [e3]; omega
theorem blk3_apply (c : Dev nD) (t : Fin cfg1.N) (k : Fin 128) :
    iblk1 V c 3 t (ix2 (0 : Fin 1) k) = (V c main_v41 : Arr2 1 128) (ix2 (0 : Fin 1) k) := by
  obtain ⟨-, -, -, -, -, -, e2, e3, -⟩ := idx_facts t
  unfold iblk1
  rw [View.read_apply]
  show V c main_v41 _ = V c main_v41 _
  congr 1
  funext a; apply Fin.ext
  match a with
  | ⟨0, _⟩ => show win1_3.index t (0 : Fin 2) * 1 + 1 * 0 = 0; rw [e2]
  | ⟨1, _⟩ => show win1_3.index t (1 : Fin 2) * 128 + 1 * k.val = k.val; rw [e3]; omega

set_option maxHeartbeats 4000000 in
/-- What point t writes back is block t of the whole array's row-wise normalisation. -/
theorem flushed_eq (c : Dev nD) (t : Fin cfg1.N) :
    (dat1 V c).flushed 4 t = ((cfg1.win 4).blk t).view.read (Elt Ideal)
      (postln c128 (V c main_v38 : Arr2 100000 128) (V c main_v39 : Arr2 1 128) (V c main_v40 : Arr2 1 128) (V c main_v41 : Arr2 1 128)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) p q).trans ?_
  rw [View.read_apply]
  have hq : ((((cfg1.win 4).blk t).view.emb (ix2 p q)) 1).val = q.val := by
    show win1_4.index t (1 : Fin 2) * 128 + 1 * q.val = q.val; rw [e9]; omega
  have hp : ((((cfg1.win 4).blk t).view.emb (ix2 p q)) 0).val = t.val * 5000 + p.val := by
    show win1_4.index t (0 : Fin 2) * 5000 + 1 * p.val = _; rw [e8]; omega
  show _ = lnRow c128 (reluRow (V c main_v38 : Arr2 100000 128) (V c main_v39 : Arr2 1 128) ((((cfg1.win 4).blk t).view.emb (ix2 p q)) 0))
      (fun k => (V c main_v40 : Arr2 1 128) (ix2 (0 : Fin 1) k)) (fun k => (V c main_v41 : Arr2 1 128) (ix2 (0 : Fin 1) k)) ((((cfg1.win 4).blk t).view.emb (ix2 p q)) 1)
  exact (lnRow_congr _
    (funext fun k => by
      unfold reluRow
      rw [blk0_apply V c t p k (ix2 ((((cfg1.win 4).blk t).view.emb (ix2 p q)) 0) k) hp rfl, blk1_apply V c t k])
    (funext fun k => blk2_apply V c t k) (funext fun k => blk3_apply V c t k) (Fin.ext hq.symm))

set_option maxHeartbeats 4000000 in
/-- An index of the array lies in point t's block iff its row does. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

set_option maxHeartbeats 4000000 in
/-- Every row lies in the block of the point numbered by its quotient by 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e8, ht]; omega
  | ⟨1, _⟩ => show win1_4.index t (1 : Fin 2) * 128 ≤ (i 1).val ∧ (i 1).val < win1_4.index t (1 : Fin 2) * 128 + 128; rw [e9]; omega

set_option maxHeartbeats 4000000 in
/-- The region's result array is the row-wise normalisation of its operand arrays. -/
theorem final : Final1 := fun V c =>
  (dat1 V c).arrAt_eq_of_cover 4 _ (fun t _ => flushed_eq V c t) cover

end Cert.KernelIdeal.Reg1

end
-- ==== Proof.Reg2.lean ====
/-
  Region 2: a feature transform. The body multiplies its block of 5000 rows by the whole 128 x 64 matrix; a change of
  float format on the way in is the identity on extended reals, and the product into a zero accumulator is the plain sum
  over the shared axis. Block t holds rows 5000 t .. 5000 t + 4999, so the twenty blocks tile the array and entry
  (r, q) of the result is the sum over k of x (r, k) * W (k, q).
-/
import proofs.«112095_j75685913690122_1_alg».proof.Proof.Iface
import Idealize.ShloMosaic.Lib.Pipeline.Value
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface

theorem hz : (![0, 0] : Fin 2 → Nat) = fun _ => 0 := funext fun a => by fin_cases a <;> rfl

/-- The matrix product's dimension numbers: rows by the shared axis, times the shared axis by columns. -/
abbrev D := dot_S5000x128_S128x64_S5000x64_1_0_0_1_n_n

theorem lhs_0 (j : S5000x64.Idx) (k : D.contr.Idx) : (D.lhsIdx j k 0 : ℕ) = j 0 := by
  simp [DotDims.lhsIdx, D, dot_S5000x128_S128x64_S5000x64_1_0_0_1_n_n]; rfl
theorem lhs_1 (j : S5000x64.Idx) (k : D.contr.Idx) : (D.lhsIdx j k 1 : ℕ) = k ⟨0, by decide⟩ := by
  simp [DotDims.lhsIdx, D, dot_S5000x128_S128x64_S5000x64_1_0_0_1_n_n]; rfl
theorem rhs_0 (j : S5000x64.Idx) (k : D.contr.Idx) : (D.rhsIdx j k 0 : ℕ) = k ⟨0, by decide⟩ := by
  simp [DotDims.rhsIdx, D, dot_S5000x128_S128x64_S5000x64_1_0_0_1_n_n]; rfl
theorem rhs_1 (j : S5000x64.Idx) (k : D.contr.Idx) : (D.rhsIdx j k 1 : ℕ) = j 1 := by
  simp [DotDims.rhsIdx, D, dot_S5000x128_S128x64_S5000x64_1_0_0_1_n_n]; rfl

/-- The body's value at local entry (p, q): row p of the block against column q of the matrix. -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  refine (Ideal.matmul_constant_zero_apply D none _ _ (ix2 p q)).trans ?_
  rw [← Equiv.sum_comp (contrEquiv1 D 128 rfl rfl).symm]
  refine Finset.sum_congr rfl fun k _ => ?_
  have hl : D.lhsIdx (ix2 p q) ((contrEquiv1 D 128 rfl rfl).symm k) = ix2 p k := by
    funext a; apply Fin.ext
    match a with
    | ⟨0, _⟩ => exact lhs_0 _ _
    | ⟨1, _⟩ => exact (lhs_1 _ _).trans (contrEquiv1_symm_val D 128 rfl rfl k)
  have hr : D.rhsIdx (ix2 p q) ((contrEquiv1 D 128 rfl rfl).symm k) = ix2 k q := by
    funext a; apply Fin.ext
    match a with
    | ⟨0, _⟩ => exact (rhs_0 _ _).trans (contrEquiv1_symm_val D 128 rfl rfl k)
    | ⟨1, _⟩ => exact rhs_1 _ _
  rw [hl, hr, shapeCast_self]
  rfl

/-- The printed block index maps over the grid: the tall operand and the result move one block of rows per point, the
    matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : VT)

set_option maxHeartbeats 4000000 in
/-- The tall operand's block at point t, entry (p, k), is the array's entry (5000 t + p, k). -/
theorem blk0_apply (c : Dev nD) (t : Fin cfg2.N) (p : Fin 5000) (k : Fin 128) (i : S100000x128.Idx)
    (h0 : (i 0).val = t.val * 5000 + p.val) (h1 : (i 1).val = k.val) :
    iblk2 V c 0 t (ix2 p k) = (V c main_v42 : Arr2 100000 128) i := by
  obtain ⟨e0, e1, -, -, -, -⟩ := idx_facts t
  unfold iblk2
  rw [View.read_apply]
  show V c main_v42 _ = V c main_v42 _
  congr 1
  funext a; apply Fin.ext
  match a with
  | ⟨0, _⟩ => show win2_0.index t (0 : Fin 2) * 5000 + 1 * p.val = (i 0).val; rw [e0, h0]; omega
  | ⟨1, _⟩ => show win2_0.index t (1 : Fin 2) * 128 + 1 * k.val = (i 1).val; rw [e1, h1]; omega

/-- The matrix's one block is the matrix. -/
theorem blk1_apply (c : Dev nD) (t : Fin cfg2.N) (k : Fin 128) (q : Fin 64) :
    iblk2 V c 1 t (ix2 k q) = (V c main_arg5 : Arr2 128 64) (ix2 k q) := by
  obtain ⟨-, -, e2, e3, -, -⟩ := idx_facts t
  unfold iblk2
  rw [View.read_apply]
  show V c main_arg5 _ = V c main_arg5 _
  congr 1
  funext a; apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

set_option maxHeartbeats 4000000 in
/-- What point t writes back is block t of the product of the two arrays. -/
theorem flushed_eq (c : Dev nD) (t : Fin cfg2.N) :
    (dat2 V c).flushed 2 t = ((cfg2.win 2).blk t).view.read (Elt Ideal)
      (lin (V c main_v42 : Arr2 100000 128) (V c main_arg5 : Arr2 128 64)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e4, e5⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) p q).trans ?_
  rw [View.read_apply]
  show _ = linAt _ _ ((((cfg2.win 2).blk t).view.emb (ix2 p q)) 0) ((((cfg2.win 2).blk t).view.emb (ix2 p q)) 1)
  unfold linAt
  refine Finset.sum_congr rfl fun k _ => ?_
  have hq : ((((cfg2.win 2).blk t).view.emb (ix2 p q)) 1).val = q.val := by
    show win2_2.index t (1 : Fin 2) * 64 + 1 * q.val = q.val; rw [e5]; omega
  have hp : ((((cfg2.win 2).blk t).view.emb (ix2 p q)) 0).val = t.val * 5000 + p.val := by
    show win2_2.index t (0 : Fin 2) * 5000 + 1 * p.val = _; rw [e4]; omega
  rw [blk0_apply V c t p k (ix2 ((((cfg2.win 2).blk t).view.emb (ix2 p q)) 0) k) hp rfl, blk1_apply V c t k q]
  congr 2
  funext a; apply Fin.ext
  match a with
  | ⟨0, _⟩ => rfl
  | ⟨1, _⟩ => exact hq.symm

set_option maxHeartbeats 4000000 in
/-- An index of the array lies in point t's block iff its row does. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

set_option maxHeartbeats 4000000 in
/-- Every row lies in the block of the point numbered by its quotient by 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

set_option maxHeartbeats 4000000 in
/-- The region's result array is the product of its two operand arrays. -/
theorem final : Final2 := fun V c =>
  (dat2 V c).arrAt_eq_of_cover 2 _ (fun t _ => flushed_eq V c t) cover

end Cert.KernelIdeal.Reg2

end
-- ==== Proof.Reg3.lean ====
/-
  Region 3: bias, clip at zero and layer norm, row by row. The body adds the bias row to its block of 5000 rows, clips
  at zero, takes each row's mean (the row sum over the row length), the mean of the squared deviations, and writes
  (h - mean) * rsqrt (var + eps) * g + beta. A row's sum kept as a column `[5000, 1]` and broadcast back reads, at any
  column, the row's value; so entry (p, q) of the block depends on row p of the tall operand only, and block t holds
  rows 5000 t .. 5000 t + 4999 of the whole array's row-wise normalisation.
-/
import proofs.«112095_j75685913690122_1_alg».proof.Proof.Iface
import proofs.«112095_j75685913690122_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface Cert.LibKeepdims

theorem hz : (![0, 0] : Fin 2 → Nat) = fun _ => 0 := funext fun a => by fin_cases a <;> rfl

/-- The normalised entry depends on the row, the scale, the shift and the column only through their values. -/
theorem lnRow_congr {D : Nat} (cD : EReal) {h h' g g' bt bt' : Fin D → EReal} {q q' : Fin D}
    (eh : h = h') (eg : g = g') (eb : bt = bt') (eq : q = q') : lnRow cD h g bt q = lnRow cD h' g' bt' q' := by
  subst eh eg eb eq; rfl

/-- A row-wise sum of a block, kept as a vector of 5000 row sums, read at row p: the sum of that row's entries. -/
theorem rowSum_apply (src : FVec Ideal S5000x64 .f32) (h : Shape.Reduces S5000x64 [1] S5000) (hφ : FTy.f32 = FTy.f32 ∨ FTy.f32 = FTy.bf16)
    (hacc : (0x00000000#32 : BitVec 32) = 0x00000000#32) (p : Fin 5000) :
    multiReduction .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The same, as a function of the row. -/
theorem rowSum_fun (src : FVec Ideal S5000x64 .f32) (h : Shape.Reduces S5000x64 [1] S5000) (hφ : FTy.f32 = FTy.f32 ∨ FTy.f32 = FTy.bf16)
    (hacc : (0x00000000#32 : BitVec 32) = 0x00000000#32) :
    multiReduction .add [1] S5000 src 0x00000000#32 h hφ hacc = fun j => ∑ k : Fin 64, src (ix2 (j 0) k) := by
  funext j
  obtain ⟨p, rfl⟩ : ∃ p : Fin 5000, j = ix1 p := ⟨j 0, eq_ix1 j⟩
  exact rowSum_apply src h hφ hacc p

/-- The reciprocal square root of a vector, read at an index, is the scalar one of the entry. -/
theorem rsqrt_apply {s : Shape} (a : FVec Ideal s .f32) (i : s.Idx) : rsqrt a i = Ideal.rsqrt (a i) := rfl

/-- The body's value at local entry (p, q): the normalised, scaled and shifted entry q of row p after bias and clip. -/
theorem pay_apply (x0 : Vec Ideal S5000x64 .f32) (x1 x2 x3 : Vec Ideal S1x64 .f32) (p : Fin 5000) (q : Fin 64) :
    k3_pay1 x0 x1 x2 x3 (ix2 p q)
      = lnRow c64 (fun k => max (x0 (ix2 p k) + x1 (ix2 (0 : Fin 1) k)) zeroV) (fun k => x2 (ix2 (0 : Fin 1) k)) (fun k => x3 (ix2 (0 : Fin 1) k)) q := by
  unfold k3_pay1
  simp only [shapeCast_self, mulf_apply, addf_apply, subf_apply, divf_apply, maximumf_apply, broadcast_apply,
    broadcastTo_1b_ab_apply, broadcastTo_a1_ab_apply, shapeCast_a_a1_apply, rsqrt_apply]
  rw [rowSum_apply, rowSum_apply]
  simp only [shapeCast_self, mulf_apply, addf_apply, subf_apply, divf_apply, maximumf_apply, broadcast_apply,
    broadcastTo_1b_ab_apply, broadcastTo_a1_ab_apply, shapeCast_a_a1_apply, rsqrt_apply]
  rw [rowSum_apply]
  simp only [shapeCast_self, mulf_apply, addf_apply, subf_apply, divf_apply, maximumf_apply, broadcast_apply,
    broadcastTo_1b_ab_apply, broadcastTo_a1_ab_apply, shapeCast_a_a1_apply, rsqrt_apply]
  rfl

/-- The printed block index maps over the grid: the tall operand and the result move one block of rows per point, the
    three single rows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : VT)

set_option maxHeartbeats 4000000 in
/-- The tall operand's block at point t, entry (p, k), is the array's entry (5000 t + p, k). -/
theorem blk0_apply (c : Dev nD) (t : Fin cfg3.N) (p : Fin 5000) (k : Fin 64) (i : S100000x64.Idx)
    (h0 : (i 0).val = t.val * 5000 + p.val) (h1 : (i 1).val = k.val) :
    iblk3 V c 0 t (ix2 p k) = (V c main_v56 : Arr2 100000 64) i := by
  obtain ⟨e0, e1, -⟩ := idx_facts t
  unfold iblk3
  rw [View.read_apply]
  show V c main_v56 _ = V c main_v56 _
  congr 1
  funext a; apply Fin.ext
  match a with
  | ⟨0, _⟩ => show win3_0.index t (0 : Fin 2) * 5000 + 1 * p.val = (i 0).val; rw [e0, h0]; omega
  | ⟨1, _⟩ => show win3_0.index t (1 : Fin 2) * 64 + 1 * k.val = (i 1).val; rw [e1, h1]; omega

/-- A single-row operand's one block is the row. -/
theorem blk1_apply (c : Dev nD) (t : Fin cfg3.N) (k : Fin 64) :
    iblk3 V c 1 t (ix2 (0 : Fin 1) k) = (V c main_v57 : Arr2 1 64) (ix2 (0 : Fin 1) k) := by
  obtain ⟨-, -, e2, e3, -⟩ := idx_facts t
  unfold iblk3
  rw [View.read_apply]
  show V c main_v57 _ = V c main_v57 _
  congr 1
  funext a; apply Fin.ext
  match a with
  | ⟨0, _⟩ => show win3_1.index t (0 : Fin 2) * 1 + 1 * 0 = 0; rw [e2]
  | ⟨1, _⟩ => show win3_1.index t (1 : Fin 2) * 64 + 1 * k.val = k.val; rw [e3]; omega
theorem blk2_apply (c : Dev nD) (t : Fin cfg3.N) (k : Fin 64) :
    iblk3 V c 2 t (ix2 (0 : Fin 1) k) = (V c main_v58 : Arr2 1 64) (ix2 (0 : Fin 1) k) := by
  obtain ⟨-, -, -, -, e2, e3, -⟩ := idx_facts t
  unfold iblk3
  rw [View.read_apply]
  show V c main_v58 _ = V c main_v58 _
  congr 1
  funext a; apply Fin.ext
  match a with
  | ⟨0, _⟩ => show win3_2.index t (0 : Fin 2) * 1 + 1 * 0 = 0; rw [e2]
  | ⟨1, _⟩ => show win3_2.index t (1 : Fin 2) * 64 + 1 * k.val = k.val; rw [e3]; omega
theorem blk3_apply (c : Dev nD) (t : Fin cfg3.N) (k : Fin 64) :
    iblk3 V c 3 t (ix2 (0 : Fin 1) k) = (V c main_v59 : Arr2 1 64) (ix2 (0 : Fin 1) k) := by
  obtain ⟨-, -, -, -, -, -, e2, e3, -⟩ := idx_facts t
  unfold iblk3
  rw [View.read_apply]
  show V c main_v59 _ = V c main_v59 _
  congr 1
  funext a; apply Fin.ext
  match a with
  | ⟨0, _⟩ => show win3_3.index t (0 : Fin 2) * 1 + 1 * 0 = 0; rw [e2]
  | ⟨1, _⟩ => show win3_3.index t (1 : Fin 2) * 64 + 1 * k.val = k.val; rw [e3]; omega

set_option maxHeartbeats 4000000 in
/-- What point t writes back is block t of the whole array's row-wise normalisation. -/
theorem flushed_eq (c : Dev nD) (t : Fin cfg3.N) :
    (dat3 V c).flushed 4 t = ((cfg3.win 4).blk t).view.read (Elt Ideal)
      (postln c64 (V c main_v56 : Arr2 100000 64) (V c main_v57 : Arr2 1 64) (V c main_v58 : Arr2 1 64) (V c main_v59 : Arr2 1 64)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz]
  obtain ⟨-, -, -, -, -, -, -, -, e8, e9⟩ := idx_facts t
  funext j
  obtain ⟨p, q, rfl⟩ : ∃ (p : Fin 5000) (q : Fin 64), j = ix2 p q := ⟨j 0, j 1, eq_ix2 j⟩
  refine (pay_apply (iblk3 V c 0 t) (iblk3 V c 1 t) (iblk3 V c 2 t) (iblk3 V c 3 t) p q).trans ?_
  rw [View.read_apply]
  have hq : ((((cfg3.win 4).blk t).view.emb (ix2 p q)) 1).val = q.val := by
    show win3_4.index t (1 : Fin 2) * 64 + 1 * q.val = q.val; rw [e9]; omega
  have hp : ((((cfg3.win 4).blk t).view.emb (ix2 p q)) 0).val = t.val * 5000 + p.val := by
    show win3_4.index t (0 : Fin 2) * 5000 + 1 * p.val = _; rw [e8]; omega
  show _ = lnRow c64 (reluRow (V c main_v56 : Arr2 100000 64) (V c main_v57 : Arr2 1 64) ((((cfg3.win 4).blk t).view.emb (ix2 p q)) 0))
      (fun k => (V c main_v58 : Arr2 1 64) (ix2 (0 : Fin 1) k)) (fun k => (V c main_v59 : Arr2 1 64) (ix2 (0 : Fin 1) k)) ((((cfg3.win 4).blk t).view.emb (ix2 p q)) 1)
  exact (lnRow_congr _
    (funext fun k => by
      unfold reluRow
      rw [blk0_apply V c t p k (ix2 ((((cfg3.win 4).blk t).view.emb (ix2 p q)) 0) k) hp rfl, blk1_apply V c t k])
    (funext fun k => blk2_apply V c t k) (funext fun k => blk3_apply V c t k) (Fin.ext hq.symm))

set_option maxHeartbeats 4000000 in
/-- An index of the array lies in point t's block iff its row does. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v60).slice (win3_4.rect t)).set ↔ _
  rw [View.set_slice_whole, Rect.mem_set_unit]
  exact Iff.rfl

set_option maxHeartbeats 4000000 in
/-- Every row lies in the block of the point numbered by its quotient by 5000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, -, -, e8, e9⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; rw [e8, ht]; omega
  | ⟨1, _⟩ => show win3_4.index t (1 : Fin 2) * 64 ≤ (i 1).val ∧ (i 1).val < win3_4.index t (1 : Fin 2) * 64 + 64; rw [e9]; omega

set_option maxHeartbeats 4000000 in
/-- The region's result array is the row-wise normalisation of its operand arrays. -/
theorem final : Final3 := fun V c =>
  (dat3 V c).arrAt_eq_of_cover 4 _ (fun t _ => flushed_eq V c t) cover

end Cert.KernelIdeal.Reg3

end
-- ==== Proof.Reg4.lean ====
/-
  Region 4: a feature transform. The body multiplies its block of 5000 rows by the whole 64 x 128 matrix; a change of
  float format on the way in is the identity on extended reals, and the product into a zero accumulator is the plain sum
  over the shared axis. Block t holds rows 5000 t .. 5000 t + 4999, so the twenty blocks tile the array and entry
  (r, q) of the result is the sum over k of x (r, k) * W (k, q).
-/
import proofs.«112095_j75685913690122_1_alg».proof.Proof.Iface
import Idealize.ShloMosaic.Lib.Pipeline.Value
import Idealize.ShloMosaic.Lib.ValueIdx
import Idealize.ShloMosaic.PureOps.Ideal.Laws

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface

theorem hz : (![0, 0] : Fin 2 → Nat) = fun _ => 0 := funext fun a => by fin_cases a <;> rfl

/-- The matrix product's dimension numbers: rows by the shared axis, times the shared axis by columns. -/
abbrev D := dot_S5000x64_S64x128_S5000x128_1_0_0_1_n_n

theorem lhs_0 (j : S5000x128.Idx) (k : D.contr.Idx) : (D.lhsIdx j k 0 : ℕ) = j 0 := by
  simp [DotDims.lhsIdx, D, dot_S5000x64_S64x128_S5000x128_1_0_0_1_n_n]; rfl
theorem lhs_1 (j : S5000x128.Idx) (k : D.contr.Idx) : (D.lhsIdx j k 1 : ℕ) = k ⟨0, by decide⟩ := by
  simp [DotDims.lhsIdx, D, dot_S5000x64_S64x128_S5000x128_1_0_0_1_n_n]; rfl
theorem rhs_0 (j : S5000x128.Idx) (k : D.contr.Idx) : (D.rhsIdx j k 0 : ℕ) = k ⟨0, by decide⟩ := by
  simp [DotDims.rhsIdx, D, dot_S5000x64_S64x128_S5000x128_1_0_0_1_n_n]; rfl
theorem rhs_1 (j : S5000x128.Idx) (k : D.contr.Idx) : (D.rhsIdx j k 1 : ℕ) = j 1 := by
  simp [DotDims.rhsIdx, D, dot_S5000x64_S64x128_S5000x128_1_0_0_1_n_n]; rfl

/-- The body's value at local entry (p, q): row p of the block against column q of the matrix. -/
theorem pay_apply (x0 : Vec Ideal S5000x64 .f32) (x1 : Vec Ideal S64x128 .f32) (p : Fin 5000) (q : Fin 128) :
    k4_pay1 x0 x1 (ix2 p q) = ∑ k : Fin 64, x0 (ix2 p k) * x1 (ix2 k q) := by
  unfold k4_pay1
  refine (Ideal.matmul_constant_zero_apply D none _ _ (ix2 p q)).trans ?_
  rw [← Equiv.sum_comp (contrEquiv1 D 64 rfl rfl).symm]
  refine Finset.sum_congr rfl fun k _ => ?_
  have hl : D.lhsIdx (ix2 p q) ((contrEquiv1 D 64 rfl rfl).symm k) = ix2 p k := by
    funext a; apply Fin.ext
    match a with
    | ⟨0, _⟩ => exact lhs_0 _ _
    | ⟨1, _⟩ => exact (lhs_1 _ _).trans (contrEquiv1_symm_val D 64 rfl rfl k)
  have hr : D.rhsIdx (ix2 p q) ((contrEquiv1 D 64 rfl rfl).symm k) = ix2 k q := by
    funext a; apply Fin.ext
    match a with
    | ⟨0, _⟩ => exact (rhs_0 _ _).trans (contrEquiv1_symm_val D 64 rfl rfl k)
    | ⟨1, _⟩ => exact rhs_1 _ _
  rw [hl, hr, shapeCast_self]
  rfl

/-- The printed block index maps over the grid: the tall operand and the result move one block of rows per point, the
    matrix stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : VT)

set_option maxHeartbeats 4000000 in
/-- The tall operand's block at point t, entry (p, k), is the array's entry (5000 t + p, k). -/
theorem blk0_apply (c : Dev nD) (t : Fin cfg4.N) (p : Fin 5000) (k : Fin 64) (i : S100000x64.Idx)
    (h0 : (i 0).val = t.val * 5000 + p.val) (h1 : (i 1).val = k.val) :
    iblk4 V c 0 t (ix2 p k) = (V c main_v60 : Arr2 100000 64) i := by
  obtain ⟨e0, e1, -, -, -, -⟩ := idx_facts t
  unfold iblk4
  rw [View.read_apply]
  show V c main_v60 _ = V c main_v60 _
  congr 1
  funext a; apply Fin.ext
  match a with
  | ⟨0, _⟩ => show win4_0.index t (0 : Fin 2) * 5000 + 1 * p.val = (i 0).val; rw [e0, h0]; omega
  | ⟨1, _⟩ => show win4_0.index t (1 : Fin 2) * 64 + 1 * k.val = (i 1).val; rw [e1, h1]; omega

/-- The matrix's one block is the matrix. -/
theorem blk1_apply (c : Dev nD) (t : Fin cfg4.N) (k : Fin 64) (q : Fin 128) :
    iblk4 V c 1 t (ix2 k q) = (V c main_arg7 : Arr2 64 128) (ix2 k q) := by
  obtain ⟨-, -, e2, e3, -, -⟩ := idx_facts t
  unfold iblk4
  rw [View.read_apply]
  show V c main_arg7 _ = V c main_arg7 _
  congr 1
  funext a; apply Fin.ext
  match a with
  | ⟨0, _⟩ => show win4_1.index t (0 : Fin 2) * 64 + 1 * k.val = k.val; rw [e2]; omega
  | ⟨1, _⟩ => show win4_1.index t (1 : Fin 2) * 128 + 1 * q.val = q.val; rw [e3]; omega

set_option maxHeartbeats 4000000 in
/-- What point t writes back is block t of the product of the two arrays. -/
theorem flushed_eq (c : Dev nD) (t : Fin cfg4.N) :
    (dat4 V c).flushed 2 t = ((cfg4.win 2).blk t).view.read (Elt Ideal)
      (lin (V c main_v60 : Arr2 100000 64) (V c main_arg7 : Arr2 64 128)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x128) hz]
  obtain ⟨-, -, -, -, e4, e5⟩ := idx_facts t
  funext j
  obtain ⟨p, q, rfl⟩ : ∃ (p : Fin 5000) (q : Fin 128), j = ix2 p q := ⟨j 0, j 1, eq_ix2 j⟩
  refine (pay_apply (iblk4 V c 0 t) (iblk4 V c 1 t) p q).trans ?_
  rw [View.read_apply]
  show _ = linAt _ _ ((((cfg4.win 2).blk t).view.emb (ix2 p q)) 0) ((((cfg4.win 2).blk t).view.emb (ix2 p q)) 1)
  unfold linAt
  refine Finset.sum_congr rfl fun k _ => ?_
  have hq : ((((cfg4.win 2).blk t).view.emb (ix2 p q)) 1).val = q.val := by
    show win4_2.index t (1 : Fin 2) * 128 + 1 * q.val = q.val; rw [e5]; omega
  have hp : ((((cfg4.win 2).blk t).view.emb (ix2 p q)) 0).val = t.val * 5000 + p.val := by
    show win4_2.index t (0 : Fin 2) * 5000 + 1 * p.val = _; rw [e4]; omega
  rw [blk0_apply V c t p k (ix2 ((((cfg4.win 2).blk t).view.emb (ix2 p q)) 0) k) hp rfl, blk1_apply V c t k q]
  congr 2
  funext a; apply Fin.ext
  match a with
  | ⟨0, _⟩ => rfl
  | ⟨1, _⟩ => exact hq.symm

set_option maxHeartbeats 4000000 in
/-- An index of the array lies in point t's block iff its row does. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v61).slice (win4_2.rect t)).set ↔ _
  rw [View.set_slice_whole, Rect.mem_set_unit]
  exact Iff.rfl

set_option maxHeartbeats 4000000 in
/-- Every row lies in the block of the point numbered by its quotient by 5000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 128 ≤ (i 1).val ∧ (i 1).val < win4_2.index t (1 : Fin 2) * 128 + 128; rw [e5]; omega

set_option maxHeartbeats 4000000 in
/-- The region's result array is the product of its two operand arrays. -/
theorem final : Final4 := fun V c =>
  (dat4 V c).arrAt_eq_of_cover 2 _ (fun t _ => flushed_eq V c t) cover

end Cert.KernelIdeal.Reg4

end
-- ==== Proof.Reg5.lean ====
/-
  Region 5: the dense branch. The body runs its block of 5000 rows through four affine layers, clipping at zero after the
  first three; every layer's matrix product is a sum over the shared axis, a change of float format is the identity, and
  a bias row broadcast over the rows reads the row's entry. Every layer is row-wise, so row p of the block's result is
  row 5000 t + p of the whole array's.
-/
import proofs.«112095_j75685913690122_1_alg».proof.Proof.Iface
import proofs.«112095_j75685913690122_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface Cert.LibKeepdims

theorem hz : (![0, 0] : Fin 2 → Nat) = fun _ => 0 := funext fun a => by fin_cases a <;> rfl

/-! ## The three matrix products the body uses, read at an entry -/

abbrev DA := dot_S5000x128_S128x128_S5000x128_1_0_0_1_n_n
theorem lhsA_0 (j : S5000x128.Idx) (k : DA.contr.Idx) : (DA.lhsIdx j k 0 : ℕ) = j 0 := by
  simp [DotDims.lhsIdx, DA, dot_S5000x128_S128x128_S5000x128_1_0_0_1_n_n]; rfl
theorem lhsA_1 (j : S5000x128.Idx) (k : DA.contr.Idx) : (DA.lhsIdx j k 1 : ℕ) = k ⟨0, by decide⟩ := by
  simp [DotDims.lhsIdx, DA, dot_S5000x128_S128x128_S5000x128_1_0_0_1_n_n]; rfl
theorem rhsA_0 (j : S5000x128.Idx) (k : DA.contr.Idx) : (DA.rhsIdx j k 0 : ℕ) = k ⟨0, by decide⟩ := by
  simp [DotDims.rhsIdx, DA, dot_S5000x128_S128x128_S5000x128_1_0_0_1_n_n]; rfl
theorem rhsA_1 (j : S5000x128.Idx) (k : DA.contr.Idx) : (DA.rhsIdx j k 1 : ℕ) = j 1 := by
  simp [DotDims.rhsIdx, DA, dot_S5000x128_S128x128_S5000x128_1_0_0_1_n_n]; rfl
/-- A 5000x128 by 128x128 product into a zero accumulator, read at (p, q): the sum over the shared axis. -/
theorem mmA_apply (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q) = ∑ k : Fin 128, lhs (ix2 p k) * rhs (ix2 k q) := by
  refine (Ideal.matmul_constant_zero_apply DA none _ _ (ix2 p q)).trans ?_
  rw [← Equiv.sum_comp (contrEquiv1 DA 128 rfl rfl).symm]
  refine Finset.sum_congr rfl fun k _ => ?_
  have hl : DA.lhsIdx (ix2 p q) ((contrEquiv1 DA 128 rfl rfl).symm k) = ix2 p k := by
    funext a; apply Fin.ext
    match a with
    | ⟨0, _⟩ => exact lhsA_0 _ _
    | ⟨1, _⟩ => exact (lhsA_1 _ _).trans (contrEquiv1_symm_val DA 128 rfl rfl k)
  have hr : DA.rhsIdx (ix2 p q) ((contrEquiv1 DA 128 rfl rfl).symm k) = ix2 k q := by
    funext a; apply Fin.ext
    match a with
    | ⟨0, _⟩ => exact (rhsA_0 _ _).trans (contrEquiv1_symm_val DA 128 rfl rfl k)
    | ⟨1, _⟩ => exact rhsA_1 _ _
  rw [hl, hr]

abbrev DB := dot_S5000x128_S128x64_S5000x64_1_0_0_1_n_n
theorem lhsB_0 (j : S5000x64.Idx) (k : DB.contr.Idx) : (DB.lhsIdx j k 0 : ℕ) = j 0 := by
  simp [DotDims.lhsIdx, DB, dot_S5000x128_S128x64_S5000x64_1_0_0_1_n_n]; rfl
theorem lhsB_1 (j : S5000x64.Idx) (k : DB.contr.Idx) : (DB.lhsIdx j k 1 : ℕ) = k ⟨0, by decide⟩ := by
  simp [DotDims.lhsIdx, DB, dot_S5000x128_S128x64_S5000x64_1_0_0_1_n_n]; rfl
theorem rhsB_0 (j : S5000x64.Idx) (k : DB.contr.Idx) : (DB.rhsIdx j k 0 : ℕ) = k ⟨0, by decide⟩ := by
  simp [DotDims.rhsIdx, DB, dot_S5000x128_S128x64_S5000x64_1_0_0_1_n_n]; rfl
theorem rhsB_1 (j : S5000x64.Idx) (k : DB.contr.Idx) : (DB.rhsIdx j k 1 : ℕ) = j 1 := by
  simp [DotDims.rhsIdx, DB, dot_S5000x128_S128x64_S5000x64_1_0_0_1_n_n]; rfl
/-- A 5000x128 by 128x64 product into a zero accumulator, read at (p, q): the sum over the shared axis. -/
theorem mmB_apply (lhs : FVec Ideal S5000x128 .bf16) (rhs : FVec Ideal S128x64 .bf16) (p : Fin 5000) (q : Fin 64) :
    matmul dot_S5000x128_S128x64_S5000x64_1_0_0_1_n_n none lhs rhs (constant S5000x64 .f32 0x00000000#32) (ix2 p q) = ∑ k : Fin 128, lhs (ix2 p k) * rhs (ix2 k q) := by
  refine (Ideal.matmul_constant_zero_apply DB none _ _ (ix2 p q)).trans ?_
  rw [← Equiv.sum_comp (contrEquiv1 DB 128 rfl rfl).symm]
  refine Finset.sum_congr rfl fun k _ => ?_
  have hl : DB.lhsIdx (ix2 p q) ((contrEquiv1 DB 128 rfl rfl).symm k) = ix2 p k := by
    funext a; apply Fin.ext
    match a with
    | ⟨0, _⟩ => exact lhsB_0 _ _
    | ⟨1, _⟩ => exact (lhsB_1 _ _).trans (contrEquiv1_symm_val DB 128 rfl rfl k)
  have hr : DB.rhsIdx (ix2 p q) ((contrEquiv1 DB 128 rfl rfl).symm k) = ix2 k q := by
    funext a; apply Fin.ext
    match a with
    | ⟨0, _⟩ => exact (rhsB_0 _ _).trans (contrEquiv1_symm_val DB 128 rfl rfl k)
    | ⟨1, _⟩ => exact rhsB_1 _ _
  rw [hl, hr]

abbrev DC := dot_S5000x64_S64x128_S5000x128_1_0_0_1_n_n
theorem lhsC_0 (j : S5000x128.Idx) (k : DC.contr.Idx) : (DC.lhsIdx j k 0 : ℕ) = j 0 := by
  simp [DotDims.lhsIdx, DC, dot_S5000x64_S64x128_S5000x128_1_0_0_1_n_n]; rfl
theorem lhsC_1 (j : S5000x128.Idx) (k : DC.contr.Idx) : (DC.lhsIdx j k 1 : ℕ) = k ⟨0, by decide⟩ := by
  simp [DotDims.lhsIdx, DC, dot_S5000x64_S64x128_S5000x128_1_0_0_1_n_n]; rfl
theorem rhsC_0 (j : S5000x128.Idx) (k : DC.contr.Idx) : (DC.rhsIdx j k 0 : ℕ) = k ⟨0, by decide⟩ := by
  simp [DotDims.rhsIdx, DC, dot_S5000x64_S64x128_S5000x128_1_0_0_1_n_n]; rfl
theorem rhsC_1 (j : S5000x128.Idx) (k : DC.contr.Idx) : (DC.rhsIdx j k 1 : ℕ) = j 1 := by
  simp [DotDims.rhsIdx, DC, dot_S5000x64_S64x128_S5000x128_1_0_0_1_n_n]; rfl
/-- A 5000x64 by 64x128 product into a zero accumulator, read at (p, q): the sum over the shared axis. -/
theorem mmC_apply (lhs : FVec Ideal S5000x64 .bf16) (rhs : FVec Ideal S64x128 .bf16) (p : Fin 5000) (q : Fin 128) :
    matmul dot_S5000x64_S64x128_S5000x128_1_0_0_1_n_n none lhs rhs (constant S5000x128 .f32 0x00000000#32) (ix2 p q) = ∑ k : Fin 64, lhs (ix2 p k) * rhs (ix2 k q) := by
  refine (Ideal.matmul_constant_zero_apply DC none _ _ (ix2 p q)).trans ?_
  rw [← Equiv.sum_comp (contrEquiv1 DC 64 rfl rfl).symm]
  refine Finset.sum_congr rfl fun k _ => ?_
  have hl : DC.lhsIdx (ix2 p q) ((contrEquiv1 DC 64 rfl rfl).symm k) = ix2 p k := by
    funext a; apply Fin.ext
    match a with
    | ⟨0, _⟩ => exact lhsC_0 _ _
    | ⟨1, _⟩ => exact (lhsC_1 _ _).trans (contrEquiv1_symm_val DC 64 rfl rfl k)
  have hr : DC.rhsIdx (ix2 p q) ((contrEquiv1 DC 64 rfl rfl).symm k) = ix2 k q := by
    funext a; apply Fin.ext
    match a with
    | ⟨0, _⟩ => exact (rhsC_0 _ _).trans (contrEquiv1_symm_val DC 64 rfl rfl k)
    | ⟨1, _⟩ => exact rhsC_1 _ _
  rw [hl, hr]

/-! ## The layers are row-wise -/

/-- A product's entry in row r depends on row r of the left operand only. -/
theorem linAt_row {N N' K M : Nat} (x : Arr2 N K) (x' : Arr2 N' K) (W : Arr2 K M) (r : Fin N) (r' : Fin N')
    (h : ∀ k : Fin K, x (ix2 r k) = x' (ix2 r' k)) (q : Fin M) : linAt x W r q = linAt x' W r' q :=
  Finset.sum_congr rfl fun k _ => by rw [h k]

theorem dense_row {N N' K M : Nat} (x : Arr2 N K) (x' : Arr2 N' K) (W : Arr2 K M) (b : Arr2 1 M) (r : Fin N) (r' : Fin N')
    (h : ∀ k : Fin K, x (ix2 r k) = x' (ix2 r' k)) (q : Fin M) : dense x W b (ix2 r q) = dense x' W b (ix2 r' q) := by
  show max (linAt x W r q + b (ix2 0 q)) zeroV = max (linAt x' W r' q + b (ix2 0 q)) zeroV
  rw [linAt_row x x' W r r' h q]

theorem affine_row {N N' K M : Nat} (x : Arr2 N K) (x' : Arr2 N' K) (W : Arr2 K M) (b : Arr2 1 M) (r : Fin N) (r' : Fin N')
    (h : ∀ k : Fin K, x (ix2 r k) = x' (ix2 r' k)) (q : Fin M) : affine x W b (ix2 r q) = affine x' W b (ix2 r' q) := by
  show linAt x W r q + b (ix2 0 q) = linAt x' W r' q + b (ix2 0 q)
  rw [linAt_row x x' W r r' h q]

/-- So the whole dense branch is: row r of the result depends on row r of the features only. -/
theorem mlp_row {N N' A B C E : Nat} (x : Arr2 N A) (x' : Arr2 N' A) (W1 : Arr2 A B) (b1 : Arr2 1 B) (W2 : Arr2 B C) (b2 : Arr2 1 C)
    (W3 : Arr2 C E) (b3 : Arr2 1 E) (W4 : Arr2 E A) (b4 : Arr2 1 A) (r : Fin N) (r' : Fin N')
    (h : ∀ k : Fin A, x (ix2 r k) = x' (ix2 r' k)) (q : Fin A) :
    mlp x W1 b1 W2 b2 W3 b3 W4 b4 (ix2 r q) = mlp x' W1 b1 W2 b2 W3 b3 W4 b4 (ix2 r' q) := by
  unfold mlp
  exact affine_row _ _ W4 b4 r r' (fun k => dense_row _ _ W3 b3 r r' (fun k => dense_row _ _ W2 b2 r r' (fun k => dense_row _ _ W1 b1 r r' h k) k) k) q

/-! ## The body's value -/

/-- The body's value on a block: the dense branch of the block. -/
theorem pay_apply (x0 : Vec Ideal S5000x128 .f32) (x1 : Vec Ideal S128x128 .f32) (x2 : Vec Ideal S1x128 .f32) (x3 : Vec Ideal S128x128 .f32)
    (x4 : Vec Ideal S1x128 .f32) (x5 : Vec Ideal S128x64 .f32) (x6 : Vec Ideal S1x64 .f32) (x7 : Vec Ideal S64x128 .f32) (x8 : Vec Ideal S1x128 .f32)
    (p : Fin 5000) (q : Fin 128) :
    k5_pay1 (k5_pay2 x0 x1 x2 x3 x4 x5 x6 x7) x8 (ix2 p q)
      = mlp (x0 : Arr2 5000 128) (x1 : Arr2 128 128) (x2 : Arr2 1 128) (x3 : Arr2 128 128) (x4 : Arr2 1 128) (x5 : Arr2 128 64) (x6 : Arr2 1 64)
          (x7 : Arr2 64 128) (x8 : Arr2 1 128) (ix2 p q) := by
  unfold k5_pay1 k5_pay2
  simp only [shapeCast_self, addf_apply, maximumf_apply, broadcast_apply, truncf_apply, broadcastTo_1b_ab_apply,
    mmA_apply, mmB_apply, mmC_apply]
  rfl

/-- The printed block index maps over the grid: the features and the result move one block of rows per point, the
    eight parameter arrays stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

variable (V : VT)

set_option maxHeartbeats 4000000 in
/-- The features' block at point t, entry (p, k), is the array's entry (5000 t + p, k). -/
theorem blk0_apply (c : Dev nD) (t : Fin cfg5.N) (p : Fin 5000) (k : Fin 128) (i : S100000x128.Idx)
    (h0 : (i 0).val = t.val * 5000 + p.val) (h1 : (i 1).val = k.val) :
    iblk5 V c 0 t (ix2 p k) = (V c main_arg0 : Arr2 100000 128) i := by
  have e := idx_facts t
  unfold iblk5
  rw [View.read_apply]
  show V c main_arg0 _ = V c main_arg0 _
  congr 1
  funext a; apply Fin.ext
  match a with
  | ⟨0, _⟩ => show win5_0.index t (0 : Fin 2) * 5000 + 1 * p.val = (i 0).val; rw [e.1, h0]; omega
  | ⟨1, _⟩ => show win5_0.index t (1 : Fin 2) * 128 + 1 * k.val = (i 1).val; rw [e.2.1, h1]; omega

/-- Operand 1's one block is the whole array. -/
theorem blk1_eq (c : Dev nD) (t : Fin cfg5.N) : (iblk5 V c 1 t : Arr2 128 128) = (V c main_arg9 : Arr2 128 128) := by
  have e := idx_facts t
  funext y
  unfold iblk5
  rw [View.read_apply]
  show V c main_arg9 _ = V c main_arg9 _
  congr 1
  funext ax; apply Fin.ext
  match ax with
  | ⟨0, _⟩ => show win5_1.index t (0 : Fin 2) * 128 + 1 * (y 0).val = (y 0).val; rw [e.2.2.1]; omega
  | ⟨1, _⟩ => show win5_1.index t (1 : Fin 2) * 128 + 1 * (y 1).val = (y 1).val; rw [e.2.2.2.1]; omega

/-- Operand 2's one block is the whole array. -/
theorem blk2_eq (c : Dev nD) (t : Fin cfg5.N) : (iblk5 V c 2 t : Arr2 1 128) = (V c main_v75 : Arr2 1 128) := by
  have e := idx_facts t
  funext y
  unfold iblk5
  rw [View.read_apply]
  show V c main_v75 _ = V c main_v75 _
  congr 1
  funext ax; apply Fin.ext
  match ax with
  | ⟨0, _⟩ => show win5_2.index t (0 : Fin 2) * 1 + 1 * (y 0).val = (y 0).val; rw [e.2.2.2.2.1]; omega
  | ⟨1, _⟩ => show win5_2.index t (1 : Fin 2) * 128 + 1 * (y 1).val = (y 1).val; rw [e.2.2.2.2.2.1]; omega

/-- Operand 3's one block is the whole array. -/
theorem blk3_eq (c : Dev nD) (t : Fin cfg5.N) : (iblk5 V c 3 t : Arr2 128 128) = (V c main_arg11 : Arr2 128 128) := by
  have e := idx_facts t
  funext y
  unfold iblk5
  rw [View.read_apply]
  show V c main_arg11 _ = V c main_arg11 _
  congr 1
  funext ax; apply Fin.ext
  match ax with
  | ⟨0, _⟩ => show win5_3.index t (0 : Fin 2) * 128 + 1 * (y 0).val = (y 0).val; rw [e.2.2.2.2.2.2.1]; omega
  | ⟨1, _⟩ => show win5_3.index t (1 : Fin 2) * 128 + 1 * (y 1).val = (y 1).val; rw [e.2.2.2.2.2.2.2.1]; omega

/-- Operand 4's one block is the whole array. -/
theorem blk4_eq (c : Dev nD) (t : Fin cfg5.N) : (iblk5 V c 4 t : Arr2 1 128) = (V c main_v76 : Arr2 1 128) := by
  have e := idx_facts t
  funext y
  unfold iblk5
  rw [View.read_apply]
  show V c main_v76 _ = V c main_v76 _
  congr 1
  funext ax; apply Fin.ext
  match ax with
  | ⟨0, _⟩ => show win5_4.index t (0 : Fin 2) * 1 + 1 * (y 0).val = (y 0).val; rw [e.2.2.2.2.2.2.2.2.1]; omega
  | ⟨1, _⟩ => show win5_4.index t (1 : Fin 2) * 128 + 1 * (y 1).val = (y 1).val; rw [e.2.2.2.2.2.2.2.2.2.1]; omega

/-- Operand 5's one block is the whole array. -/
theorem blk5_eq (c : Dev nD) (t : Fin cfg5.N) : (iblk5 V c 5 t : Arr2 128 64) = (V c main_arg13 : Arr2 128 64) := by
  have e := idx_facts t
  funext y
  unfold iblk5
  rw [View.read_apply]
  show V c main_arg13 _ = V c main_arg13 _
  congr 1
  funext ax; apply Fin.ext
  match ax with
  | ⟨0, _⟩ => show win5_5.index t (0 : Fin 2) * 128 + 1 * (y 0).val = (y 0).val; rw [e.2.2.2.2.2.2.2.2.2.2.1]; omega
  | ⟨1, _⟩ => show win5_5.index t (1 : Fin 2) * 64 + 1 * (y 1).val = (y 1).val; rw [e.2.2.2.2.2.2.2.2.2.2.2.1]; omega

/-- Operand 6's one block is the whole array. -/
theorem blk6_eq (c : Dev nD) (t : Fin cfg5.N) : (iblk5 V c 6 t : Arr2 1 64) = (V c main_v77 : Arr2 1 64) := by
  have e := idx_facts t
  funext y
  unfold iblk5
  rw [View.read_apply]
  show V c main_v77 _ = V c main_v77 _
  congr 1
  funext ax; apply Fin.ext
  match ax with
  | ⟨0, _⟩ => show win5_6.index t (0 : Fin 2) * 1 + 1 * (y 0).val = (y 0).val; rw [e.2.2.2.2.2.2.2.2.2.2.2.2.1]; omega
  | ⟨1, _⟩ => show win5_6.index t (1 : Fin 2) * 64 + 1 * (y 1).val = (y 1).val; rw [e.2.2.2.2.2.2.2.2.2.2.2.2.2.1]; omega

/-- Operand 7's one block is the whole array. -/
theorem blk7_eq (c : Dev nD) (t : Fin cfg5.N) : (iblk5 V c 7 t : Arr2 64 128) = (V c main_arg15 : Arr2 64 128) := by
  have e := idx_facts t
  funext y
  unfold iblk5
  rw [View.read_apply]
  show V c main_arg15 _ = V c main_arg15 _
  congr 1
  funext ax; apply Fin.ext
  match ax with
  | ⟨0, _⟩ => show win5_7.index t (0 : Fin 2) * 64 + 1 * (y 0).val = (y 0).val; rw [e.2.2.2.2.2.2.2.2.2.2.2.2.2.2.1]; omega
  | ⟨1, _⟩ => show win5_7.index t (1 : Fin 2) * 128 + 1 * (y 1).val = (y 1).val; rw [e.2.2.2.2.2.2.2.2.2.2.2.2.2.2.2.1]; omega

/-- Operand 8's one block is the whole array. -/
theorem blk8_eq (c : Dev nD) (t : Fin cfg5.N) : (iblk5 V c 8 t : Arr2 1 128) = (V c main_v78 : Arr2 1 128) := by
  have e := idx_facts t
  funext y
  unfold iblk5
  rw [View.read_apply]
  show V c main_v78 _ = V c main_v78 _
  congr 1
  funext ax; apply Fin.ext
  match ax with
  | ⟨0, _⟩ => show win5_8.index t (0 : Fin 2) * 1 + 1 * (y 0).val = (y 0).val; rw [e.2.2.2.2.2.2.2.2.2.2.2.2.2.2.2.2.1]; omega
  | ⟨1, _⟩ => show win5_8.index t (1 : Fin 2) * 128 + 1 * (y 1).val = (y 1).val; rw [e.2.2.2.2.2.2.2.2.2.2.2.2.2.2.2.2.2.1]; omega

set_option maxHeartbeats 4000000 in
/-- What point t writes back is block t of the dense branch of the whole feature array. -/
theorem flushed_eq (c : Dev nD) (t : Fin cfg5.N) :
    (dat5 V c).flushed 9 t = ((cfg5.win 9).blk t).view.read (Elt Ideal)
      (mlp (V c main_arg0 : Arr2 100000 128) (V c main_arg9 : Arr2 128 128) (V c main_v75 : Arr2 1 128)
        (V c main_arg11 : Arr2 128 128) (V c main_v76 : Arr2 1 128) (V c main_arg13 : Arr2 128 64) (V c main_v77 : Arr2 1 64)
        (V c main_arg15 : Arr2 64 128) (V c main_v78 : Arr2 1 128)) := by
  show (cfg5.win 9).cut (grid5.coords t) ((dat5 V c).after 9 t) = _
  rw [after5_9]
  unfold out5_9
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz, View.ld_unit_zero (S := S64x128) hz]
  have e := idx_facts t
  funext j
  obtain ⟨p, q, rfl⟩ : ∃ (p : Fin 5000) (q : Fin 128), j = ix2 p q := ⟨j 0, j 1, eq_ix2 j⟩
  refine (pay_apply (iblk5 V c 0 t) (iblk5 V c 1 t) (iblk5 V c 2 t) (iblk5 V c 3 t) (iblk5 V c 4 t) (iblk5 V c 5 t) (iblk5 V c 6 t)
    (iblk5 V c 7 t) (iblk5 V c 8 t) p q).trans ?_
  rw [blk1_eq V c t, blk2_eq V c t, blk3_eq V c t, blk4_eq V c t, blk5_eq V c t, blk6_eq V c t, blk7_eq V c t, blk8_eq V c t, View.read_apply]
  have hq : ((((cfg5.win 9).blk t).view.emb (ix2 p q)) 1).val = q.val := by
    show win5_9.index t (1 : Fin 2) * 128 + 1 * q.val = q.val; rw [e.2.2.2.2.2.2.2.2.2.2.2.2.2.2.2.2.2.2.2]; omega
  have hp : ((((cfg5.win 9).blk t).view.emb (ix2 p q)) 0).val = t.val * 5000 + p.val := by
    show win5_9.index t (0 : Fin 2) * 5000 + 1 * p.val = _; rw [e.2.2.2.2.2.2.2.2.2.2.2.2.2.2.2.2.2.2.1]; omega
  have hE : ((cfg5.win 9).blk t).view.emb (ix2 p q) = ix2 ((((cfg5.win 9).blk t).view.emb (ix2 p q)) 0) q := by
    funext a; apply Fin.ext
    match a with
    | ⟨0, _⟩ => rfl
    | ⟨1, _⟩ => exact hq
  rw [hE]
  exact mlp_row _ _ _ _ _ _ _ _ _ _ p _ (fun k => blk0_apply V c t p k _ hp rfl) q

set_option maxHeartbeats 4000000 in
/-- An index of the array lies in point t's block iff its row does. -/
theorem mem_blk (t : Fin cfg5.N) (i : S100000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v79).slice (win5_9.rect t)).set ↔ _
  rw [View.set_slice_whole, Rect.mem_set_unit]
  exact Iff.rfl

set_option maxHeartbeats 4000000 in
/-- Every row lies in the block of the point numbered by its quotient by 5000. -/
theorem cover (i : S100000x128.Idx) : ∃ t : Fin cfg5.N, (cfg5.win 9).flush t = true ∧ i ∈ ((cfg5.win 9).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have e := idx_facts t
  have ht : t.val = (i 0).val / 5000 := rfl
  refine ⟨t, flush5_9 t, ?_⟩
  rw [mem_blk]
  intro a
  match a with
  | ⟨0, _⟩ => show win5_9.index t (0 : Fin 2) * 5000 ≤ (i 0).val ∧ (i 0).val < win5_9.index t (0 : Fin 2) * 5000 + 5000; rw [e.2.2.2.2.2.2.2.2.2.2.2.2.2.2.2.2.2.2.1, ht]; omega
  | ⟨1, _⟩ => show win5_9.index t (1 : Fin 2) * 128 ≤ (i 1).val ∧ (i 1).val < win5_9.index t (1 : Fin 2) * 128 + 128; rw [e.2.2.2.2.2.2.2.2.2.2.2.2.2.2.2.2.2.2.2]; omega

set_option maxHeartbeats 4000000 in
/-- The region's result array is the dense branch of the feature array. -/
theorem final : Final5 := fun V c =>
  (dat5 V c).arrAt_eq_of_cover 9 _ (fun t _ => flushed_eq V c t) cover

end Cert.KernelIdeal.Reg5

end
-- ==== Proof.Reg6.lean ====
/-
  Region 6: bias, clip at zero and layer norm, row by row, then the mean with the dense branch: ((ln + f) * 1/2). The body adds the bias row to its block of 5000 rows, clips
  at zero, takes each row's mean (the row sum over the row length), the mean of the squared deviations, and writes
  (h - mean) * rsqrt (var + eps) * g + beta. A row's sum kept as a column `[5000, 1]` and broadcast back reads, at any
  column, the row's value; so entry (p, q) of the block depends on row p of the tall operand only, and block t holds
  rows 5000 t .. 5000 t + 4999 of the whole array's row-wise normalisation.
-/
import proofs.«112095_j75685913690122_1_alg».proof.Proof.Iface
import proofs.«112095_j75685913690122_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg6

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.Iface Cert.LibKeepdims

theorem hz : (![0, 0] : Fin 2 → Nat) = fun _ => 0 := funext fun a => by fin_cases a <;> rfl

/-- The normalised entry depends on the row, the scale, the shift and the column only through their values. -/
theorem lnRow_congr {D : Nat} (cD : EReal) {h h' g g' bt bt' : Fin D → EReal} {q q' : Fin D}
    (eh : h = h') (eg : g = g') (eb : bt = bt') (eq : q = q') : lnRow cD h g bt q = lnRow cD h' g' bt' q' := by
  subst eh eg eb eq; rfl

/-- A row-wise sum of a block, kept as a vector of 5000 row sums, read at row p: the sum of that row's entries. -/
theorem rowSum_apply (src : FVec Ideal S5000x128 .f32) (h : Shape.Reduces S5000x128 [1] S5000) (hφ : FTy.f32 = FTy.f32 ∨ FTy.f32 = FTy.bf16)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The same, as a function of the row. -/
theorem rowSum_fun (src : FVec Ideal S5000x128 .f32) (h : Shape.Reduces S5000x128 [1] S5000) (hφ : FTy.f32 = FTy.f32 ∨ FTy.f32 = FTy.bf16)
    (hacc : (0x00000000#32 : BitVec 32) = 0x00000000#32) :
    multiReduction .add [1] S5000 src 0x00000000#32 h hφ hacc = fun j => ∑ k : Fin 128, src (ix2 (j 0) k) := by
  funext j
  obtain ⟨p, rfl⟩ : ∃ p : Fin 5000, j = ix1 p := ⟨j 0, eq_ix1 j⟩
  exact rowSum_apply src h hφ hacc p

/-- The reciprocal square root of a vector, read at an index, is the scalar one of the entry. -/
theorem rsqrt_apply {s : Shape} (a : FVec Ideal s .f32) (i : s.Idx) : rsqrt a i = Ideal.rsqrt (a i) := rfl

/-- The body's value at local entry (p, q): the normalised, scaled and shifted entry q of row p after bias and clip. -/
theorem pay_apply (x0 : Vec Ideal S5000x128 .f32) (x1 x2 x3 : Vec Ideal S1x128 .f32) (x4 : Vec Ideal S5000x128 .f32) (p : Fin 5000) (q : Fin 128) :
    k6_pay1 x0 x1 x2 x3 x4 (ix2 p q)
      = (lnRow c128 (fun k => max (x0 (ix2 p k) + x1 (ix2 (0 : Fin 1) k)) zeroV) (fun k => x2 (ix2 (0 : Fin 1) k)) (fun k => x3 (ix2 (0 : Fin 1) k)) q
          + x4 (ix2 p q)) * halfV := by
  unfold k6_pay1
  simp only [shapeCast_self, mulf_apply, addf_apply, subf_apply, divf_apply, maximumf_apply, broadcast_apply,
    broadcastTo_1b_ab_apply, broadcastTo_a1_ab_apply, shapeCast_a_a1_apply, rsqrt_apply]
  rw [rowSum_apply, rowSum_apply]
  simp only [shapeCast_self, mulf_apply, addf_apply, subf_apply, divf_apply, maximumf_apply, broadcast_apply,
    broadcastTo_1b_ab_apply, broadcastTo_a1_ab_apply, shapeCast_a_a1_apply, rsqrt_apply]
  rw [rowSum_apply]
  simp only [shapeCast_self, mulf_apply, addf_apply, subf_apply, divf_apply, maximumf_apply, broadcast_apply,
    broadcastTo_1b_ab_apply, broadcastTo_a1_ab_apply, shapeCast_a_a1_apply, rsqrt_apply]
  rfl

/-- The printed block index maps over the grid: the tall operand and the result move one block of rows per point, the
    three single rows stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

variable (V : VT)

set_option maxHeartbeats 4000000 in
/-- The tall operand's block at point t, entry (p, k), is the array's entry (5000 t + p, k). -/
theorem blk0_apply (c : Dev nD) (t : Fin cfg6.N) (p : Fin 5000) (k : Fin 128) (i : S100000x128.Idx)
    (h0 : (i 0).val = t.val * 5000 + p.val) (h1 : (i 1).val = k.val) :
    iblk6 V c 0 t (ix2 p k) = (V c main_v74 : Arr2 100000 128) i := by
  obtain ⟨e0, e1, -⟩ := idx_facts t
  unfold iblk6
  rw [View.read_apply]
  show V c main_v74 _ = V c main_v74 _
  congr 1
  funext a; apply Fin.ext
  match a with
  | ⟨0, _⟩ => show win6_0.index t (0 : Fin 2) * 5000 + 1 * p.val = (i 0).val; rw [e0, h0]; omega
  | ⟨1, _⟩ => show win6_0.index t (1 : Fin 2) * 128 + 1 * k.val = (i 1).val; rw [e1, h1]; omega

/-- A single-row operand's one block is the row. -/
theorem blk1_apply (c : Dev nD) (t : Fin cfg6.N) (k : Fin 128) :
    iblk6 V c 1 t (ix2 (0 : Fin 1) k) = (V c main_v80 : Arr2 1 128) (ix2 (0 : Fin 1) k) := by
  obtain ⟨-, -, e2, e3, -⟩ := idx_facts t
  unfold iblk6
  rw [View.read_apply]
  show V c main_v80 _ = V c main_v80 _
  congr 1
  funext a; apply Fin.ext
  match a with
  | ⟨0, _⟩ => show win6_1.index t (0 : Fin 2) * 1 + 1 * 0 = 0; rw [e2]
  | ⟨1, _⟩ => show win6_1.index t (1 : Fin 2) * 128 + 1 * k.val = k.val; rw [e3]; omega
theorem blk2_apply (c : Dev nD) (t : Fin cfg6.N) (k : Fin 128) :
    iblk6 V c 2 t (ix2 (0 : Fin 1) k) = (V c main_v81 : Arr2 1 128) (ix2 (0 : Fin 1) k) := by
  obtain ⟨-, -, -, -, e2, e3, -⟩ := idx_facts t
  unfold iblk6
  rw [View.read_apply]
  show V c main_v81 _ = V c main_v81 _
  congr 1
  funext a; apply Fin.ext
  match a with
  | ⟨0, _⟩ => show win6_2.index t (0 : Fin 2) * 1 + 1 * 0 = 0; rw [e2]
  | ⟨1, _⟩ => show win6_2.index t (1 : Fin 2) * 128 + 1 * k.val = k.val; rw [e3]; omega
theorem blk3_apply (c : Dev nD) (t : Fin cfg6.N) (k : Fin 128) :
    iblk6 V c 3 t (ix2 (0 : Fin 1) k) = (V c main_v82 : Arr2 1 128) (ix2 (0 : Fin 1) k) := by
  obtain ⟨-, -, -, -, -, -, e2, e3, -⟩ := idx_facts t
  unfold iblk6
  rw [View.read_apply]
  show V c main_v82 _ = V c main_v82 _
  congr 1
  funext a; apply Fin.ext
  match a with
  | ⟨0, _⟩ => show win6_3.index t (0 : Fin 2) * 1 + 1 * 0 = 0; rw [e2]
  | ⟨1, _⟩ => show win6_3.index t (1 : Fin 2) * 128 + 1 * k.val = k.val; rw [e3]; omega

set_option maxHeartbeats 4000000 in
/-- The dense branch's block at point t, entry (p, k), is its array's entry (5000 t + p, k). -/
theorem blk4_apply (c : Dev nD) (t : Fin cfg6.N) (p : Fin 5000) (k : Fin 128) (i : S100000x128.Idx)
    (h0 : (i 0).val = t.val * 5000 + p.val) (h1 : (i 1).val = k.val) :
    iblk6 V c 4 t (ix2 p k) = (V c main_v79 : Arr2 100000 128) i := by
  obtain ⟨-, -, -, -, -, -, -, -, e0, e1, -⟩ := idx_facts t
  unfold iblk6
  rw [View.read_apply]
  show V c main_v79 _ = V c main_v79 _
  congr 1
  funext a; apply Fin.ext
  match a with
  | ⟨0, _⟩ => show win6_4.index t (0 : Fin 2) * 5000 + 1 * p.val = (i 0).val; rw [e0, h0]; omega
  | ⟨1, _⟩ => show win6_4.index t (1 : Fin 2) * 128 + 1 * k.val = (i 1).val; rw [e1, h1]; omega

set_option maxHeartbeats 4000000 in
/-- What point t writes back is block t of the mean of the row-wise normalisation and the dense branch. -/
theorem flushed_eq (c : Dev nD) (t : Fin cfg6.N) :
    (dat6 V c).flushed 5 t = ((cfg6.win 5).blk t).view.read (Elt Ideal)
      (combine (postln c128 (V c main_v74 : Arr2 100000 128) (V c main_v80 : Arr2 1 128) (V c main_v81 : Arr2 1 128) (V c main_v82 : Arr2 1 128))
        (V c main_v79 : Arr2 100000 128)) := by
  show (cfg6.win 5).cut (grid6.coords t) ((dat6 V c).after 5 t) = _
  rw [after6_5]
  unfold out6_5
  rw [View.canon_unit_zero hz]
  simp only [View.ld_unit_zero (S := S5000x128) hz, View.ld_unit_zero (S := S1x128) hz]
  obtain ⟨-, -, -, -, -, -, -, -, -, -, e8, e9⟩ := idx_facts t
  funext j
  obtain ⟨p, q, rfl⟩ : ∃ (p : Fin 5000) (q : Fin 128), j = ix2 p q := ⟨j 0, j 1, eq_ix2 j⟩
  refine (pay_apply (iblk6 V c 0 t) (iblk6 V c 1 t) (iblk6 V c 2 t) (iblk6 V c 3 t) (iblk6 V c 4 t) p q).trans ?_
  rw [View.read_apply]
  have hq : ((((cfg6.win 5).blk t).view.emb (ix2 p q)) 1).val = q.val := by
    show win6_5.index t (1 : Fin 2) * 128 + 1 * q.val = q.val; rw [e9]; omega
  have hp : ((((cfg6.win 5).blk t).view.emb (ix2 p q)) 0).val = t.val * 5000 + p.val := by
    show win6_5.index t (0 : Fin 2) * 5000 + 1 * p.val = _; rw [e8]; omega
  show _ = (lnRow c128 (reluRow (V c main_v74 : Arr2 100000 128) (V c main_v80 : Arr2 1 128) ((((cfg6.win 5).blk t).view.emb (ix2 p q)) 0))
      (fun k => (V c main_v81 : Arr2 1 128) (ix2 (0 : Fin 1) k)) (fun k => (V c main_v82 : Arr2 1 128) (ix2 (0 : Fin 1) k)) ((((cfg6.win 5).blk t).view.emb (ix2 p q)) 1)
      + (V c main_v79 : Arr2 100000 128) (((cfg6.win 5).blk t).view.emb (ix2 p q))) * halfV
  rw [blk4_apply V c t p q (((cfg6.win 5).blk t).view.emb (ix2 p q)) hp hq]
  exact congrArg (fun z => (z + (V c main_v79 : Arr2 100000 128) (((cfg6.win 5).blk t).view.emb (ix2 p q))) * halfV) (lnRow_congr _
    (funext fun k => by
      unfold reluRow
      rw [blk0_apply V c t p k (ix2 ((((cfg6.win 5).blk t).view.emb (ix2 p q)) 0) k) hp rfl, blk1_apply V c t k])
    (funext fun k => blk2_apply V c t k) (funext fun k => blk3_apply V c t k) (Fin.ext hq.symm))

set_option maxHeartbeats 4000000 in
/-- An index of the array lies in point t's block iff its row does. -/
theorem mem_blk (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v83).slice (win6_5.rect t)).set ↔ _
  rw [View.set_slice_whole, Rect.mem_set_unit]
  exact Iff.rfl

set_option maxHeartbeats 4000000 in
/-- Every row lies in the block of the point numbered by its quotient by 5000. -/
theorem cover (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨-, -, -, -, -, -, -, -, -, -, e8, e9⟩ := idx_facts t
  have ht : t.val = (i 0).val / 5000 := rfl
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; rw [e8, ht]; omega
  | ⟨1, _⟩ => show win6_5.index t (1 : Fin 2) * 128 ≤ (i 1).val ∧ (i 1).val < win6_5.index t (1 : Fin 2) * 128 + 128; rw [e9]; omega

set_option maxHeartbeats 4000000 in
/-- The region's result array is the mean of the row-wise normalisation and the dense branch's array. -/
theorem final : Final6 := fun V c =>
  (dat6 V c).arrAt_eq_of_cover 5 _ (fun t _ => flushed_eq V c t) cover

end Cert.KernelIdeal.Reg6

end
-- ==== Proof.lean ====
/-
  The claim: the tiled program and the plain reference compute the same function of their arguments over the extended
  reals, and each of the three programs runs to the end leaving its arguments as they were.

  The computation is a three-layer graph convolution beside a four-layer dense branch, averaged. A graph layer
  multiplies the node features by a matrix, lets every node sum its in-neighbours' rows weighted by the inverse square
  roots of the two ends' degrees, adds a bias, clips at zero and normalises every row to mean 0 and variance 1 before a
  per-column scale and shift. The tiled program computes the matrix products, the bias / clip / normalisation steps and
  the dense branch in seven tiled regions, each over twenty blocks of 5000 rows, and leaves the neighbour sums to the
  same host operations the reference uses.

  Every tiled step is row-wise: row r of its result depends on row r of its tall operand only (and on whole small
  operands: a matrix, a bias row). So a block's result is the restriction of the whole array's result to the block's
  rows, the blocks tile the array, and each region's result array is one plain function of its operand arrays
  (Reg0 .. Reg6 against the functions of Spec). A change of float format is the identity on extended reals, a matrix
  product into a zero accumulator is the sum over the shared axis, and a row sum kept as a column and broadcast back
  reads the row's value at every column; the reference's variance divides by 128 - 0 and selects on 128 - 0 > 0, which
  is the same quotient. No step moves a factor across a sum, so finiteness of the inputs is never used.

  The kernel's run carries those seven functions through the host stretches between the regions (KValue), the
  reference's run is read back operation by operation (HostRun) and stage by stage at an index (RefRead), and the two
  nested terms are the same term once the shared host chains are identified (Bridge, BridgeRes).
-/
import proofs.«112095_j75685913690122_1_alg».proof.Defs
import proofs.«112095_j75685913690122_1_alg».proof.Proof.Gen.Kernel
import proofs.«112095_j75685913690122_1_alg».proof.Proof.Gen.Kernel.Skeleton
import proofs.«112095_j75685913690122_1_alg».proof.Proof.Gen.Kernel.Launch
import proofs.«112095_j75685913690122_1_alg».proof.Proof.Gen.Kernel.Points
import proofs.«112095_j75685913690122_1_alg».proof.Proof.Gen.Kernel.Frame
import proofs.«112095_j75685913690122_1_alg».proof.Proof.Gen.KernelIdeal
import proofs.«112095_j75685913690122_1_alg».proof.Proof.Gen.KernelIdeal.Skeleton
import proofs.«112095_j75685913690122_1_alg».proof.Proof.Gen.KernelIdeal.Launch
import proofs.«112095_j75685913690122_1_alg».proof.Proof.Gen.KernelIdeal.Points
import proofs.«112095_j75685913690122_1_alg».proof.Proof.Gen.KernelIdeal.Frame
import proofs.«112095_j75685913690122_1_alg».proof.Proof.Gen.ReferenceIdeal
import proofs.«112095_j75685913690122_1_alg».proof.Proof.Gen.Pre_finite_inputs
import Idealize.ShloMosaic.Adequacy
import Idealize.ShloMosaic.Init
import proofs.«112095_j75685913690122_1_alg».proof.Proof.Algebraic
import proofs.«112095_j75685913690122_1_alg».proof.Proof.BridgeRes
import proofs.«112095_j75685913690122_1_alg».proof.Proof.Reg0
import proofs.«112095_j75685913690122_1_alg».proof.Proof.Reg1
import proofs.«112095_j75685913690122_1_alg».proof.Proof.Reg2
import proofs.«112095_j75685913690122_1_alg».proof.Proof.Reg3
import proofs.«112095_j75685913690122_1_alg».proof.Proof.Reg4
import proofs.«112095_j75685913690122_1_alg».proof.Proof.Reg5
import proofs.«112095_j75685913690122_1_alg».proof.Proof.Reg6

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assembly.frame_k, Assembly.frame_ki, Assembly.frame_ri, Assembly.preserves,
    Assembly.algebraic Cert.KernelIdeal.Reg0.final Cert.KernelIdeal.Reg1.final Cert.KernelIdeal.Reg2.final
      Cert.KernelIdeal.Reg3.final Cert.KernelIdeal.Reg4.final Cert.KernelIdeal.Reg5.final Cert.KernelIdeal.Reg6.final
      Cert.Bridge.res_eq⟩

end Cert.Proof

end
